-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x64 .f32) (main_arg3 : FVec F S64 .f32) (main_arg4 : FVec F S64x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S2000x128 : Shape := ⟨2, ![2000, 128]⟩
abbrev S2000x1 : Shape := ⟨2, ![2000, 1]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 61
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x1, .f32⟩
  | .hbm, ⟨28, _⟩ => ⟨S50000x64, .bf16⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S850000x64, .bf16⟩
  | .hbm, ⟨38, _⟩ => ⟨S850000x64, .f32⟩
  | .hbm, ⟨39, _⟩ => ⟨S_, .f32⟩
  | .hbm, ⟨40, _⟩ => ⟨S50000x64, .f32⟩
  | .hbm, ⟨41, _⟩ => ⟨S850000x1, .i32⟩
  | .hbm, ⟨42, _⟩ => ⟨S50000x64, .f32⟩
  | .hbm, ⟨43, _⟩ => ⟨S1x64, .f32⟩
  | .hbm, ⟨44, _⟩ => ⟨S50000x64, .bf16⟩
  | .hbm, ⟨45, _⟩ => ⟨S_, .i32⟩
  | .hbm, ⟨46, _⟩ => ⟨S850000, .i32⟩
  | .hbm, ⟨47, _⟩ => ⟨S850000, .i1⟩
  | .hbm, ⟨48, _⟩ => ⟨S_, .i32⟩
  | .hbm, ⟨49, _⟩ => ⟨S850000, .i32⟩
  | .hbm, ⟨50, _⟩ => ⟨S850000, .i32⟩
  | .hbm, ⟨51, _⟩ => ⟨S850000, .i32⟩
  | .hbm, ⟨52, _⟩ => ⟨S850000x1, .i32⟩
  | .hbm, ⟨53, _⟩ => ⟨S850000x64, .bf16⟩
  | .hbm, ⟨54, _⟩ => ⟨S850000x64, .f32⟩
  | .hbm, ⟨55, _⟩ => ⟨S_, .f32⟩
  | .hbm, ⟨56, _⟩ => ⟨S50000x64, .f32⟩
  | .hbm, ⟨57, _⟩ => ⟨S850000x1, .i32⟩
  | .hbm, ⟨58, _⟩ => ⟨S50000x64, .f32⟩
  | .hbm, ⟨59, _⟩ => ⟨S1x64, .f32⟩
  | .hbm, ⟨60, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x1, .f32⟩
  | .local _ .vmem, ⟨4, _⟩ => ⟨S2000x1, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S64x64, .f32⟩
  | .local _ .vmem, ⟨13, _⟩ => ⟨S2000x1, .f32⟩
  | .local _ .vmem, ⟨14, _⟩ => ⟨S2000x1, .f32⟩
  | .local _ .vmem, ⟨15, _⟩ => ⟨S2000x64, .bf16⟩
  | .local _ .vmem, ⟨16, _⟩ => ⟨S2000x64, .bf16⟩
  | .local _ .vmem, ⟨17, _⟩ => ⟨S2000x64, .f32⟩
  | .local _ .vmem, ⟨18, _⟩ => ⟨S2000x64, .f32⟩
  | .local _ .vmem, ⟨19, _⟩ => ⟨S2000x1, .f32⟩
  | .local _ .vmem, ⟨20, _⟩ => ⟨S2000x1, .f32⟩
  | .local _ .vmem, ⟨21, _⟩ => ⟨S1x64, .f32⟩
  | .local _ .vmem, ⟨22, _⟩ => ⟨S2000x64, .f32⟩
  | .local _ .vmem, ⟨23, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  scatter_S50000_S850000x1_S850000_n_0_0_1_wf : ScatterDims.WF S50000 S850000x1 S850000 [] [0] [0] 1
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S50000x64.size a
  hwx1_5 : ∀ i : grid1.Coords, EltTy.bits .bf16 = 32 ∨ (Rect.block (s := S50000x64) S2000x64.size (cc1_transform_5 i) (hinb1_5 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v29) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x64 : Shape := ⟨2, ![64, 64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S50000x64 : Shape := ⟨2, ![50000, 64]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S50000x64, .f32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x64, .f32⟩
  | .hbm, ⟨56, _⟩ => ⟨S850000x1, .f32⟩
  | .hbm, ⟨57, _⟩ => ⟨S850000x64, .f32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .hbm, ⟨65, _⟩ => ⟨S50000x64, .f32⟩
  | .hbm, ⟨66, _⟩ => ⟨S_, .f32⟩
  | .hbm, ⟨67, _⟩ => ⟨S50000x64, .f32⟩
  | .hbm, ⟨68, _⟩ => ⟨S50000x64, .f32⟩
  | .hbm, ⟨69, _⟩ => ⟨S50000x64, .f32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S_, .i32⟩
  | .hbm, ⟨104, _⟩ => ⟨S850000, .i32⟩
  | .hbm, ⟨105, _⟩ => ⟨S850000, .i1⟩
  | .hbm, ⟨106, _⟩ => ⟨S_, .i32⟩
  | .hbm, ⟨107, _⟩ => ⟨S850000, .i32⟩
  | .hbm, ⟨108, _⟩ => ⟨S850000, .i32⟩
  | .hbm, ⟨109, _⟩ => ⟨S850000, .i32⟩
  | .hbm, ⟨110, _⟩ => ⟨S850000x1, .i32⟩
  | .hbm, ⟨111, _⟩ => ⟨S850000x64, .f32⟩
  | .hbm, ⟨112, _⟩ => ⟨S850000x1, .f32⟩
  | .hbm, ⟨113, _⟩ => ⟨S850000x64, .f32⟩
  | .hbm, ⟨114, _⟩ => ⟨S850000x64, .f32⟩
  | .hbm, ⟨115, _⟩ => ⟨S_, .f32⟩
  | .hbm, ⟨116, _⟩ => ⟨S50000x64, .f32⟩
  | .hbm, ⟨117, _⟩ => ⟨S850000x1, .i32⟩
  | .hbm, ⟨118, _⟩ => ⟨S50000x64, .f32⟩
  | .hbm, ⟨119, _⟩ => ⟨S1x64, .f32⟩
  | .hbm, ⟨120, _⟩ => ⟨S50000x64, .f32⟩
  | .hbm, ⟨121, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x64_S50000x64_1_0_0_1_n_n_wf : DotDims.WF S50000x64 S64x64 S50000x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KBody0.lean ====
/-
  The first of the three kernels, one grid point at a time: the product of a 2000×128 block of the features with the
  128×64 weights, each row scaled by that row's entry of a 2000×1 column, stored whole into the 2000×64 output block.

  `iblk0` is a window's block of its array at a point; `out0_3` what the body leaves in the output block as a function of
  the three input blocks (its one store, of the payload `k0_pay1` of the three loads); `sound_kernel0` the body's triple;
  `dat0` the pipeline's proof data at given entry contents `V` (every input block left in place, the output block at
  `out0_3` of the inputs' blocks, nothing owed, full shares); `body_obligation0` the library's obligation at every point.
-/
import proofs.«121536_j14388140441820_2_alg».proof.Proof.Gen.Kernel.Launch
import proofs.«121536_j14388140441820_2_alg».proof.Proof.Gen.Kernel.Skeleton
import proofs.«121536_j14388140441820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_d : Rect S2000x1 := Rect.unit (s := S2000x1) ![0, 0] S2000x1.size inb_S2000x1_S2000x1_0_0
abbrev r0_o : Rect S2000x64 := Rect.unit (s := S2000x64) ![0, 0] S2000x64.size inb_S2000x64_S2000x64_0_0

/-- The output block after the body: its one store, of the payload of the three loads. -/
def out0_3 (x0 : Vec F S2000x128 .f32) (x1 : Vec F S128x64 .f32) (x2 : Vec F S2000x1 .f32) : Vec F S2000x64 .bf16 :=
  View.canon [⟨r0_o, k0_pay1 (View.ld x0 r0_x) (View.ld x1 r0_w) (View.ld x2 r0_d)⟩]

/-- The store covers the block. -/
theorem cover0_3 (p0 : Vec F S2000x64 .bf16) (y : S2000x64.Idx) :
    ∃ pc ∈ ([⟨r0_o, p0⟩] : List (View.Piece (Elt F) S2000x64 .bf16)), y ∈ pc.1.set :=
  View.cover_of_tiled [⟨r0_o, p0⟩] S2000x64.size (by rfl) y

set_option maxHeartbeats 1000000 in
/-- The body on whole staging memrefs: the inputs' kept as read, the output's left at `out0_3` of the inputs'. -/
theorem sound_kernel0 (c : Dev nD) (E : Set ℕ) (i : grid0.Coords) (arg0 : Memref sig .tc .vmem S2000x128 .f32) (harg0 : arg0.IsWhole)
    (arg1 : Memref sig .tc .vmem S128x64 .f32) (harg1 : arg1.IsWhole) (arg2 : Memref sig .tc .vmem S2000x1 .f32) (harg2 : arg2.IsWhole)
    (arg3 : Memref sig .tc .vmem S2000x64 .bf16) (harg3 : arg3.IsWhole)
    (x0 : Vec F S2000x128 .f32) (x1 : Vec F S128x64 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_prescale_kernel i arg0 harg0 arg1 harg1 arg2 harg2 arg3 harg3) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KBody1.lean ====
/-
  The second of the three kernels, one grid point at a time: a 2000×64 block of aggregated features is scaled row by
  row by a 2000×1 column, a 1×64 bias row is added, the result is rectified and multiplied by the 64×64 weights, and
  each row of the product is scaled by that row's entry of a second 2000×1 column; the 2000×64 result is stored whole.

  The two columns are blocks of ONE array (the kernel is handed the inverse square-root degrees twice), so the proof data
  hold that array at the two halves of the full share, one per window.

  `iblk1` is a window's block of its array at a point; `out1_5` what the body leaves in the output block as a function of
  the five input blocks; `sound_kernel1` the body's triple; `dat1` the pipeline's proof data at given entry contents
  `V`; `body_obligation1` the library's obligation at every point.
-/
import proofs.«121536_j14388140441820_2_alg».proof.Proof.Gen.Kernel.Launch
import proofs.«121536_j14388140441820_2_alg».proof.Proof.Gen.Kernel.Skeleton
import proofs.«121536_j14388140441820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_a : Rect S2000x64 := Rect.unit (s := S2000x64) ![0, 0] S2000x64.size inb_S2000x64_S2000x64_0_0
abbrev r1_d : Rect S2000x1 := Rect.unit (s := S2000x1) ![0, 0] S2000x1.size inb_S2000x1_S2000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output block after the body: its one store, of the payload of the five loads. -/
def out1_5 (x0 : Vec F S2000x64 .f32) (x1 : Vec F S2000x1 .f32) (x2 : Vec F S1x64 .f32) (x3 : Vec F S64x64 .f32) (x4 : Vec F S2000x1 .f32) :
    Vec F S2000x64 .bf16 :=
  View.canon [⟨r1_a, k1_pay1 (View.ld x0 r1_a) (View.ld x1 r1_d) (View.ld x2 r1_b) (View.ld x3 r1_w) (View.ld x4 r1_d)⟩]

/-- The store covers the block. -/
theorem cover1_5 (p0 : Vec F S2000x64 .bf16) (y : S2000x64.Idx) :
    ∃ pc ∈ ([⟨r1_a, p0⟩] : List (View.Piece (Elt F) S2000x64 .bf16)), y ∈ pc.1.set :=
  View.cover_of_tiled [⟨r1_a, p0⟩] S2000x64.size (by rfl) y

set_option maxHeartbeats 1000000 in
/-- The body on whole staging memrefs: the inputs' kept as read, the output's left at `out1_5` of the inputs'. -/
theorem sound_kernel1 (c : Dev nD) (E : Set ℕ) (i : grid1.Coords) (arg0 : Memref sig .tc .vmem S2000x64 .f32) (harg0 : arg0.IsWhole)
    (arg1 : Memref sig .tc .vmem S2000x1 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S2000x1 .f32) (harg4 : arg4.IsWhole)
    (arg5 : Memref sig .tc .vmem S2000x64 .bf16) (harg5 : arg5.IsWhole)
    (x0 : Vec F S2000x64 .f32) (x1 : Vec F S2000x1 .f32) (x2 : Vec F S1x64 .f32) (x3 : Vec F S64x64 .f32) (x4 : Vec F S2000x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__prologue_matmul_prescale_kernel i arg0 harg0 arg1 harg1 arg2 harg2 arg3 harg3 arg4 harg4 arg5 harg5) K := by
  simp only [cc1__prologue_matmul_prescale_kernel_eq_skeleton]; unfold cc1__prologue_matmul_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The share each input window holds its array at: the two windows on the one column array a half each. -/
def q1 : Fin cfg1.W → PosShare TreeShare
  | ⟨1, _⟩ => fullShare.left
  | ⟨4, _⟩ => fullShare.right
  | _ => fullShare

/-- The proof data of the second pipeline on core `c` at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KBody2.lean ====
/-
  The third of the three kernels, one grid point at a time: a 2000×64 block of aggregated features, each row scaled by
  that row's entry of a 2000×1 column, plus a 1×64 bias row, stored whole into the 2000×64 output block.

  `iblk2` is a window's block of its array at a point; `out2_3` what the body leaves in the output block as a function of
  the three input blocks; `sound_kernel2` the body's triple; `dat2` the pipeline's proof data at given entry contents
  `V`; `body_obligation2` the library's obligation at every point.
-/
import proofs.«121536_j14388140441820_2_alg».proof.Proof.Gen.Kernel.Launch
import proofs.«121536_j14388140441820_2_alg».proof.Proof.Gen.Kernel.Skeleton
import proofs.«121536_j14388140441820_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_a : Rect S2000x64 := Rect.unit (s := S2000x64) ![0, 0] S2000x64.size inb_S2000x64_S2000x64_0_0
abbrev r2_d : Rect S2000x1 := Rect.unit (s := S2000x1) ![0, 0] S2000x1.size inb_S2000x1_S2000x1_0_0
abbrev r2_b : Rect S1x64 := Rect.unit (s := S1x64) ![0, 0] S1x64.size inb_S1x64_S1x64_0_0

/-- The output block after the body: its one store, of the payload of the three loads. -/
def out2_3 (x0 : Vec F S2000x64 .f32) (x1 : Vec F S2000x1 .f32) (x2 : Vec F S1x64 .f32) : Vec F S2000x64 .f32 :=
  View.canon [⟨r2_a, k2_pay1 (View.ld x0 r2_a) (View.ld x1 r2_d) (View.ld x2 r2_b)⟩]

/-- The store covers the block. -/
theorem cover2_3 (p0 : Vec F S2000x64 .f32) (y : S2000x64.Idx) :
    ∃ pc ∈ ([⟨r2_a, p0⟩] : List (View.Piece (Elt F) S2000x64 .f32)), y ∈ pc.1.set :=
  View.cover_of_tiled [⟨r2_a, p0⟩] S2000x64.size (by rfl) y

set_option maxHeartbeats 1000000 in
/-- The body on whole staging memrefs: the inputs' kept as read, the output's left at `out2_3` of the inputs'. -/
theorem sound_kernel2 (c : Dev nD) (E : Set ℕ) (i : grid2.Coords) (arg0 : Memref sig .tc .vmem S2000x64 .f32) (harg0 : arg0.IsWhole)
    (arg1 : Memref sig .tc .vmem S2000x1 .f32) (harg1 : arg1.IsWhole) (arg2 : Memref sig .tc .vmem S1x64 .f32) (harg2 : arg2.IsWhole)
    (arg3 : Memref sig .tc .vmem S2000x64 .f32) (harg3 : arg3.IsWhole)
    (x0 : Vec F S2000x64 .f32) (x1 : Vec F S2000x1 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__finalize_kernel i arg0 harg0 arg1 harg1 arg2 harg2 arg3 harg3) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c` at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The whole program, start to end: three stretches of host operations, the first kernel, a stretch, the second kernel,
  a stretch, the third kernel.

  `W0 … W8` are the contents of every buffer outside the kernels' scratch memory at each boundary: the launch memory, then
  each stretch's operations applied in order, and after a kernel the same contents with the kernel's one output array
  replaced by what its write-backs leave (`X0`, `X1`, `X2`: the proof data's `arrAt` at the last point).
  `reg0`, `reg1`, `reg2` are the kernels as segments between those contents: a kernel's arrays are taken out of the buffers
  at its entry and put back at its exit.  The second kernel is handed one array through two windows; that array is
  held at the full share outside the kernel and split into its two halves, one per window, for the kernel's duration
  (`arrays1_in`, `arrays1_out`).
  `run_all`: every weakly fair execution terminates, nothing faulting, and the final memory holds `W8` at every such buffer.
-/
import proofs.«121536_j14388140441820_2_alg».proof.Proof.KBody0
import proofs.«121536_j14388140441820_2_alg».proof.Proof.KBody1
import proofs.«121536_j14388140441820_2_alg».proof.Proof.KBody2
import proofs.«121536_j14388140441820_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first three stretches of host operations (the first kernel's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- What the first kernel leaves in its output array. -/
def X0 (c : Dev nD) : Buf (Elt F) ((c : Thread nD τ).loc main_v16) := (dat0 (V3 m) c).arrAt 3 cfg0.N
/-- At the first kernel's exit. -/
def W4 (c : Dev nD) : Valuation τ sig (Elt F) := Function.update (W3 m c) main_v16 (X0 m c)
abbrev V4 : (c : Dev nD) → (b : Ref sig .tc) → Buf (Elt F) ((c : Thread nD τ).loc b) := fun c b => W4 m c b
/-- After the next stretch (the second kernel's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- What the second kernel leaves in its output array. -/
def X1 (c : Dev nD) : Buf (Elt F) ((c : Thread nD τ).loc main_v29) := (dat1 (V5 m) c).arrAt 5 cfg1.N
/-- At the second kernel's exit. -/
def W6 (c : Dev nD) : Valuation τ sig (Elt F) := Function.update (W5 m c) main_v29 (X1 m c)
abbrev V6 : (c : Dev nD) → (b : Ref sig .tc) → Buf (Elt F) ((c : Thread nD τ).loc b) := fun c b => W6 m c b
/-- After the next stretch (the third kernel's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- What the third kernel leaves in its output array. -/
def X2 (c : Dev nD) : Buf (Elt F) ((c : Thread nD τ).loc main_v42) := (dat2 (V7 m) c).arrAt 3 cfg2.N
/-- At the third kernel's exit: the end. -/
def W8 (c : Dev nD) : Valuation τ sig (Elt F) := Function.update (W7 m c) main_v42 (X2 m c)
abbrev V8 : (c : Dev nD) → (b : Ref sig .tc) → Buf (Elt F) ((c : Thread nD τ).loc b) := fun c b => W8 m c b

theorem W4_out (c : Dev nD) : W4 m c main_v16 = X0 m c := by unfold W4; exact Function.update_self _ _ _
theorem W4_of_ne (c : Dev nD) (b : Ref sig .tc) (h : b ≠ main_v16) : W4 m c b = W3 m c b := by
  unfold W4; exact Function.update_of_ne (StableHlo.devRef_ne_of_ne h) _ _
theorem W6_out (c : Dev nD) : W6 m c main_v29 = X1 m c := by unfold W6; exact Function.update_self _ _ _
theorem W6_of_ne (c : Dev nD) (b : Ref sig .tc) (h : b ≠ main_v29) : W6 m c b = W5 m c b := by
  unfold W6; exact Function.update_of_ne (StableHlo.devRef_ne_of_ne h) _ _
theorem W8_out (c : Dev nD) : W8 m c main_v42 = X2 m c := by unfold W8; exact Function.update_self _ _ _
theorem W8_of_ne (c : Dev nD) (b : Ref sig .tc) (h : b ≠ main_v42) : W8 m c b = W7 m c b := by
  unfold W8; exact Function.update_of_ne (StableHlo.devRef_ne_of_ne h) _ _

/-! ## The kernels' arrays in and out of the buffers -/

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the first kernel's exit each of its arrays holds what the pipeline leaves, -/
theorem hF0 (c : Dev nD) (w : Fin cfg0.W) : (dat0 (V3 m) c).arrAt w cfg0.N = V4 m c (Pipeline.arrRef spec0 w) := by
  match w with
  | ⟨0, _⟩ => exact ((dat0 (V3 m) c).arrAt_in 0 rfl _).trans ((A_eq0 (V3 m) c 0).trans (W4_of_ne m c _ (by decide)).symm)
  | ⟨1, _⟩ => exact ((dat0 (V3 m) c).arrAt_in 1 rfl _).trans ((A_eq0 (V3 m) c 1).trans (W4_of_ne m c _ (by decide)).symm)
  | ⟨2, _⟩ => exact ((dat0 (V3 m) c).arrAt_in 2 rfl _).trans ((A_eq0 (V3 m) c 2).trans (W4_of_ne m c _ (by decide)).symm)
  | ⟨3, _⟩ => exact (W4_out m c).symm
/-- and every other buffer what it held at entry. -/
theorem hrest0 (c : Dev nD) : ∀ b, b ∉ Finset.univ.image (Pipeline.arrRef spec0) → V4 m c b = V3 m c b :=
  fun b hb => W4_of_ne m c b fun e => hb (by subst e; exact Finset.mem_image.mpr ⟨3, Finset.mem_univ _, rfl⟩)

theorem hF1 (c : Dev nD) (w : Fin cfg1.W) : (dat1 (V5 m) c).arrAt w cfg1.N = V6 m c (Pipeline.arrRef spec1 w) := by
  match w with
  | ⟨0, _⟩ => exact ((dat1 (V5 m) c).arrAt_in 0 rfl _).trans ((A_eq1 (V5 m) c 0).trans (W6_of_ne m c _ (by decide)).symm)
  | ⟨1, _⟩ => exact ((dat1 (V5 m) c).arrAt_in 1 rfl _).trans ((A_eq1 (V5 m) c 1).trans (W6_of_ne m c _ (by decide)).symm)
  | ⟨2, _⟩ => exact ((dat1 (V5 m) c).arrAt_in 2 rfl _).trans ((A_eq1 (V5 m) c 2).trans (W6_of_ne m c _ (by decide)).symm)
  | ⟨3, _⟩ => exact ((dat1 (V5 m) c).arrAt_in 3 rfl _).trans ((A_eq1 (V5 m) c 3).trans (W6_of_ne m c _ (by decide)).symm)
  | ⟨4, _⟩ => exact ((dat1 (V5 m) c).arrAt_in 4 rfl _).trans ((A_eq1 (V5 m) c 4).trans (W6_of_ne m c _ (by decide)).symm)
  | ⟨5, _⟩ => exact (W6_out m c).symm
theorem hrest1 (c : Dev nD) : ∀ b, b ∉ Finset.univ.image (Pipeline.arrRef spec1) → V6 m c b = V5 m c b :=
  fun b hb => W6_of_ne m c b fun e => hb (by subst e; exact Finset.mem_image.mpr ⟨5, Finset.mem_univ _, rfl⟩)

theorem hF2 (c : Dev nD) (w : Fin cfg2.W) : (dat2 (V7 m) c).arrAt w cfg2.N = V8 m c (Pipeline.arrRef spec2 w) := by
  match w with
  | ⟨0, _⟩ => exact ((dat2 (V7 m) c).arrAt_in 0 rfl _).trans ((A_eq2 (V7 m) c 0).trans (W8_of_ne m c _ (by decide)).symm)
  | ⟨1, _⟩ => exact ((dat2 (V7 m) c).arrAt_in 1 rfl _).trans ((A_eq2 (V7 m) c 1).trans (W8_of_ne m c _ (by decide)).symm)
  | ⟨2, _⟩ => exact ((dat2 (V7 m) c).arrAt_in 2 rfl _).trans ((A_eq2 (V7 m) c 2).trans (W8_of_ne m c _ (by decide)).symm)
  | ⟨3, _⟩ => exact (W8_out m c).symm
theorem hrest2 (c : Dev nD) : ∀ b, b ∉ Finset.univ.image (Pipeline.arrRef spec2) → V8 m c b = V7 m c b :=
  fun b hb => W8_of_ne m c b fun e => hb (by subst e; exact Finset.mem_image.mpr ⟨3, Finset.mem_univ _, rfl⟩)

/-! ### The second kernel's arrays: five buffers behind six windows -/

/-- The buffers behind the second kernel's windows: the aggregated features, the column (twice), the bias row, the
    weights, the output. -/
theorem arrBufs1_eq (V' : (c : Dev nD) → (b : Ref sig .tc) → Buf (Elt F) ((c : Thread nD τ).loc b)) (c : Dev nD) :
    (Pipeline.arrBufs spec1 c (V' c) : sProp 𝕄)
      = iprop((((c : Thread nD τ).loc main_v27) ↦{fullShare} V' c main_v27) ∗ (((c : Thread nD τ).loc main_v15) ↦{fullShare} V' c main_v15)
          ∗ (((c : Thread nD τ).loc main_v28) ↦{fullShare} V' c main_v28) ∗ (((c : Thread nD τ).loc main_arg4) ↦{fullShare} V' c main_arg4)
          ∗ (((c : Thread nD τ).loc main_v29) ↦{fullShare} V' c main_v29)) := by
  unfold Pipeline.arrBufs
  exact bigSep_eq_bigSepL_of_eq [main_v27, main_v15, main_v28, main_arg4, main_v29] (by decide) (by decide) _

/-- The second pipeline's arrays, window by window, each a whole buffer at its share. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- ENTRY: the five buffers whole at the full share make the six windows' arrays, the column split into its halves. -/
theorem arrays1_in (V V' : (c : Dev nD) → (b : Ref sig .tc) → Buf (Elt F) ((c : Thread nD τ).loc b)) (c : Dev nD) :
    (Pipeline.arrBufs spec1 c (V' c) : sProp 𝕄) ⊢ (dat1 V c).arrays (fun w => V' c (Pipeline.arrRef spec1 w)) := by
  rw [arrays1_eq]
  rw [arrBufs1_eq, bigSep_W1]
  iintro ⟨H27, H15, H28, H4, H29⟩
  ihave H15' := (pointsTo_share (PosShare.mem_left_op_right fullShare)).1 $$ H15
  icases H15' with ⟨Hl, Hr⟩
  isplitl [H27]; · iexact H27
  isplitl [Hl]; · iexact Hl
  isplitl [H28]; · iexact H28
  isplitl [H4]; · iexact H4
  isplitl [Hr]; · iexact Hr
  iexact H29

/-- EXIT: the six windows' arrays make the five buffers whole at the full share, the column's halves joined. -/
theorem arrays1_out (V V' : (c : Dev nD) → (b : Ref sig .tc) → Buf (Elt F) ((c : Thread nD τ).loc b)) (c : Dev nD) :
    ((dat1 V c).arrays (fun w => V' c (Pipeline.arrRef spec1 w)) : sProp 𝕄) ⊢ Pipeline.arrBufs spec1 c (V' c) := by
  rw [arrays1_eq]
  rw [arrBufs1_eq, bigSep_W1]
  iintro ⟨H27, Hl, H28, H4, Hr, H29⟩
  ihave H15 := (pointsTo_share (PosShare.mem_left_op_right fullShare)).2 $$ [Hl Hr]
  · isplitl [Hl]; · iexact Hl
    iexact Hr
  isplitl [H27]; · iexact H27
  isplitl [H15]; · iexact H15
  isplitl [H28]; · iexact H28
  isplitl [H4]; · iexact H4
  iexact H29

/-! ## The proof data family and the thread state -/

/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W8 m c) ∗ ∃ r, prngReg c r)

/-! ## The kernels as segments -/

-- a library lemma stated over the pinned configuration unifies with the printed one only when unification may unfold plain
-- definitions in a metavariable's type
set_option backward.isDefEq.respectTransparency.types false in
/-- Kernel 0 as a segment: entered from every buffer at `W3`, left at `W4`; its arrays split out of the buffers and put
    back at the exit contents; the generator register into the kernel's invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 1 as a segment: entered from every buffer at `W5`, left at `W6`. Its five buffers are taken out of the buffers
    and dealt to its six windows (the column's two halves to the two windows on it), and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit : (unscopedBufs c (V5 m c) : sProp 𝕄)
        ⊢ iprop((pdats m 1 c).arrays ((pdats m 1 c).arrAt · 0) ∗ Pipeline.unscopedRest spec1 c (V5 m c)) := by
      rw [Pipeline.unscopedBufs_split₀ cfgs 1 winFacts₀1.arr_unscoped c (V5 m c)]
      exact sep_mono (arrays1_in (V5 m) (V5 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V5 m c))
        ⊢ (unscopedBufs c (V6 m c) : sProp 𝕄) := by
      rw [Pipeline.unscopedBufs_split₀ cfgs 1 winFacts₀1.arr_unscoped c (V6 m c),
        show ((pdats m 1 c).arrAt · cfg1.N) = fun w => V6 m c (Pipeline.arrRef spec1 w) from funext (hF1 m c)]
      refine sep_mono (arrays1_out (V5 m) (V6 m) c) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 2 as a segment: entered from every buffer at `W7`, left at `W8`; its arrays split out of the buffers and put
    back at the exit contents; the generator register into the kernel's invariant and out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final state holds `W8` at every buffer outside the kernels' scratch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Hand

end
-- ==== Proof.KFrame.lean ====
/-
  The frame: the program runs to the end, nothing faulting, and its six argument arrays end as launched.
  No stretch of host operations writes an argument and no kernel's output array is one, so the final contents `W8` at an
  argument's buffer walk back, boundary by boundary, to the launch memory.
-/
import proofs.«121536_j14388140441820_2_alg».proof.Proof.KRun

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer that no stretch writes and that is no kernel's output ends as launched. -/
theorem W8_keep (c : Dev nD) (r : Ref sig .tc) (h0 : r ∉ hostOps0_W) (h01 : r ∉ hostOps0_1_W) (h02 : r ∉ hostOps0_2_W)
    (h1 : r ∉ hostOps1_W) (h2 : r ∉ hostOps2_W) (n16 : r ≠ main_v16) (n29 : r ≠ main_v29) (n42 : r ≠ main_v42) :
    W8 m c r = m ((c : Thread nD τ).loc r) :=
  (W8_of_ne m c r n42).trans <| (StableHlo.after_of_writes_sub hostOps2 _ hostOps2_writes h2).trans <|
    (W6_of_ne m c r n29).trans <| (StableHlo.after_of_writes_sub hostOps1 _ hostOps1_writes h1).trans <|
    (W4_of_ne m c r n16).trans <| (StableHlo.after_of_writes_sub hostOps0_2 _ hostOps0_2_writes h02).trans <|
    (StableHlo.after_of_writes_sub hostOps0_1 _ hostOps0_1_writes h01).trans <|
    (StableHlo.after_of_writes_sub hostOps0 _ hostOps0_writes h0).trans rfl

/-- The run with the arguments read back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_keep m c main_arg0 (by decide) (by decide) (by decide) (by decide) (by decide) (by decide) (by decide) (by decide)),
     (h c _ (mem_uc main_arg1 (by decide))).trans (W8_keep m c main_arg1 (by decide) (by decide) (by decide) (by decide) (by decide) (by decide) (by decide) (by decide)),
     (h c _ (mem_uc main_arg2 (by decide))).trans (W8_keep m c main_arg2 (by decide) (by decide) (by decide) (by decide) (by decide) (by decide) (by decide) (by decide)),
     (h c _ (mem_uc main_arg3 (by decide))).trans (W8_keep m c main_arg3 (by decide) (by decide) (by decide) (by decide) (by decide) (by decide) (by decide) (by decide)),
     (h c _ (mem_uc main_arg4 (by decide))).trans (W8_keep m c main_arg4 (by decide) (by decide) (by decide) (by decide) (by decide) (by decide) (by decide) (by decide)),
     (h c _ (mem_uc main_arg5 (by decide))).trans (W8_keep m c main_arg5 (by decide) (by decide) (by decide) (by decide) (by decide) (by decide) (by decide) (by decide))⟩)
    (run_all m ρ)

end Cert.Kernel.Hand

end
-- ==== Proof.KiBody0.lean ====
/-
  The first of the three kernels, one grid point at a time: the product of a 2000×128 block of the features with the
  128×64 weights, each row scaled by that row's entry of a 2000×1 column, stored whole into the 2000×64 output block.

  `iblk0` is a window's block of its array at a point; `out0_3` what the body leaves in the output block as a function of
  the three input blocks (its one store, of the payload `k0_pay1` of the three loads); `sound_kernel0` the body's triple;
  `dat0` the pipeline's proof data at given entry contents `V` (every input block left in place, the output block at
  `out0_3` of the inputs' blocks, nothing owed, full shares); `body_obligation0` the library's obligation at every point.
-/
import proofs.«121536_j14388140441820_2_alg».proof.Proof.Gen.KernelIdeal.Launch
import proofs.«121536_j14388140441820_2_alg».proof.Proof.Gen.KernelIdeal.Skeleton
import proofs.«121536_j14388140441820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev r0_x : Rect S2000x128 := Rect.unit (s := S2000x128) ![0, 0] S2000x128.size inb_S2000x128_S2000x128_0_0
abbrev r0_w : Rect S128x64 := Rect.unit (s := S128x64) ![0, 0] S128x64.size inb_S128x64_S128x64_0_0
abbrev r0_d : Rect S2000x1 := Rect.unit (s := S2000x1) ![0, 0] S2000x1.size inb_S2000x1_S2000x1_0_0
abbrev r0_o : Rect S2000x64 := Rect.unit (s := S2000x64) ![0, 0] S2000x64.size inb_S2000x64_S2000x64_0_0

/-- The output block after the body: its one store, of the payload of the three loads. -/
def out0_3 (x0 : Vec F S2000x128 .f32) (x1 : Vec F S128x64 .f32) (x2 : Vec F S2000x1 .f32) : Vec F S2000x64 .bf16 :=
  View.canon [⟨r0_o, k0_pay1 (View.ld x0 r0_x) (View.ld x1 r0_w) (View.ld x2 r0_d)⟩]

/-- The store covers the block. -/
theorem cover0_3 (p0 : Vec F S2000x64 .bf16) (y : S2000x64.Idx) :
    ∃ pc ∈ ([⟨r0_o, p0⟩] : List (View.Piece (Elt F) S2000x64 .bf16)), y ∈ pc.1.set :=
  View.cover_of_tiled [⟨r0_o, p0⟩] S2000x64.size (by rfl) y

set_option maxHeartbeats 1000000 in
/-- The body on whole staging memrefs: the inputs' kept as read, the output's left at `out0_3` of the inputs'. -/
theorem sound_kernel0 (c : Dev nD) (E : Set ℕ) (i : grid0.Coords) (arg0 : Memref sig .tc .vmem S2000x128 .f32) (harg0 : arg0.IsWhole)
    (arg1 : Memref sig .tc .vmem S128x64 .f32) (harg1 : arg1.IsWhole) (arg2 : Memref sig .tc .vmem S2000x1 .f32) (harg2 : arg2.IsWhole)
    (arg3 : Memref sig .tc .vmem S2000x64 .bf16) (harg3 : arg3.IsWhole)
    (x0 : Vec F S2000x128 .f32) (x1 : Vec F S128x64 .f32) (x2 : Vec F S2000x1 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__matmul_prescale_kernel i arg0 harg0 arg1 harg1 arg2 harg2 arg3 harg3) K := by
  simp only [cc0__matmul_prescale_kernel_eq_skeleton]; unfold cc0__matmul_prescale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of the first pipeline on core `c` at entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
/-
  The second of the three kernels, one grid point at a time: a 2000×64 block of aggregated features is scaled row by
  row by a 2000×1 column, a 1×64 bias row is added, the result is rectified and multiplied by the 64×64 weights, and
  each row of the product is scaled by that row's entry of a second 2000×1 column; the 2000×64 result is stored whole.

  The two columns are blocks of ONE array (the kernel is handed the inverse square-root degrees twice), so the proof data
  hold that array at the two halves of the full share, one per window.

  `iblk1` is a window's block of its array at a point; `out1_5` what the body leaves in the output block as a function of
  the five input blocks; `sound_kernel1` the body's triple; `dat1` the pipeline's proof data at given entry contents
  `V`; `body_obligation1` the library's obligation at every point.
-/
import proofs.«121536_j14388140441820_2_alg».proof.Proof.Gen.KernelIdeal.Launch
import proofs.«121536_j14388140441820_2_alg».proof.Proof.Gen.KernelIdeal.Skeleton
import proofs.«121536_j14388140441820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole-block rectangles the body loads and stores through. -/
abbrev r1_a : Rect S2000x64 := Rect.unit (s := S2000x64) ![0, 0] S2000x64.size inb_S2000x64_S2000x64_0_0
abbrev r1_d : Rect S2000x1 := Rect.unit (s := S2000x1) ![0, 0] S2000x1.size inb_S2000x1_S2000x1_0_0
abbrev r1_b : Rect S1x64 := Rect.unit (s := S1x64) ![0, 0] S1x64.size inb_S1x64_S1x64_0_0
abbrev r1_w : Rect S64x64 := Rect.unit (s := S64x64) ![0, 0] S64x64.size inb_S64x64_S64x64_0_0

/-- The output block after the body: its one store, of the payload of the five loads. -/
def out1_5 (x0 : Vec F S2000x64 .f32) (x1 : Vec F S2000x1 .f32) (x2 : Vec F S1x64 .f32) (x3 : Vec F S64x64 .f32) (x4 : Vec F S2000x1 .f32) :
    Vec F S2000x64 .bf16 :=
  View.canon [⟨r1_a, k1_pay1 (View.ld x0 r1_a) (View.ld x1 r1_d) (View.ld x2 r1_b) (View.ld x3 r1_w) (View.ld x4 r1_d)⟩]

/-- The store covers the block. -/
theorem cover1_5 (p0 : Vec F S2000x64 .bf16) (y : S2000x64.Idx) :
    ∃ pc ∈ ([⟨r1_a, p0⟩] : List (View.Piece (Elt F) S2000x64 .bf16)), y ∈ pc.1.set :=
  View.cover_of_tiled [⟨r1_a, p0⟩] S2000x64.size (by rfl) y

set_option maxHeartbeats 1000000 in
/-- The body on whole staging memrefs: the inputs' kept as read, the output's left at `out1_5` of the inputs'. -/
theorem sound_kernel1 (c : Dev nD) (E : Set ℕ) (i : grid1.Coords) (arg0 : Memref sig .tc .vmem S2000x64 .f32) (harg0 : arg0.IsWhole)
    (arg1 : Memref sig .tc .vmem S2000x1 .f32) (harg1 : arg1.IsWhole) (arg2 : Memref sig .tc .vmem S1x64 .f32) (harg2 : arg2.IsWhole)
    (arg3 : Memref sig .tc .vmem S64x64 .f32) (harg3 : arg3.IsWhole) (arg4 : Memref sig .tc .vmem S2000x1 .f32) (harg4 : arg4.IsWhole)
    (arg5 : Memref sig .tc .vmem S2000x64 .bf16) (harg5 : arg5.IsWhole)
    (x0 : Vec F S2000x64 .f32) (x1 : Vec F S2000x1 .f32) (x2 : Vec F S1x64 .f32) (x3 : Vec F S64x64 .f32) (x4 : Vec F S2000x1 .f32)
    (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4
        ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E
          (cc1__prologue_matmul_prescale_kernel i arg0 harg0 arg1 harg1 arg2 harg2 arg3 harg3 arg4 harg4 arg5 harg5) K := by
  simp only [cc1__prologue_matmul_prescale_kernel_eq_skeleton]; unfold cc1__prologue_matmul_prescale_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The share each input window holds its array at: the two windows on the one column array a half each. -/
def q1 : Fin cfg1.W → PosShare TreeShare
  | ⟨1, _⟩ => fullShare.left
  | ⟨4, _⟩ => fullShare.right
  | _ => fullShare

/-- The proof data of the second pipeline on core `c` at entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q := q1
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiBody2.lean ====
/-
  The third of the three kernels, one grid point at a time: a 2000×64 block of aggregated features, each row scaled by
  that row's entry of a 2000×1 column, plus a 1×64 bias row, stored whole into the 2000×64 output block.

  `iblk2` is a window's block of its array at a point; `out2_3` what the body leaves in the output block as a function of
  the three input blocks; `sound_kernel2` the body's triple; `dat2` the pipeline's proof data at given entry contents
  `V`; `body_obligation2` the library's obligation at every point.
-/
import proofs.«121536_j14388140441820_2_alg».proof.Proof.Gen.KernelIdeal.Launch
import proofs.«121536_j14388140441820_2_alg».proof.Proof.Gen.KernelIdeal.Skeleton
import proofs.«121536_j14388140441820_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole-block rectangles the body loads and stores through. -/
abbrev r2_a : Rect S2000x64 := Rect.unit (s := S2000x64) ![0, 0] S2000x64.size inb_S2000x64_S2000x64_0_0
abbrev r2_d : Rect S2000x1 := Rect.unit (s := S2000x1) ![0, 0] S2000x1.size inb_S2000x1_S2000x1_0_0
abbrev r2_b : Rect S1x64 := Rect.unit (s := S1x64) ![0, 0] S1x64.size inb_S1x64_S1x64_0_0

/-- The output block after the body: its one store, of the payload of the three loads. -/
def out2_3 (x0 : Vec F S2000x64 .f32) (x1 : Vec F S2000x1 .f32) (x2 : Vec F S1x64 .f32) : Vec F S2000x64 .f32 :=
  View.canon [⟨r2_a, k2_pay1 (View.ld x0 r2_a) (View.ld x1 r2_d) (View.ld x2 r2_b)⟩]

/-- The store covers the block. -/
theorem cover2_3 (p0 : Vec F S2000x64 .f32) (y : S2000x64.Idx) :
    ∃ pc ∈ ([⟨r2_a, p0⟩] : List (View.Piece (Elt F) S2000x64 .f32)), y ∈ pc.1.set :=
  View.cover_of_tiled [⟨r2_a, p0⟩] S2000x64.size (by rfl) y

set_option maxHeartbeats 1000000 in
/-- The body on whole staging memrefs: the inputs' kept as read, the output's left at `out2_3` of the inputs'. -/
theorem sound_kernel2 (c : Dev nD) (E : Set ℕ) (i : grid2.Coords) (arg0 : Memref sig .tc .vmem S2000x64 .f32) (harg0 : arg0.IsWhole)
    (arg1 : Memref sig .tc .vmem S2000x1 .f32) (harg1 : arg1.IsWhole) (arg2 : Memref sig .tc .vmem S1x64 .f32) (harg2 : arg2.IsWhole)
    (arg3 : Memref sig .tc .vmem S2000x64 .f32) (harg3 : arg3.IsWhole)
    (x0 : Vec F S2000x64 .f32) (x1 : Vec F S2000x1 .f32) (x2 : Vec F S1x64 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out2_3 x0 x1 x2)) -∗ K ⟨⟩))
      ⊢ wp frame (wpE (defs₀ (F := F)) Variants.none c none) E (cc2__finalize_kernel i arg0 harg0 arg1 harg1 arg2 harg2 arg3 harg3) K := by
  simp only [cc2__finalize_kernel_eq_skeleton]; unfold cc2__finalize_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of the third pipeline on core `c` at entry contents `V`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The whole program, start to end: three stretches of host operations, the first kernel, a stretch, the second kernel,
  a stretch, the third kernel.

  `W0 … W8` are the contents of every buffer outside the kernels' scratch memory at each boundary: the launch memory, then
  each stretch's operations applied in order, and after a kernel the same contents with the kernel's one output array
  replaced by what its write-backs leave (`X0`, `X1`, `X2`: the proof data's `arrAt` at the last point).
  `reg0`, `reg1`, `reg2` are the kernels as segments between those contents: a kernel's arrays are taken out of the buffers
  at its entry and put back at its exit.  The second kernel is handed one array through two windows; that array is
  held at the full share outside the kernel and split into its two halves, one per window, for the kernel's duration
  (`arrays1_in`, `arrays1_out`).
  `run_all`: every weakly fair execution terminates, nothing faulting, and the final memory holds `W8` at every such buffer.
-/
import proofs.«121536_j14388140441820_2_alg».proof.Proof.KiBody0
import proofs.«121536_j14388140441820_2_alg».proof.Proof.KiBody1
import proofs.«121536_j14388140441820_2_alg».proof.Proof.KiBody2
import proofs.«121536_j14388140441820_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first three stretches of host operations (the first kernel's entry). -/
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- What the first kernel leaves in its output array. -/
def X0 (c : Dev nD) : Buf (Elt F) ((c : Thread nD τ).loc main_v16) := (dat0 (V3 m) c).arrAt 3 cfg0.N
/-- At the first kernel's exit. -/
def W4 (c : Dev nD) : Valuation τ sig (Elt F) := Function.update (W3 m c) main_v16 (X0 m c)
abbrev V4 : (c : Dev nD) → (b : Ref sig .tc) → Buf (Elt F) ((c : Thread nD τ).loc b) := fun c b => W4 m c b
/-- After the next stretch (the second kernel's entry). -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- What the second kernel leaves in its output array. -/
def X1 (c : Dev nD) : Buf (Elt F) ((c : Thread nD τ).loc main_v29) := (dat1 (V5 m) c).arrAt 5 cfg1.N
/-- At the second kernel's exit. -/
def W6 (c : Dev nD) : Valuation τ sig (Elt F) := Function.update (W5 m c) main_v29 (X1 m c)
abbrev V6 : (c : Dev nD) → (b : Ref sig .tc) → Buf (Elt F) ((c : Thread nD τ).loc b) := fun c b => W6 m c b
/-- After the next stretch (the third kernel's entry). -/
abbrev W7 : Dev nD → Valuation τ sig (Elt F) := fun c => StableHlo.after hostOps2 (W6 m c)
abbrev V7 : (c : Dev nD) → (b : Ref sig .tc) → Buf (Elt F) ((c : Thread nD τ).loc b) := fun c b => W7 m c b
/-- What the third kernel leaves in its output array. -/
def X2 (c : Dev nD) : Buf (Elt F) ((c : Thread nD τ).loc main_v42) := (dat2 (V7 m) c).arrAt 3 cfg2.N
/-- At the third kernel's exit: the end. -/
def W8 (c : Dev nD) : Valuation τ sig (Elt F) := Function.update (W7 m c) main_v42 (X2 m c)
abbrev V8 : (c : Dev nD) → (b : Ref sig .tc) → Buf (Elt F) ((c : Thread nD τ).loc b) := fun c b => W8 m c b

theorem W4_out (c : Dev nD) : W4 m c main_v16 = X0 m c := by unfold W4; exact Function.update_self _ _ _
theorem W4_of_ne (c : Dev nD) (b : Ref sig .tc) (h : b ≠ main_v16) : W4 m c b = W3 m c b := by
  unfold W4; exact Function.update_of_ne (StableHlo.devRef_ne_of_ne h) _ _
theorem W6_out (c : Dev nD) : W6 m c main_v29 = X1 m c := by unfold W6; exact Function.update_self _ _ _
theorem W6_of_ne (c : Dev nD) (b : Ref sig .tc) (h : b ≠ main_v29) : W6 m c b = W5 m c b := by
  unfold W6; exact Function.update_of_ne (StableHlo.devRef_ne_of_ne h) _ _
theorem W8_out (c : Dev nD) : W8 m c main_v42 = X2 m c := by unfold W8; exact Function.update_self _ _ _
theorem W8_of_ne (c : Dev nD) (b : Ref sig .tc) (h : b ≠ main_v42) : W8 m c b = W7 m c b := by
  unfold W8; exact Function.update_of_ne (StableHlo.devRef_ne_of_ne h) _ _

/-! ## The kernels' arrays in and out of the buffers -/

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At the first kernel's exit each of its arrays holds what the pipeline leaves, -/
theorem hF0 (c : Dev nD) (w : Fin cfg0.W) : (dat0 (V3 m) c).arrAt w cfg0.N = V4 m c (Pipeline.arrRef spec0 w) := by
  match w with
  | ⟨0, _⟩ => exact ((dat0 (V3 m) c).arrAt_in 0 rfl _).trans ((A_eq0 (V3 m) c 0).trans (W4_of_ne m c _ (by decide)).symm)
  | ⟨1, _⟩ => exact ((dat0 (V3 m) c).arrAt_in 1 rfl _).trans ((A_eq0 (V3 m) c 1).trans (W4_of_ne m c _ (by decide)).symm)
  | ⟨2, _⟩ => exact ((dat0 (V3 m) c).arrAt_in 2 rfl _).trans ((A_eq0 (V3 m) c 2).trans (W4_of_ne m c _ (by decide)).symm)
  | ⟨3, _⟩ => exact (W4_out m c).symm
/-- and every other buffer what it held at entry. -/
theorem hrest0 (c : Dev nD) : ∀ b, b ∉ Finset.univ.image (Pipeline.arrRef spec0) → V4 m c b = V3 m c b :=
  fun b hb => W4_of_ne m c b fun e => hb (by subst e; exact Finset.mem_image.mpr ⟨3, Finset.mem_univ _, rfl⟩)

theorem hF1 (c : Dev nD) (w : Fin cfg1.W) : (dat1 (V5 m) c).arrAt w cfg1.N = V6 m c (Pipeline.arrRef spec1 w) := by
  match w with
  | ⟨0, _⟩ => exact ((dat1 (V5 m) c).arrAt_in 0 rfl _).trans ((A_eq1 (V5 m) c 0).trans (W6_of_ne m c _ (by decide)).symm)
  | ⟨1, _⟩ => exact ((dat1 (V5 m) c).arrAt_in 1 rfl _).trans ((A_eq1 (V5 m) c 1).trans (W6_of_ne m c _ (by decide)).symm)
  | ⟨2, _⟩ => exact ((dat1 (V5 m) c).arrAt_in 2 rfl _).trans ((A_eq1 (V5 m) c 2).trans (W6_of_ne m c _ (by decide)).symm)
  | ⟨3, _⟩ => exact ((dat1 (V5 m) c).arrAt_in 3 rfl _).trans ((A_eq1 (V5 m) c 3).trans (W6_of_ne m c _ (by decide)).symm)
  | ⟨4, _⟩ => exact ((dat1 (V5 m) c).arrAt_in 4 rfl _).trans ((A_eq1 (V5 m) c 4).trans (W6_of_ne m c _ (by decide)).symm)
  | ⟨5, _⟩ => exact (W6_out m c).symm
theorem hrest1 (c : Dev nD) : ∀ b, b ∉ Finset.univ.image (Pipeline.arrRef spec1) → V6 m c b = V5 m c b :=
  fun b hb => W6_of_ne m c b fun e => hb (by subst e; exact Finset.mem_image.mpr ⟨5, Finset.mem_univ _, rfl⟩)

theorem hF2 (c : Dev nD) (w : Fin cfg2.W) : (dat2 (V7 m) c).arrAt w cfg2.N = V8 m c (Pipeline.arrRef spec2 w) := by
  match w with
  | ⟨0, _⟩ => exact ((dat2 (V7 m) c).arrAt_in 0 rfl _).trans ((A_eq2 (V7 m) c 0).trans (W8_of_ne m c _ (by decide)).symm)
  | ⟨1, _⟩ => exact ((dat2 (V7 m) c).arrAt_in 1 rfl _).trans ((A_eq2 (V7 m) c 1).trans (W8_of_ne m c _ (by decide)).symm)
  | ⟨2, _⟩ => exact ((dat2 (V7 m) c).arrAt_in 2 rfl _).trans ((A_eq2 (V7 m) c 2).trans (W8_of_ne m c _ (by decide)).symm)
  | ⟨3, _⟩ => exact (W8_out m c).symm
theorem hrest2 (c : Dev nD) : ∀ b, b ∉ Finset.univ.image (Pipeline.arrRef spec2) → V8 m c b = V7 m c b :=
  fun b hb => W8_of_ne m c b fun e => hb (by subst e; exact Finset.mem_image.mpr ⟨3, Finset.mem_univ _, rfl⟩)

/-! ### The second kernel's arrays: five buffers behind six windows -/

/-- The buffers behind the second kernel's windows: the aggregated features, the column (twice), the bias row, the
    weights, the output. -/
theorem arrBufs1_eq (V' : (c : Dev nD) → (b : Ref sig .tc) → Buf (Elt F) ((c : Thread nD τ).loc b)) (c : Dev nD) :
    (Pipeline.arrBufs spec1 c (V' c) : sProp 𝕄)
      = iprop((((c : Thread nD τ).loc main_v27) ↦{fullShare} V' c main_v27) ∗ (((c : Thread nD τ).loc main_v15) ↦{fullShare} V' c main_v15)
          ∗ (((c : Thread nD τ).loc main_v28) ↦{fullShare} V' c main_v28) ∗ (((c : Thread nD τ).loc main_arg4) ↦{fullShare} V' c main_arg4)
          ∗ (((c : Thread nD τ).loc main_v29) ↦{fullShare} V' c main_v29)) := by
  unfold Pipeline.arrBufs
  exact bigSep_eq_bigSepL_of_eq [main_v27, main_v15, main_v28, main_arg4, main_v29] (by decide) (by decide) _

/-- The second pipeline's arrays, window by window, each a whole buffer at its share. -/
theorem arrays1_eq (V : (c : Dev nD) → (b : Ref sig .tc) → Buf (Elt F) ((c : Thread nD τ).loc b)) (c : Dev nD)
    (G : (w : Fin cfg1.W) → Buf (Elt F) ((cfg1.win w).arr.view.loc (c.tc : Thread nD τ))) :
    ((dat1 V c).arrays G : sProp 𝕄)
      = bigSep Finset.univ fun w => (((c : Thread nD τ).loc (Pipeline.arrRef spec1 w)) ↦{(dat1 V c).share w} G w : sProp 𝕄) := by
  unfold Dat.arrays
  exact bigSep_congr fun w _ => by rw [(arr_whole1 w).set_eq_univ]

/-- ENTRY: the five buffers whole at the full share make the six windows' arrays, the column split into its halves. -/
theorem arrays1_in (V V' : (c : Dev nD) → (b : Ref sig .tc) → Buf (Elt F) ((c : Thread nD τ).loc b)) (c : Dev nD) :
    (Pipeline.arrBufs spec1 c (V' c) : sProp 𝕄) ⊢ (dat1 V c).arrays (fun w => V' c (Pipeline.arrRef spec1 w)) := by
  rw [arrays1_eq]
  rw [arrBufs1_eq, bigSep_W1]
  iintro ⟨H27, H15, H28, H4, H29⟩
  ihave H15' := (pointsTo_share (PosShare.mem_left_op_right fullShare)).1 $$ H15
  icases H15' with ⟨Hl, Hr⟩
  isplitl [H27]; · iexact H27
  isplitl [Hl]; · iexact Hl
  isplitl [H28]; · iexact H28
  isplitl [H4]; · iexact H4
  isplitl [Hr]; · iexact Hr
  iexact H29

/-- EXIT: the six windows' arrays make the five buffers whole at the full share, the column's halves joined. -/
theorem arrays1_out (V V' : (c : Dev nD) → (b : Ref sig .tc) → Buf (Elt F) ((c : Thread nD τ).loc b)) (c : Dev nD) :
    ((dat1 V c).arrays (fun w => V' c (Pipeline.arrRef spec1 w)) : sProp 𝕄) ⊢ Pipeline.arrBufs spec1 c (V' c) := by
  rw [arrays1_eq]
  rw [arrBufs1_eq, bigSep_W1]
  iintro ⟨H27, Hl, H28, H4, Hr, H29⟩
  ihave H15 := (pointsTo_share (PosShare.mem_left_op_right fullShare)).2 $$ [Hl Hr]
  · isplitl [Hl]; · iexact Hl
    iexact Hr
  isplitl [H27]; · iexact H27
  isplitl [H15]; · iexact H15
  isplitl [H28]; · iexact H28
  isplitl [H4]; · iexact H4
  iexact H29

/-! ## The proof data family and the thread state -/

/-- Every pipeline's proof data, each at its kernel's entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
/-- A stretch of host operations as a segment over every unscoped buffer from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues. -/
abbrev Tₙ (c : Dev nD) : sProp 𝕄 := iprop(StableHlo.held (c : Thread nD τ) (Pipeline.ucRefs τ sig) (W8 m c) ∗ ∃ r, prngReg c r)

/-! ## The kernels as segments -/

-- a library lemma stated over the pinned configuration unifies with the printed one only when unification may unfold plain
-- definitions in a metavariable's type
set_option backward.isDefEq.respectTransparency.types false in
/-- Kernel 0 as a segment: entered from every buffer at `W3`, left at `W4`; its arrays split out of the buffers and put
    back at the exit contents; the generator register into the kernel's invariant and out; nothing owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 1 as a segment: entered from every buffer at `W5`, left at `W6`. Its five buffers are taken out of the buffers
    and dealt to its six windows (the column's two halves to the two windows on it), and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit : (unscopedBufs c (V5 m c) : sProp 𝕄)
        ⊢ iprop((pdats m 1 c).arrays ((pdats m 1 c).arrAt · 0) ∗ Pipeline.unscopedRest spec1 c (V5 m c)) := by
      rw [Pipeline.unscopedBufs_split₀ cfgs 1 winFacts₀1.arr_unscoped c (V5 m c)]
      exact sep_mono (arrays1_in (V5 m) (V5 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (V5 m c))
        ⊢ (unscopedBufs c (V6 m c) : sProp 𝕄) := by
      rw [Pipeline.unscopedBufs_split₀ cfgs 1 winFacts₀1.arr_unscoped c (V6 m c),
        show ((pdats m 1 c).arrAt · cfg1.N) = fun w => V6 m c (Pipeline.arrRef spec1 w) from funext (hF1 m c)]
      refine sep_mono (arrays1_out (V5 m) (V6 m) c) (Entails.of_eq ?_)
      unfold Pipeline.unscopedRest
      exact bigSep_congr fun b hb => by rw [hrest1 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Kernel 2 as a segment: entered from every buffer at `W7`, left at `W8`; its arrays split out of the buffers and put
    back at the exit contents; the generator register into the kernel's invariant and out; nothing owed. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's eight segments in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]
/-- The program is the run of the segments. -/
theorem main_run (c : Dev nD) : main (F := F) c = Pipeline.Seg.run (segs m) := (main_chain c).trans (by chain_rfl)

set_option backward.isDefEq.respectTransparency.types false in
/-- THE RUN: from any memory with zero counters, every weakly fair execution of the program on the TensorCores
    terminates, nothing faulting, and every final state holds `W8` at every buffer outside the kernels' scratch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Hand

end
-- ==== Proof.KiFrame.lean ====
/-
  The frame: the program runs to the end, nothing faulting, and its six argument arrays end as launched.
  No stretch of host operations writes an argument and no kernel's output array is one, so the final contents `W8` at an
  argument's buffer walk back, boundary by boundary, to the launch memory.
-/
import proofs.«121536_j14388140441820_2_alg».proof.Proof.KiRun

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- A buffer that no stretch writes and that is no kernel's output ends as launched. -/
theorem W8_keep (c : Dev nD) (r : Ref sig .tc) (h0 : r ∉ hostOps0_W) (h01 : r ∉ hostOps0_1_W) (h02 : r ∉ hostOps0_2_W)
    (h1 : r ∉ hostOps1_W) (h2 : r ∉ hostOps2_W) (n16 : r ≠ main_v16) (n29 : r ≠ main_v29) (n42 : r ≠ main_v42) :
    W8 m c r = m ((c : Thread nD τ).loc r) :=
  (W8_of_ne m c r n42).trans <| (StableHlo.after_of_writes_sub hostOps2 _ hostOps2_writes h2).trans <|
    (W6_of_ne m c r n29).trans <| (StableHlo.after_of_writes_sub hostOps1 _ hostOps1_writes h1).trans <|
    (W4_of_ne m c r n16).trans <| (StableHlo.after_of_writes_sub hostOps0_2 _ hostOps0_2_writes h02).trans <|
    (StableHlo.after_of_writes_sub hostOps0_1 _ hostOps0_1_writes h01).trans <|
    (StableHlo.after_of_writes_sub hostOps0 _ hostOps0_writes h0).trans rfl

/-- The run with the arguments read back. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W8_keep m c main_arg0 (by decide) (by decide) (by decide) (by decide) (by decide) (by decide) (by decide) (by decide)),
     (h c _ (mem_uc main_arg1 (by decide))).trans (W8_keep m c main_arg1 (by decide) (by decide) (by decide) (by decide) (by decide) (by decide) (by decide) (by decide)),
     (h c _ (mem_uc main_arg2 (by decide))).trans (W8_keep m c main_arg2 (by decide) (by decide) (by decide) (by decide) (by decide) (by decide) (by decide) (by decide)),
     (h c _ (mem_uc main_arg3 (by decide))).trans (W8_keep m c main_arg3 (by decide) (by decide) (by decide) (by decide) (by decide) (by decide) (by decide) (by decide)),
     (h c _ (mem_uc main_arg4 (by decide))).trans (W8_keep m c main_arg4 (by decide) (by decide) (by decide) (by decide) (by decide) (by decide) (by decide) (by decide)),
     (h c _ (mem_uc main_arg5 (by decide))).trans (W8_keep m c main_arg5 (by decide) (by decide) (by decide) (by decide) (by decide) (by decide) (by decide) (by decide))⟩)
    (run_all m ρ)

end Cert.KernelIdeal.Hand

end
-- ==== Proof.Spec.lean ====
/-
  Two stacked graph-convolution layers on the extended reals, index by index.

  A graph on 50000 nodes is given by 850000 directed edges (the last 50000 are the self-loops).  Edge `e` carries a
  source start index and a destination start index, each a 32-bit word in a one-column array.  A row GATHER reads the
  row at the start index clamped into `[0, 49999]` (`rowOf`); a row SCATTER-ADD lands edge `e` on node `v` exactly when
  its destination index, read signed, IS `v` (`into`): an index outside the range lands nowhere.

  `deg v` counts the edges landing on `v`; `dinv v` is `1/sqrt(deg v)` where the degree is positive and `0` elsewhere:
  always a non-negative real.  One layer with features `h` and bias `b` is

      out[v, k] = Σ_{e lands on v} h[src e, k] · dinv[src e] · dinv[dst e] + b[k].

  The two programs group this differently.  `layerR` multiplies each gathered row by the edge's weight
  `dinv[src e] · dinv[dst' e]` (`dst'` the destination column after the negative-index wrap, clamped) before summing;
  `layerK` scales the rows by `dinv` before the gather and scales the sum by `dinv[v]` afterwards.  They agree because
  on an edge landing on `v` the wrapped, clamped destination is `v` itself, and because multiplication by a
  NON-NEGATIVE REAL distributes over any finite sum of extended reals, infinities included — so no finiteness of the
  features is needed.
-/
import Idealize.ShloMosaic.PureOps.Ideal
import Idealize.ShloMosaic.Lib.ValueIdx

noncomputable section

open scoped BigOperators
open Idealize.ShloMosaic Idealize.ShloMosaic.ValueIdx

namespace Cert.Gcn

/-- A one-column array of 850000 start indices. -/
abbrev ICol : Type := IVec (⟨2, ![850000, 1]⟩ : Shape) 32

/-- A vector of 850000 indices as a one-column array. -/
def plainCol (s : IVec (⟨1, ![850000]⟩ : Shape) 32) : ICol := fun j => s (ix1 (j 0))

/-- The same after the negative-index wrap `x < 0 ? x + 50000 : x`, entry by entry. -/
def wrapCol (s : IVec (⟨1, ![850000]⟩ : Shape) 32) : ICol := fun j =>
  Scalar.select (IntOp.cmpi .slt (s (ix1 (j 0))) 0#32) (IntOp.addi (s (ix1 (j 0))) 50000#32) (s (ix1 (j 0)))

/-- The row a gather reads for edge `e`: the start index read signed, clamped into `[0, 49999]`. -/
def rowOf (idx : ICol) (e : Fin 850000) : Fin 50000 :=
  ⟨min (idx (ix2 e (0 : Fin 1))).toInt.toNat (50000 - 1), by omega⟩

/-- The edges a scatter lands on node `v`: those whose index, read signed, is exactly `v`. -/
def into (dstc : ICol) (v : Fin 50000) : Finset (Fin 850000) :=
  Finset.univ.filter fun e : Fin 850000 => (dstc (ix2 e (0 : Fin 1))).toInt = ((v.val : Nat) : Int)

/-- The degree of `v`: a one for each edge landing on it. -/
def deg (dstc : ICol) (v : Fin 50000) : EReal :=
  ∑ e : Fin 850000, if (dstc (ix2 e (0 : Fin 1))).toInt = ((v.val : Nat) : Int) then (1 : EReal) else 0

/-- `1/sqrt(deg)` where the degree is positive, `0` elsewhere. -/
def dinv (dstc : ICol) (v : Fin 50000) : EReal :=
  if 0 < deg dstc v then Ideal.rsqrt (deg dstc v) else 0

/-- A matrix product with 50000 rows and 64 columns. -/
def mm {K : Nat} (a : Fin 50000 → Fin K → EReal) (w : Fin K → Fin 64 → EReal) (v : Fin 50000) (k : Fin 64) : EReal :=
  ∑ c : Fin K, a v c * w c k

/-- The layer as the kernel groups it: rows scaled before the gather, the sum scaled after, then the bias. -/
def layerK (srcw dstc : ICol) (h : Fin 50000 → Fin 64 → EReal) (b : Fin 64 → EReal) (v : Fin 50000) (k : Fin 64) : EReal :=
  (∑ e ∈ into dstc v, h (rowOf srcw e) k * dinv dstc (rowOf srcw e)) * dinv dstc v + b k

/-- The layer as the reference groups it: each gathered row times its edge weight, summed, then the bias. -/
def layerR (srcw dstw dstc : ICol) (h : Fin 50000 → Fin 64 → EReal) (b : Fin 64 → EReal) (v : Fin 50000) (k : Fin 64) : EReal :=
  (∑ e ∈ into dstc v, h (rowOf srcw e) k * (dinv dstc (rowOf srcw e) * dinv dstc (rowOf dstw e))) + b k

/-- Two layers with a rectifier between them, the kernel's grouping. -/
def outK (srcw dstc : ICol) (x : Fin 50000 → Fin 128 → EReal) (w1 : Fin 128 → Fin 64 → EReal) (b1 : Fin 64 → EReal)
    (w2 : Fin 64 → Fin 64 → EReal) (b2 : Fin 64 → EReal) : Fin 50000 → Fin 64 → EReal :=
  layerK srcw dstc (mm (fun v c => max (layerK srcw dstc (mm x w1) b1 v c) 0) w2) b2

/-- Two layers with a rectifier between them, the reference's grouping. -/
def outR (srcw dstw dstc : ICol) (x : Fin 50000 → Fin 128 → EReal) (w1 : Fin 128 → Fin 64 → EReal) (b1 : Fin 64 → EReal)
    (w2 : Fin 64 → Fin 64 → EReal) (b2 : Fin 64 → EReal) : Fin 50000 → Fin 64 → EReal :=
  layerR srcw dstw dstc (mm (fun v c => max (layerR srcw dstw dstc (mm x w1) b1 v c) 0) w2) b2

end Cert.Gcn

end
-- ==== Proof.LibIndexNorm.lean ====
/-
  Index normalisation and broadcasts, read at an index.

  `x[i]` in jnp first wraps a negative index: `select(i < 0, i + n, i)`. On a non-negative index (read signed) the wrap
  is the identity. And the broadcasts that surround a gather or scatter — a vector as a one-column matrix, a one-column
  matrix spread over `K` columns, a vector as a one-row matrix, a one-row matrix spread over `R` rows — each read one
  element of their operand.
-/
import Idealize.ShloMosaic.Lib.ValueIdx
import Idealize.ShloMosaic.Lib.Pipeline.Value

noncomputable section

open Idealize.ShloMosaic Idealize.ShloMosaic.ValueIdx

namespace Cert.Lib.IndexNorm

/-! ## The negative-index wrap on a non-negative index -/

/-- A 32-bit word that is non-negative read signed is not signed-less-than zero. -/
theorem slt_zero_of_nonneg (x : BitVec 32) (h : 0 ≤ x.toInt) : IntOp.cmpi .slt x 0#32 = 0#1 := by
  have hs : x.slt 0#32 = false := by
    unfold BitVec.slt
    exact decide_eq_false (by simpa using h)
  show BitVec.ofBool (x.slt 0#32) = 0#1
  rw [hs]
  rfl

/-- A select on "the word is negative" takes its second branch on a non-negative word. -/
theorem select_slt_zero_of_nonneg {α : Type} (x : BitVec 32) (a b : α) (h : 0 ≤ x.toInt) :
    Scalar.select (IntOp.cmpi .slt x 0#32) a b = b := by
  rw [slt_zero_of_nonneg x h]
  exact select_zero a b

/-- THE WRAP ON A NON-NEGATIVE INDEX is the index: `select(x < 0, x + n, x) = x`. -/
theorem wrap_of_nonneg (x n : BitVec 32) (h : 0 ≤ x.toInt) :
    Scalar.select (IntOp.cmpi .slt x 0#32) (IntOp.addi x n) x = x :=
  select_slt_zero_of_nonneg x _ _ h

/-- The vector form, at an index `i` where the compared vector `z` is `0` and `x` is non-negative. -/
theorem select_wrap_apply {s : Shape} (x z n : IVec s 32) (i : s.Idx) (hz : z i = 0#32) (h : 0 ≤ (x i).toInt) :
    select (cmpi .slt x z) (addi x n) x i = x i := by
  show Scalar.select (IntOp.cmpi .slt (x i) (z i)) (IntOp.addi (x i) (n i)) (x i) = x i
  rw [hz]
  exact wrap_of_nonneg (x i) (n i) h

/-! ## Broadcasts at an index -/

section Broadcast
variable {α : Type}

/-- A vector `[R]` as a one-column matrix `[R, 1]`: element `(r, 0)` is the vector's element `r`. -/
theorem bcast_col_apply {R : Nat} (x : (⟨1, ![R]⟩ : Shape).Idx → α)
    (h : (⟨1, ![R]⟩ : Shape).BroadcastsInDim ⟨2, ![R, 1]⟩ ![0]) (r : Fin R) :
    broadcastInDim ⟨2, ![R, 1]⟩ ![0] h x (ix2 r (0 : Fin 1)) = x (ix1 r) := by
  refine broadcastInDim_apply _ h x _ (ix1 r) (fun a => ?_)
  obtain rfl : a = 0 := Subsingleton.elim _ _
  show r.val = if R = 1 then 0 else r.val
  split
  · have := r.isLt; omega
  · rfl

/-- A one-column matrix `[R, 1]` spread over `K` columns: element `(r, k)` is the column's element `(r, 0)`. -/
theorem bcast_cols_apply {R K : Nat} (x : (⟨2, ![R, 1]⟩ : Shape).Idx → α)
    (h : (⟨2, ![R, 1]⟩ : Shape).BroadcastsInDim ⟨2, ![R, K]⟩ ![0, 1]) (r : Fin R) (k : Fin K) :
    broadcastInDim ⟨2, ![R, K]⟩ ![0, 1] h x (ix2 r k) = x (ix2 r (0 : Fin 1)) := by
  refine broadcastInDim_apply _ h x _ (ix2 r (0 : Fin 1)) (fun a => ?_)
  match a with
  | ⟨0, _⟩ =>
    show r.val = if R = 1 then 0 else r.val
    split
    · have := r.isLt; omega
    · rfl
  | ⟨1, _⟩ =>
    show 0 = if (1 : Nat) = 1 then 0 else k.val
    rw [if_pos rfl]

/-- A vector `[K]` as a one-row matrix `[1, K]`: element `(0, k)` is the vector's element `k`. -/
theorem bcast_row_apply {K : Nat} (x : (⟨1, ![K]⟩ : Shape).Idx → α)
    (h : (⟨1, ![K]⟩ : Shape).BroadcastsInDim ⟨2, ![1, K]⟩ ![1]) (k : Fin K) :
    broadcastInDim ⟨2, ![1, K]⟩ ![1] h x (ix2 (0 : Fin 1) k) = x (ix1 k) := by
  refine broadcastInDim_apply _ h x _ (ix1 k) (fun a => ?_)
  obtain rfl : a = 0 := Subsingleton.elim _ _
  show k.val = if K = 1 then 0 else k.val
  split
  · have := k.isLt; omega
  · rfl

/-- A one-row matrix `[1, K]` spread over `R` rows: element `(r, k)` is the row's element `(0, k)`. -/
theorem bcast_rows_apply {R K : Nat} (x : (⟨2, ![1, K]⟩ : Shape).Idx → α)
    (h : (⟨2, ![1, K]⟩ : Shape).BroadcastsInDim ⟨2, ![R, K]⟩ ![0, 1]) (r : Fin R) (k : Fin K) :
    broadcastInDim ⟨2, ![R, K]⟩ ![0, 1] h x (ix2 r k) = x (ix2 (0 : Fin 1) k) := by
  refine broadcastInDim_apply _ h x _ (ix2 (0 : Fin 1) k) (fun a => ?_)
  match a with
  | ⟨0, _⟩ =>
    show 0 = if (1 : Nat) = 1 then 0 else r.val
    rw [if_pos rfl]
  | ⟨1, _⟩ =>
    show k.val = if K = 1 then 0 else k.val
    split
    · have := k.isLt; omega
    · rfl

/-- A vector `[K]` as a row spread over `R` rows (the two broadcasts composed): element `(r, k)` is the vector's `k`. -/
theorem bcast_row_rows_apply {R K : Nat} (x : (⟨1, ![K]⟩ : Shape).Idx → α)
    (h₁ : (⟨1, ![K]⟩ : Shape).BroadcastsInDim ⟨2, ![1, K]⟩ ![1])
    (h₂ : (⟨2, ![1, K]⟩ : Shape).BroadcastsInDim ⟨2, ![R, K]⟩ ![0, 1]) (r : Fin R) (k : Fin K) :
    broadcastInDim ⟨2, ![R, K]⟩ ![0, 1] h₂ (broadcastInDim ⟨2, ![1, K]⟩ ![1] h₁ x) (ix2 r k) = x (ix1 k) :=
  (bcast_rows_apply _ h₂ r k).trans (bcast_row_apply x h₁ k)

/-- A vector `[R]` as a column spread over `K` columns (the two broadcasts composed): element `(r, k)` is the
    vector's `r`. -/
theorem bcast_col_cols_apply {R K : Nat} (x : (⟨1, ![R]⟩ : Shape).Idx → α)
    (h₁ : (⟨1, ![R]⟩ : Shape).BroadcastsInDim ⟨2, ![R, 1]⟩ ![0])
    (h₂ : (⟨2, ![R, 1]⟩ : Shape).BroadcastsInDim ⟨2, ![R, K]⟩ ![0, 1]) (r : Fin R) (k : Fin K) :
    broadcastInDim ⟨2, ![R, K]⟩ ![0, 1] h₂ (broadcastInDim ⟨2, ![R, 1]⟩ ![0] h₁ x) (ix2 r k) = x (ix1 r) :=
  (bcast_cols_apply _ h₂ r k).trans (bcast_col_apply x h₁ r)

end Broadcast

end Cert.Lib.IndexNorm

end
-- ==== Proof.LibRowGather.lean ====
/-
  `stablehlo.gather` of ROWS of a matrix and of ENTRIES of a vector at a column of start indices, read at an index.

  `x[idx]` of a matrix `x : [N, K]` (or a vector `x : [N]`) at an integer array `idx : [R]` lowers to a gather over the
  indices reshaped to `[R, 1]`: index_vector_dim 1, start_index_map `[0]`, collapsed_slice_dims `[0]`, and for the
  matrix offset_dims `[1]` with slice_sizes `[1, K]`. Result row `r` is the operand's row at the start index
  `idx[r, 0]`, read as a signed integer and clamped into `[0, N − 1]`.
-/
import Idealize.ShloMosaic.Lib.ValueIdx

noncomputable section

open Idealize.ShloMosaic Idealize.ShloMosaic.ValueIdx

namespace Cert.Lib.RowGather

variable {α : Type}

/-- The second axis is not the first. -/
private theorem one_ne_zero2 : ¬ ((1 : Fin 2) = 0) := by decide

/-- The dimension numbers of a row gather: operand `[N, K]`, start indices `[R, 1]`, result `[R, K]`; the conditions
    `wf` are decided on a program's literal shapes. -/
abbrev rowGatherDims (N K R : Nat)
    (wf : GatherDims.WF ⟨2, ![N, K]⟩ ⟨2, ![R, 1]⟩ ⟨2, ![R, K]⟩ [1] [0] [] [0] [] 1 ![1, K]) :
    GatherDims ⟨2, ![N, K]⟩ ⟨2, ![R, 1]⟩ ⟨2, ![R, K]⟩ where
  offsetDims := [1]
  collapsedSliceDims := [0]
  operandBatchingDims := []
  startIndicesBatchingDims := []
  startIndexMap := [0]
  indexVectorDim := 1
  sliceSizes := ![1, K]
  wf := wf

/-- THE ROW GATHER READ AT `(r, k)`: the operand at row `idx[r, 0]` (read signed, clamped into `[0, N − 1]`) and
    column `k`. -/
theorem rowGather_apply {N K R w : Nat} (hN : 0 < N)
    (wf : GatherDims.WF ⟨2, ![N, K]⟩ ⟨2, ![R, 1]⟩ ⟨2, ![R, K]⟩ [1] [0] [] [0] [] 1 ![1, K])
    (x : (⟨2, ![N, K]⟩ : Shape).Idx → α) (idx : IVec ⟨2, ![R, 1]⟩ w) (r : Fin R) (k : Fin K) :
    Host.gather (rowGatherDims N K R wf) x idx (ix2 r k)
      = x (ix2 (⟨min (idx (ix2 r (0 : Fin 1))).toInt.toNat (N - 1), by omega⟩ : Fin N) k) := by
  have h0 : ((rowGatherDims N K R wf).operandIdx (ix2 r k) idx (0 : Fin 2)).val
      = min (idx (ix2 r (0 : Fin 1))).toInt.toNat (N - 1) := by
    show (rowGatherDims N K R wf).start (ix2 r k) idx 0 + (rowGatherDims N K R wf).batchCoord (ix2 r k) 0
      + (rowGatherDims N K R wf).offCoord (ix2 r k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N K R wf).startIndexMap from List.mem_singleton.mpr rfl)]
    have hsi : (rowGatherDims N K R wf).siIdx (ix2 r k) ⟨List.idxOf (0 : Fin 2) (rowGatherDims N K R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  have h1 : ((rowGatherDims N K R wf).operandIdx (ix2 r k) idx (1 : Fin 2)).val = k.val := by
    show (rowGatherDims N K R wf).start (ix2 r k) idx 1 + (rowGatherDims N K R wf).batchCoord (ix2 r k) 1
      + (rowGatherDims N K R wf).offCoord (ix2 r k) 1 = _
    rw [GatherDims.batchCoord_eq_zero _ _ _ List.not_mem_nil]
    unfold GatherDims.start
    rw [dif_neg (show (1 : Fin 2) ∉ (rowGatherDims N K R wf).startIndexMap from
      fun h => absurd (List.mem_singleton.mp h) one_ne_zero2)]
    unfold GatherDims.offCoord
    rw [dif_pos ((GatherDims.mem_sKept _ _).mpr
      ⟨fun h => absurd (List.mem_singleton.mp h) one_ne_zero2, List.not_mem_nil⟩)]
    simp only [Nat.zero_add]
    rfl
  unfold Host.gather
  congr 1
  funext a
  refine Fin.ext ?_
  match a with
  | ⟨0, _⟩ => exact h0
  | ⟨1, _⟩ => exact h1

/-- The dimension numbers of an entry gather: operand `[N]`, start indices `[R, 1]`, result `[R]`; the conditions
    `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ENTRY GATHER READ AT `r`: the operand at the start index `idx[r, 0]`, read signed and clamped into
    `[0, N − 1]`. -/
theorem vecGather_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r)
      = x (ix1 (⟨min (idx (ix2 r (0 : Fin 1))).toInt.toNat (N - 1), by omega⟩ : Fin N)) := by
  unfold Host.gather
  congr 1
  funext a
  obtain rfl : a = 0 := Subsingleton.elim _ _
  refine Fin.ext ?_
  show (vecGatherDims N R wf).start (ix1 r) idx 0 + (vecGatherDims N R wf).batchCoord (ix1 r) 0
    + (vecGatherDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 r) ⟨List.idxOf (0 : Fin 1) (vecGatherDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

end Cert.Lib.RowGather

end
-- ==== Proof.LibRowScatterAdd.lean ====
/-
  `stablehlo.scatter` with an `add` body of ROWS into a matrix at a column of scatter indices, read at an index.

  `zeros((N, K)).at[idx].add(u)` with `idx : [E]` and `u : [E, K]` lowers to a scatter over the indices reshaped to
  `[E, 1]`: update_window_dims `[1]`, inserted_window_dims `[0]`, scatter_dims_to_operand_dims `[0]`,
  index_vector_dim 1. Update element `(e, k)` lands on operand element `(v, k)` exactly when the scatter index
  `idx[e, 0]`, read as a signed integer and NOT clamped, is `v`. At the ideal instance the result element is the sum
  of the updates landing on it, so scaling every update that can land on a row by a non-negative real scales that row.
-/
import Idealize.ShloMosaic.Lib.ValueIdx
import Idealize.ShloMosaic.PureOps.Ideal

noncomputable section

open scoped BigOperators

open Idealize.ShloMosaic Idealize.ShloMosaic.ValueIdx

namespace Cert.Lib.RowScatterAdd

/-- The second axis is not the first. -/
private theorem one_ne_zero2 : ¬ ((1 : Fin 2) = 0) := by decide

/-- The dimension numbers of a row scatter: operand `[N, K]`, scatter indices `[E, 1]`, updates `[E, K]`; the
    conditions `wf` are decided on a program's literal shapes. -/
abbrev rowScatterDims (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

section Coordinates
variable {N K E w : Nat} (wf : ScatterDims.WF ⟨2, ![N, K]⟩ ⟨2, ![E, 1]⟩ ⟨2, ![E, K]⟩ [1] [0] [0] 1)
  (idx : IVec ⟨2, ![E, 1]⟩ w) (j : (⟨2, ![E, K]⟩ : Shape).Idx)

/-- On the row axis the window starts at the update row's scatter index, read signed. -/
theorem start_row : (rowScatterDims N K E wf).start j idx (0 : Fin 2) = (idx (ix2 (j 0) (0 : Fin 1))).toInt := by
  unfold ScatterDims.start
  rw [dif_pos (show (0 : Fin 2) ∈ (rowScatterDims N K E wf).scatterDimsToOperandDims from List.mem_singleton.mpr rfl)]
  have hsi : (rowScatterDims N K E wf).siIdx j ⟨List.idxOf (0 : Fin 2) (rowScatterDims N K E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col : (rowScatterDims N K E wf).start j idx (1 : Fin 2) = 0 := by
  unfold ScatterDims.start
  rw [dif_neg (show (1 : Fin 2) ∉ (rowScatterDims N K E wf).scatterDimsToOperandDims from
    fun h => absurd (List.mem_singleton.mp h) one_ne_zero2)]

/-- The row axis is inserted: its window coordinate is 0. -/
theorem window_row : (rowScatterDims N K E wf).window j (0 : Fin 2) = 0 := by
  unfold ScatterDims.window
  rw [dif_neg (show (0 : Fin 2) ∉ (rowScatterDims N K E wf).sKept from by
    simp [ScatterDims.sKept, Shape.kept, List.mem_filter])]

/-- The column axis's window coordinate is the update's column. -/
theorem window_col : (rowScatterDims N K E wf).window j (1 : Fin 2) = (j 1).val := by
  unfold ScatterDims.window
  rw [dif_pos (show (1 : Fin 2) ∈ (rowScatterDims N K E wf).sKept from by
    simp [ScatterDims.sKept, Shape.kept, List.mem_filter, List.mem_finRange])]
  rfl

end Coordinates

/-- An update element lands on operand element `i` only if its row's scatter index, read SIGNED and unclamped, is
    exactly `i`'s row; its column is kept. -/
theorem rowScatter_resultIdx_some {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h : (rowScatterDims N K E wf).resultIdx? j idx = some i) :
    (idx (ix2 (j 0) (0 : Fin 1))).toInt = ((i 0).val : Int) ∧ (j 1).val = (i 1).val := by
  unfold ScatterDims.resultIdx? at h
  split at h
  · rename_i hc
    obtain rfl := Option.some.inj h
    have h0 := (hc (0 : Fin 2)).1
    rw [start_row, window_row] at h0
    refine ⟨?_, ?_⟩
    · show _ = (((((rowScatterDims N K E wf).start j idx (0 : Fin 2)
        + ((rowScatterDims N K E wf).window j (0 : Fin 2) : Int)).toNat : Nat)) : Int)
      rw [start_row, window_row]
      omega
    · show _ = ((rowScatterDims N K E wf).start j idx (1 : Fin 2)
        + ((rowScatterDims N K E wf).window j (1 : Fin 2) : Int)).toNat
      rw [start_col, window_col]
      omega
  · exact absurd h (by simp)

/-- Conversely, an update element whose row's scatter index, read signed, is `i`'s row and whose column is `i`'s
    column lands on `i`. -/
theorem rowScatter_resultIdx_of_eq {N K E w : Nat} (wf : ScatterDims.WF ⟨2, ![N, K]⟩ ⟨2, ![E, 1]⟩ ⟨2, ![E, K]⟩ [1] [0] [0] 1)
    (idx : IVec ⟨2, ![E, 1]⟩ w) (j : (⟨2, ![E, K]⟩ : Shape).Idx) (i : (⟨2, ![N, K]⟩ : Shape).Idx)
    (h0 : (idx (ix2 (j 0) (0 : Fin 1))).toInt = ((i 0).val : Int)) (h1 : (j 1).val = (i 1).val) :
    (rowScatterDims N K E wf).resultIdx? j idx = some i := by
  have hi0 : (i 0).val < N := idx2_lt0 i
  have hi1 : (i 1).val < K := idx2_lt1 i
  have hc : ∀ a : Fin 2, 0 ≤ (rowScatterDims N K E wf).start j idx a + ((rowScatterDims N K E wf).window j a : Int)
      ∧ (rowScatterDims N K E wf).start j idx a + ((rowScatterDims N K E wf).window j a : Int)
        < ((⟨2, ![N, K]⟩ : Shape).size a : Int) := by
    intro a
    match a with
    | ⟨0, _⟩ =>
      show 0 ≤ (rowScatterDims N K E wf).start j idx (0 : Fin 2) + ((rowScatterDims N K E wf).window j (0 : Fin 2) : Int)
        ∧ (rowScatterDims N K E wf).start j idx (0 : Fin 2) + ((rowScatterDims N K E wf).window j (0 : Fin 2) : Int) < (N : Int)
      rw [start_row, window_row, h0]; omega
    | ⟨1, _⟩ =>
      show 0 ≤ (rowScatterDims N K E wf).start j idx (1 : Fin 2) + ((rowScatterDims N K E wf).window j (1 : Fin 2) : Int)
        ∧ (rowScatterDims N K E wf).start j idx (1 : Fin 2) + ((rowScatterDims N K E wf).window j (1 : Fin 2) : Int) < (K : Int)
      rw [start_col, window_col, h1]; omega
  unfold ScatterDims.resultIdx?
  rw [dif_pos hc]
  congr 1
  funext a
  refine Fin.ext ?_
  match a with
  | ⟨0, _⟩ =>
    show ((rowScatterDims N K E wf).start j idx (0 : Fin 2)
      + ((rowScatterDims N K E wf).window j (0 : Fin 2) : Int)).toNat = (i 0).val
    rw [start_row, window_row, h0]; omega
  | ⟨1, _⟩ =>
    show ((rowScatterDims N K E wf).start j idx (1 : Fin 2)
      + ((rowScatterDims N K E wf).window j (1 : Fin 2) : Int)).toNat = (i 1).val
    rw [start_col, window_col, h1]; omega

/-- Multiplication by a non-negative real distributes over a finite sum of extended reals, infinities included. -/
theorem sum_mul_coe_of_nonneg {ι : Type} (s : Finset ι) (f : ι → EReal) (c : ℝ) (hc : 0 ≤ c) :
    ∑ j ∈ s, f j * (c : EReal) = (∑ j ∈ s, f j) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- SCALING A ROW OF A SCATTER-ADD INTO ZEROS: if every update element whose row's scatter index is `i`'s row is a
    non-negative real `c` times the corresponding element of a second update array, the accumulated element `i` is
    `c` times the second scatter-add's element `i`. -/
theorem rowScatterAdd_scale {N K E w : Nat} (wf : ScatterDims.WF ⟨2, ![N, K]⟩ ⟨2, ![E, 1]⟩ ⟨2, ![E, K]⟩ [1] [0] [0] 1)
    (idx : IVec ⟨2, ![E, 1]⟩ w) (u₁ u₂ : (⟨2, ![E, K]⟩ : Shape).Idx → EReal) (c : ℝ) (hc : 0 ≤ c)
    (i : (⟨2, ![N, K]⟩ : Shape).Idx)
    (h : ∀ j : (⟨2, ![E, K]⟩ : Shape).Idx, (idx (ix2 (j 0) (0 : Fin 1))).toInt = ((i 0).val : Int) → u₁ j = u₂ j * (c : EReal)) :
    Ideal.hostScatterAdd (rowScatterDims N K E wf) (fun _ => (0 : EReal)) idx u₁ i
      = Ideal.hostScatterAdd (rowScatterDims N K E wf) (fun _ => (0 : EReal)) idx u₂ i * (c : EReal) := by
  unfold Ideal.hostScatterAdd
  simp only [zero_add]
  rw [← sum_mul_coe_of_nonneg _ _ c hc]
  refine Finset.sum_congr rfl fun j hj => ?_
  exact h j (rowScatter_resultIdx_some wf idx j i (Finset.mem_filter.mp hj).2).1

end Cert.Lib.RowScatterAdd

end
-- ==== Proof.LibScatterLinear.lean ====
/-
  A row scatter-add into zeros read as a sum over the update rows that land on a row, and the linear-algebra fact
  that lets a matrix product move across such a weighted sum.

  For a scatter index column `idx : [E, 1]`, the scatter-add of update rows `u : [E, K]` into the zero matrix has,
  at `(v, k)`, the sum of `u (e, k)` over the update rows `e` whose scatter index, read as a signed integer, is `v`.
  And for real families `a e k`, `n e`, `w k`:
  `Σ k, (Σ e ∈ S, a e k * n e) * w k = Σ e ∈ S, (Σ k, a e k * w k) * n e` — both are the double sum of
  `a e k * n e * w k`. Over the extended reals this needs every entry to be a real number (at infinities a product
  does not distribute over a sum), which is how it is stated.
-/
import Idealize.ShloMosaic.Lib.ValueIdx
import Idealize.ShloMosaic.PureOps.Ideal
import proofs.«121536_j14388140441820_2_alg».proof.Proof.LibRowScatterAdd

noncomputable section

open scoped BigOperators

open Idealize.ShloMosaic Idealize.ShloMosaic.ValueIdx Cert.Lib.RowScatterAdd

namespace Cert.Lib.ScatterLinear

/-- At the ideal instance the host's float scatter-add is the sum of the landing updates (one value at every schedule). -/
theorem scatterAdd_ideal {s si su : Shape} {w : Nat} {φ : FTy} (d : ScatterDims s si su) (x : FVec Ideal s φ) (idx : IVec si w)
    (u : FVec Ideal su φ) : Host.scatterAdd d x idx u = Ideal.hostScatterAdd d x idx u := rfl

/-- THE ROW SCATTER-ADD INTO ZEROS READ AT `(v, k)`: the sum of the updates' column `k` over the update rows whose
    scatter index, read signed, is `v`. -/
theorem rowScatterAdd_zero_apply {N K E w : Nat}
    (wf : ScatterDims.WF ⟨2, ![N, K]⟩ ⟨2, ![E, 1]⟩ ⟨2, ![E, K]⟩ [1] [0] [0] 1)
    (idx : IVec ⟨2, ![E, 1]⟩ w) (u : (⟨2, ![E, K]⟩ : Shape).Idx → EReal) (v : Fin N) (k : Fin K) :
    Ideal.hostScatterAdd (rowScatterDims N K E wf) (fun _ => (0 : EReal)) idx u (ix2 v k)
      = ∑ e ∈ Finset.univ.filter (fun e : Fin E => (idx (ix2 e (0 : Fin 1))).toInt = ((v.val : Nat) : Int)),
          u (ix2 e k) := by
  unfold Ideal.hostScatterAdd
  simp only [zero_add]
  refine Finset.sum_nbij' (fun j => (j 0 : Fin E)) (fun e => ix2 e k) ?_ ?_ ?_ ?_ ?_
  · intro j hj
    have h := rowScatter_resultIdx_some wf idx j (ix2 v k) (Finset.mem_filter.mp hj).2
    exact Finset.mem_filter.mpr ⟨Finset.mem_univ _, h.1⟩
  · intro e he
    exact Finset.mem_filter.mpr ⟨Finset.mem_univ _,
      rowScatter_resultIdx_of_eq wf idx (ix2 e k) (ix2 v k) (Finset.mem_filter.mp he).2 rfl⟩
  · intro j hj
    have h := rowScatter_resultIdx_some wf idx j (ix2 v k) (Finset.mem_filter.mp hj).2
    have hk : (j 1 : Fin K) = k := Fin.ext h.2
    rw [← hk]
    exact (eq_ix2 j).symm
  · intro e _
    rfl
  · intro j hj
    have h := rowScatter_resultIdx_some wf idx j (ix2 v k) (Finset.mem_filter.mp hj).2
    have hk : (j 1 : Fin K) = k := Fin.ext h.2
    rw [← hk]
    exact congrArg u (eq_ix2 j)

/-- The coercion of a finite sum of reals is the sum of the coercions. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Moving a matrix product across a weighted sum, for real entries. -/
theorem sum_mul_sum_comm_real {ι κ : Type} [Fintype κ] (S : Finset ι) (a : ι → κ → ℝ) (n : ι → ℝ) (w : κ → ℝ) :
    ∑ k : κ, (∑ e ∈ S, ((a e k : ℝ) : EReal) * ((n e : ℝ) : EReal)) * ((w k : ℝ) : EReal)
      = ∑ e ∈ S, (∑ k : κ, ((a e k : ℝ) : EReal) * ((w k : ℝ) : EReal)) * ((n e : ℝ) : EReal) := by
  simp only [← EReal.coe_mul, ← coe_finset_sum]
  refine congrArg _ ?_
  simp only [Finset.sum_mul]
  rw [Finset.sum_comm]
  refine Finset.sum_congr rfl fun e _ => Finset.sum_congr rfl fun k _ => ?_
  ring

/-- THE SAME over the extended reals, for entries each of which is a real number. -/
theorem sum_mul_sum_comm {ι κ : Type} [Fintype κ] (S : Finset ι) (a : ι → κ → EReal) (n : ι → EReal) (w : κ → EReal)
    (ha : ∀ e k, ∃ r : ℝ, a e k = (r : EReal)) (hn : ∀ e, ∃ r : ℝ, n e = (r : EReal))
    (hw : ∀ k, ∃ r : ℝ, w k = (r : EReal)) :
    ∑ k : κ, (∑ e ∈ S, a e k * n e) * w k = ∑ e ∈ S, (∑ k : κ, a e k * w k) * n e := by
  choose ar har using ha
  choose nr hnr using hn
  choose wr hwr using hw
  simp only [har, hnr, hwr]
  exact sum_mul_sum_comm_real S ar nr wr

end Cert.Lib.ScatterLinear

end
-- ==== Proof.LibVecScatterAdd.lean ====
/-
  A float vector scatter-add read at an entry, over the extended reals.

  `x.at[g].add(u)` for a vector `x` of length `N`, an `[E, 1]` matrix `g` of integer indices and a vector `u` of `E` updates lowers
  to a `stablehlo.scatter` with an `add` body whose dimension numbers are: no update window axis, operand axis 0 inserted,
  scatter axis 0 mapped to operand axis 0, the index vector along axis 1 of `g`. Update `e` lands on entry `g[e, 0]` (read as a
  signed integer) when that lies in `[0, N)`, and nowhere otherwise. At the ideal instance the result's entry `v` is therefore
  `x v + ∑ e, [g e = v] · u e`; with `x = 0` and `u = 1` (the histogram idiom `zeros(N).at[g].add(1)`) it counts the indices equal
  to `v`, written here as a sum of zeros and ones.

  Everything is stated for arbitrary extents `N`, `E` and any integer width of the indices; a printed record
  `scatter_S<N>_S<E>x1_S<E>_n_0_0_1` is `dims` of its own well-formedness proof by `rfl`.
-/
import Idealize.ShloMosaic.PureOps.Ideal
import Idealize.ShloMosaic.PureOps.Contract
import Idealize.ShloMosaic.Lib.ValueIdx

noncomputable section

namespace Cert.Lib.VecScatter

open Idealize.ShloMosaic Idealize.ShloMosaic.ValueIdx

variable {N E : Nat}

/-- The dimension numbers of `x.at[g].add(u)`: `x` of shape `[N]`, `g` of shape `[E, 1]`, `u` of shape `[E]`. -/
abbrev dims (wf : ScatterDims.WF (⟨1, ![N]⟩ : Shape) (⟨2, ![E, 1]⟩ : Shape) (⟨1, ![E]⟩ : Shape) [] [0] [0] 1) :
    ScatterDims (⟨1, ![N]⟩ : Shape) (⟨2, ![E, 1]⟩ : Shape) (⟨1, ![E]⟩ : Shape) :=
  { updateWindowDims := [], insertedWindowDims := [0], scatterDimsToOperandDims := [0], indexVectorDim := 1, wf := wf }

variable (wf : ScatterDims.WF (⟨1, ![N]⟩ : Shape) (⟨2, ![E, 1]⟩ : Shape) (⟨1, ![E]⟩ : Shape) [] [0] [0] 1)

/-- Update `e` reads its start index at row `e`, column 0 of the index matrix. -/
theorem siIdx_eq (e : Fin E) (c : Fin ([0] : List (Fin 1)).length) : (dims wf).siIdx (ix1 e) c = ix2 e 0 := by
  funext b
  match b with
  | ⟨0, _⟩ => exact Fin.ext rfl
  | ⟨1, _⟩ =>
    apply Fin.ext
    have hc : c.val < 1 := c.isLt
    show c.val = 0
    omega

/-- The window of update `e` starts, on the operand's one axis, at its index read signed. -/
theorem start_eq {w : Nat} (idx : IVec (⟨2, ![E, 1]⟩ : Shape) w) (e : Fin E) (a : Fin 1) :
    (dims wf).start (ix1 e) idx a = (idx (ix2 e 0)).toInt := by
  obtain rfl : a = 0 := Subsingleton.elim _ _
  unfold ScatterDims.start
  rw [dif_pos (List.mem_singleton.2 rfl), siIdx_eq]

/-- An update is one number: its window has no extent, so the coordinate inside it is 0. -/
theorem window_eq (e : Fin E) (a : Fin 1) : (dims wf).window (ix1 e) a = 0 := by
  obtain rfl : a = 0 := Subsingleton.elim _ _
  unfold ScatterDims.window
  have hk : (dims wf).sKept = [] := rfl
  rw [dif_neg (by rw [hk]; exact List.not_mem_nil)]

/-- Update `e` lands on entry `v` exactly when its index, read signed, is `v`. -/
theorem resultIdx?_eq_some_iff {w : Nat} (idx : IVec (⟨2, ![E, 1]⟩ : Shape) w) (e : Fin E) (v : Fin N) :
    (dims wf).resultIdx? (ix1 e) idx = some (ix1 v) ↔ (idx (ix2 e 0)).toInt = (v.val : Int) := by
  unfold ScatterDims.resultIdx?
  by_cases h : ∀ a, 0 ≤ (dims wf).start (ix1 e) idx a + (dims wf).window (ix1 e) a
      ∧ (dims wf).start (ix1 e) idx a + (dims wf).window (ix1 e) a < (⟨1, ![N]⟩ : Shape).size a
  · rw [dif_pos h]
    have h0 := h 0
    rw [start_eq, window_eq] at h0
    constructor
    · intro hs
      have := congrArg Fin.val (congrFun (Option.some.inj hs) 0)
      simp only [start_eq, window_eq] at this
      have hv : ((idx (ix2 e 0)).toInt + ((0 : ℕ) : ℤ)).toNat = v.val := this
      omega
    · intro hx
      refine congrArg some (funext fun a => ?_)
      obtain rfl : a = 0 := Subsingleton.elim _ _
      apply Fin.ext
      simp only [start_eq, window_eq]
      show ((idx (ix2 e 0)).toInt + 0).toNat = v.val
      omega
  · rw [dif_neg h]
    constructor
    · intro hs; exact absurd hs (by simp)
    · intro hx
      exfalso; apply h
      intro a
      obtain rfl : a = 0 := Subsingleton.elim _ _
      rw [start_eq, window_eq]
      have hN : (⟨1, ![N]⟩ : Shape).size 0 = N := rfl
      rw [hN, hx]
      have := v.isLt
      omega

/-- A rank-1 index is its one coordinate. -/
def idxEquiv1 {n : Nat} : (⟨1, ![n]⟩ : Shape).Idx ≃ Fin n where
  toFun j := j 0
  invFun := ix1
  left_inv j := (eq_ix1 j).symm
  right_inv _ := rfl

/-- A sum over a rank-1 index set is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]; rfl

/-- `x.at[g].add(u)` read at entry `v`: the operand's entry plus the updates whose index, read signed, is `v`
    (an index outside `[0, N)` lands nowhere). No finiteness is needed: it is the definition re-indexed. -/
theorem hostScatterAdd_apply {w : Nat} (x : (⟨1, ![N]⟩ : Shape).Idx → EReal) (idx : IVec (⟨2, ![E, 1]⟩ : Shape) w)
    (upd : (⟨1, ![E]⟩ : Shape).Idx → EReal) (v : Fin N) :
    Ideal.hostScatterAdd (dims wf) x idx upd (ix1 v)
      = x (ix1 v) + ∑ e : Fin E, if (idx (ix2 e 0)).toInt = (v.val : Int) then upd (ix1 e) else 0 := by
  unfold Ideal.hostScatterAdd
  congr 1
  rw [Finset.sum_filter, sum_idx1]
  exact Finset.sum_congr rfl fun e _ => if_congr (resultIdx?_eq_some_iff wf idx e v) rfl rfl

/-- The histogram idiom `zeros(N).at[g].add(1)`: entry `v` counts the indices equal to `v`, as a sum of zeros and ones. -/
theorem hostScatterAdd_count {w : Nat} (idx : IVec (⟨2, ![E, 1]⟩ : Shape) w) (v : Fin N) :
    Ideal.hostScatterAdd (dims wf) (fun _ => (0 : EReal)) idx (fun _ => (1 : EReal)) (ix1 v)
      = ∑ e : Fin E, if (idx (ix2 e 0)).toInt = (v.val : Int) then (1 : EReal) else 0 := by
  rw [hostScatterAdd_apply, zero_add]

/-- The same two readings for the host operation as a program prints it, at the ideal instance and any float format. -/
theorem host_scatterAdd_apply {φ : FTy} {w : Nat} (x : FVec Ideal (⟨1, ![N]⟩ : Shape) φ) (idx : IVec (⟨2, ![E, 1]⟩ : Shape) w)
    (upd : FVec Ideal (⟨1, ![E]⟩ : Shape) φ) (v : Fin N) :
    Host.scatterAdd (F := Ideal) (dims wf) x idx upd (ix1 v)
      = (x (ix1 v) + ∑ e : Fin E, if (idx (ix2 e 0)).toInt = (v.val : Int) then upd (ix1 e) else (0 : EReal) : EReal) :=
  hostScatterAdd_apply wf x idx upd v

theorem host_scatterAdd_count {φ : FTy} {w : Nat} (idx : IVec (⟨2, ![E, 1]⟩ : Shape) w) (v : Fin N) :
    Host.scatterAdd (F := Ideal) (φ := φ) (dims wf) (fun _ => (0 : EReal)) idx (fun _ => (1 : EReal)) (ix1 v)
      = ∑ e : Fin E, if (idx (ix2 e 0)).toInt = (v.val : Int) then (1 : EReal) else 0 :=
  hostScatterAdd_count wf idx v

end Cert.Lib.VecScatter

end
-- ==== Proof.LibKeepdims.lean ====
/-
  Three layout facts for row-wise reductions with a kept unit axis (`jnp.sum(x, axis=-1, keepdims=True)` and what
  consumes it), read at an index built from literal coordinates:
    • a column [a, 1] broadcast to [a, b] reads, at (p, c), the column's entry of row p;
    • a vector [a] cast to the column [a, 1] reads, at (i, u), the vector's entry i;
    • the sum of a matrix [a, b] along its second axis, at the extended reals, is at row i the sum over k of the
      entries (i, k).
  They complete the library's small-shape lemmas (which have the row forms [1, b] → [a, b] and [a] → [1, a]).
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx
open scoped BigOperators

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(i, u)`, the vector's entry `i`, whatever the unit
    coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The float sum of an `[a, b]` matrix along its second axis, at the extended reals, is at row `i` the sum of
    that row's entries. -/
theorem rowSum_apply {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Keepdims

end
-- ==== Proof.KvHost.lean ====
/-
  The host operations between the kernels, read at an index.

  Between its three kernels the program prepares, from the edge list's source vector `s` and destination vector `d`:
  the two one-column index arrays (the destination vector as it is; the source vector after the negative-index wrap),
  the degree of every node (a scatter-add of ones into zeros at the destinations), its inverse square root where the
  degree is positive and zero elsewhere, as a one-column array; and, around each layer, the gather of the scaled feature
  rows at the wrapped sources followed by their scatter-add into zeros at the destinations.  Each is read here at an
  index, in the vocabulary of the specification: `plainCol`, `wrapCol`, `rowOf`, `into`, `deg`, `dinv`.
-/
import proofs.«121536_j14388140441820_2_alg».proof.Proof.Gen.KernelIdeal
import proofs.«121536_j14388140441820_2_alg».proof.Proof.Spec
import proofs.«121536_j14388140441820_2_alg».proof.Proof.LibIndexNorm
import proofs.«121536_j14388140441820_2_alg».proof.Proof.LibRowGather
import proofs.«121536_j14388140441820_2_alg».proof.Proof.LibScatterLinear
import proofs.«121536_j14388140441820_2_alg».proof.Proof.LibVecScatterAdd
import proofs.«121536_j14388140441820_2_alg».proof.Proof.LibKeepdims
import Idealize.ShloMosaic.Lib.IdealHost
import Idealize.ShloMosaic.Lib.ValueLayout

noncomputable section

open scoped BigOperators
open Idealize.ShloMosaic Idealize.ShloMosaic.ValueIdx
open Cert.KernelIdeal Cert.KernelIdeal.Gen

namespace Cert.KernelIdeal.KV

/-! ## The index columns -/

/-- The destination vector as a one-column array is its plain column. -/
theorem plaincol_eq (d : IVec S850000 32) :
    broadcastInDim S850000x1 ![0] bcast_S850000_S850000x1_0 d = Cert.Gcn.plainCol d := by
  funext j
  obtain ⟨e, c, rfl⟩ : ∃ (e : Fin 850000) (c : Fin 1), j = ix2 e c := ⟨j 0, j 1, eq_ix2 j⟩
  obtain rfl : c = 0 := Subsingleton.elim _ _
  exact Cert.Lib.IndexNorm.bcast_col_apply d bcast_S850000_S850000x1_0 e

/-- The source vector after the wrap `x < 0 ? x + 50000 : x`, as a one-column array, is its wrapped column. -/
theorem wrapcol_eq (s : IVec S850000 32) :
    broadcastInDim S850000x1 ![0] bcast_S850000_S850000x1_0
        (select (cmpi .slt s (broadcastInDim S850000 ![] bcast_S_S850000 (constantI S_ 32 0#32)))
          (addi s (broadcastInDim S850000 ![] bcast_S_S850000 (constantI S_ 32 50000#32))) s)
      = Cert.Gcn.wrapCol s := by
  funext j
  obtain ⟨e, c, rfl⟩ : ∃ (e : Fin 850000) (c : Fin 1), j = ix2 e c := ⟨j 0, j 1, eq_ix2 j⟩
  obtain rfl : c = 0 := Subsingleton.elim _ _
  rw [Cert.Lib.IndexNorm.bcast_col_apply _ bcast_S850000_S850000x1_0 e]
  rfl

/-! ## The gather and the two scatter-adds -/

/-- The row gather at `(e, k)`: the operand's row at edge `e`'s start index, read signed and clamped. -/
theorem gather_rows_apply {α : Type} (h : S50000x64.Idx → α) (idx : IVec S850000x1 32) (e : Fin 850000) (k : Fin 64) :
    Host.gather gather_S50000x64_S850000x1_S850000x64_1_0_n_n_0_1_164 h idx (ix2 e k)
      = h (ix2 (Cert.Gcn.rowOf idx e) k) :=
  Cert.Lib.RowGather.rowGather_apply (N := 50000) (K := 64) (R := 850000) (by decide)
    gather_S50000x64_S850000x1_S850000x64_1_0_n_n_0_1_164_wf h idx e k

/-- The zero matrix the row scatter-add starts from. -/
theorem zeros2_apply (i : S50000x64.Idx) :
    broadcastInDim S50000x64 ![] bcast_S_S50000x64 (constant (F := Ideal) S_ .f32 0x00000000#32) i = 0 := by
  unfold broadcastInDim
  exact (constant_apply _ _).trans Ideal.ofBits_zero_f32

/-- The zero vector. -/
theorem zeros_apply (i : S50000.Idx) :
    broadcastInDim S50000 ![] bcast_S_S50000 (constant (F := Ideal) S_ .f32 0x00000000#32) i = 0 := by
  unfold broadcastInDim
  exact (constant_apply _ _).trans Ideal.ofBits_zero_f32

/-- The vector of ones. -/
theorem ones_apply (i : S850000.Idx) :
    broadcastInDim S850000 ![] bcast_S_S850000 (constant (F := Ideal) S_ .f32 0x3F800000#32) i = 1 := by
  unfold broadcastInDim
  exact (constant_apply _ _).trans Ideal.ofBits_one_f32

/-- The row scatter-add into zeros at `(v, k)`: the sum of the update rows landing on `v`. -/
theorem scatter_rows_apply (idx : IVec S850000x1 32) (u : FVec Ideal S850000x64 .f32) (v : Fin 50000) (k : Fin 64) :
    Host.scatterAdd (F := Ideal) scatter_S50000x64_S850000x1_S850000x64_1_0_0_1
        (broadcastInDim S50000x64 ![] bcast_S_S50000x64 (constant (F := Ideal) S_ .f32 0x00000000#32)) idx u (ix2 v k)
      = ∑ e ∈ Cert.Gcn.into idx v, (u (ix2 e k) : EReal) := by
  have hz : (broadcastInDim S50000x64 ![] bcast_S_S50000x64 (constant (F := Ideal) S_ .f32 0x00000000#32)
      : FVec Ideal S50000x64 .f32) = fun _ => (0 : EReal) := funext zeros2_apply
  have hd : scatter_S50000x64_S850000x1_S850000x64_1_0_0_1
      = Cert.Lib.RowScatterAdd.rowScatterDims 50000 64 850000 scatter_S50000x64_S850000x1_S850000x64_1_0_0_1_wf := rfl
  rw [hz, hd, Cert.Lib.ScatterLinear.scatterAdd_ideal]
  unfold Cert.Gcn.into
  exact Cert.Lib.ScatterLinear.rowScatterAdd_zero_apply scatter_S50000x64_S850000x1_S850000x64_1_0_0_1_wf idx u v k

/-- The scatter-add of ones into zeros at `v`: the degree of `v`. -/
theorem deg_apply (idx : IVec S850000x1 32) (v : Fin 50000) :
    Host.scatterAdd (F := Ideal) scatter_S50000_S850000x1_S850000_n_0_0_1
        (broadcastInDim S50000 ![] bcast_S_S50000 (constant (F := Ideal) S_ .f32 0x00000000#32)) idx
        (broadcastInDim S850000 ![] bcast_S_S850000 (constant (F := Ideal) S_ .f32 0x3F800000#32)) (ix1 v)
      = Cert.Gcn.deg idx v := by
  have hz : (broadcastInDim S50000 ![] bcast_S_S50000 (constant (F := Ideal) S_ .f32 0x00000000#32)
      : FVec Ideal S50000 .f32) = fun _ => (0 : EReal) := funext zeros_apply
  have ho : (broadcastInDim S850000 ![] bcast_S_S850000 (constant (F := Ideal) S_ .f32 0x3F800000#32)
      : FVec Ideal S850000 .f32) = fun _ => (1 : EReal) := funext ones_apply
  have hd : scatter_S50000_S850000x1_S850000_n_0_0_1
      = Cert.Lib.VecScatter.dims (N := 50000) (E := 850000) scatter_S50000_S850000x1_S850000_n_0_0_1_wf := rfl
  rw [hz, ho, hd]
  unfold Cert.Gcn.deg
  exact Cert.Lib.VecScatter.host_scatterAdd_count (φ := .f32) scatter_S50000_S850000x1_S850000_n_0_0_1_wf idx v

/-! ## The inverse square-root degree -/

/-- `select(g > z, rsqrt g, z')` with `z`, `z'` zero vectors: `rsqrt g` where `g` is positive, `0` elsewhere. -/
theorem dinv_apply (g z z' : FVec Ideal S50000 .f32) (hz : ∀ i, z i = 0) (hz' : ∀ i, z' i = 0) (v : Fin 50000) :
    select (cmpf .ogt g z) (Host.rsqrt (F := Ideal) g) z' (ix1 v)
      = if 0 < g (ix1 v) then Ideal.rsqrt (g (ix1 v)) else 0 := by
  show Scalar.select (BitVec.ofBool (decide (z (ix1 v) < g (ix1 v)))) (Ideal.rsqrt (g (ix1 v))) (z' (ix1 v)) = _
  rw [hz, hz']
  by_cases h : 0 < g (ix1 v)
  · rw [if_pos h, decide_eq_true h]
    exact select_one _ _
  · rw [if_neg h, decide_eq_false h]
    exact select_zero _ _

/-! ## The two reshapes -/

/-- A vector of 50000 entries as a one-column array. -/
theorem col_cast_apply (x : FVec Ideal S50000 .f32) (v : Fin 50000) :
    shapeCast S50000x1 x shapeCasts_S50000_S50000x1 (ix2 v (0 : Fin 1)) = x (ix1 v) :=
  Cert.Lib.Keepdims.shapeCast_a_a1_apply x shapeCasts_S50000_S50000x1 v 0

/-- A bias vector of 64 entries as a one-row array. -/
theorem row_cast_apply (b : FVec Ideal S64 .f32) (q : Fin 64) :
    shapeCast S1x64 b shapeCasts_S64_S1x64 (ix2 (0 : Fin 1) q) = b (ix1 q) :=
  shapeCast_a_1a_apply b shapeCasts_S64_S1x64 0 q

/-! ## Composed: the scale column and the aggregated rows -/

/-- The one-column array of inverse square-root degrees the three kernels read, at `(v, 0)`. -/
theorem dinvcol_apply (d : IVec S850000 32) (v : Fin 50000) :
    shapeCast S50000x1
        (select
          (cmpf .ogt
            (Host.scatterAdd (F := Ideal) scatter_S50000_S850000x1_S850000_n_0_0_1
              (broadcastInDim S50000 ![] bcast_S_S50000 (constant (F := Ideal) S_ .f32 0x00000000#32))
              (broadcastInDim S850000x1 ![0] bcast_S850000_S850000x1_0 d)
              (broadcastInDim S850000 ![] bcast_S_S850000 (constant (F := Ideal) S_ .f32 0x3F800000#32)))
            (broadcastInDim S50000 ![] bcast_S_S50000 (constant (F := Ideal) S_ .f32 0x00000000#32)))
          (Host.rsqrt (F := Ideal)
            (Host.scatterAdd (F := Ideal) scatter_S50000_S850000x1_S850000_n_0_0_1
              (broadcastInDim S50000 ![] bcast_S_S50000 (constant (F := Ideal) S_ .f32 0x00000000#32))
              (broadcastInDim S850000x1 ![0] bcast_S850000_S850000x1_0 d)
              (broadcastInDim S850000 ![] bcast_S_S850000 (constant (F := Ideal) S_ .f32 0x3F800000#32))))
          (broadcastInDim S50000 ![] bcast_S_S50000 (id (constant (F := Ideal) S_ .f32 0x00000000#32))))
        shapeCasts_S50000_S50000x1 (ix2 v (0 : Fin 1))
      = Cert.Gcn.dinv (Cert.Gcn.plainCol d) v := by
  rw [col_cast_apply]
  refine (dinv_apply _ _ _ zeros_apply zeros_apply v).trans ?_
  rw [plaincol_eq, deg_apply]
  rfl

/-- The aggregated rows a layer's second and third kernel read, at `(v, k)`: the sum, over the edges landing on `v`,
    of the gathered row of the edge's wrapped source. -/
theorem agg_apply (h : FVec Ideal S50000x64 .bf16) (s d : IVec S850000 32) (v : Fin 50000) (k : Fin 64) :
    Host.scatterAdd (F := Ideal) scatter_S50000x64_S850000x1_S850000x64_1_0_0_1
        (broadcastInDim S50000x64 ![] bcast_S_S50000x64 (constant (F := Ideal) S_ .f32 0x00000000#32))
        (broadcastInDim S850000x1 ![0] bcast_S850000_S850000x1_0 d)
        (extf (F := Ideal) .f32
          (Host.gather gather_S50000x64_S850000x1_S850000x64_1_0_n_n_0_1_164 h
            (broadcastInDim S850000x1 ![0] bcast_S850000_S850000x1_0
              (select (cmpi .slt s (broadcastInDim S850000 ![] bcast_S_S850000 (constantI S_ 32 0#32)))
                (addi s (broadcastInDim S850000 ![] bcast_S_S850000 (constantI S_ 32 50000#32))) s)))
          bitsLt_bf16_f32) (ix2 v k)
      = ∑ e ∈ Cert.Gcn.into (Cert.Gcn.plainCol d) v, (h (ix2 (Cert.Gcn.rowOf (Cert.Gcn.wrapCol s) e) k) : EReal) := by
  rw [plaincol_eq, wrapcol_eq, scatter_rows_apply]
  exact Finset.sum_congr rfl fun e _ => gather_rows_apply h _ e k

end Cert.KernelIdeal.KV

end
-- ==== Proof.KiStages.lean ====
/-
  The host operations around the three kernels, read off the run's boundary contents (see the run's module for `W0 … W8`).

  `srcVec`, `dstVec`: the 850000 source and destination indices (the 800000 given edges, then the 50000 self-loops), as the
  first stretch of host operations builds them from the edge array; they are carried whole, never opened.
  The one-column array of inverse square-root degrees is the same array at all three kernels' entries; the aggregated
  rows a later kernel reads are the scatter-add, at the destinations, of the rows gathered at the wrapped sources from
  the previous kernel's output.  Each stretch is first read over an arbitrary valuation of the buffers (`st_…`), then at
  the run's contents.
-/
import proofs.«121536_j14388140441820_2_alg».proof.Proof.KiRun
import proofs.«121536_j14388140441820_2_alg».proof.Proof.KvHost
import Idealize.ShloMosaic.Lib.StableHlo.Run
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem Idealize.ShloMosaic.StableHlo

/-- The source index of every edge: the given edges' first row, then the nodes themselves. -/
def srcVec (ei : IVec S2x800000 32) : IVec S850000 32 :=
  concatenate S850000 0 [⟨S800000, shapeCast _ (extractStridedSlice S1x800000 ![0, 0] ei slices_S2x800000_S1x800000_0_0) shapeCasts_S1x800000_S800000⟩,
    ⟨S50000, iotaInDim S50000 32 0⟩] concatenates_S800000_S50000_S850000_d0

/-- The destination index of every edge: the given edges' second row, then the nodes themselves. -/
def dstVec (ei : IVec S2x800000 32) : IVec S850000 32 :=
  concatenate S850000 0 [⟨S800000, shapeCast _ (extractStridedSlice S1x800000 ![1, 0] ei slices_S2x800000_S1x800000_1_0) shapeCasts_S1x800000_S800000⟩,
    ⟨S50000, iotaInDim S50000 32 0⟩] concatenates_S800000_S50000_S850000_d0

/-- The degree vector as the first stretch computes it: ones scattered at the destinations into zeros. -/
abbrev degT (d : IVec S850000 32) : FVec Ideal S50000 .f32 :=
  Host.scatterAdd (F := Ideal) scatter_S50000_S850000x1_S850000_n_0_0_1
    (broadcastInDim S50000 ![] bcast_S_S50000 (constant (F := Ideal) S_ .f32 0x00000000#32))
    (broadcastInDim S850000x1 ![0] bcast_S850000_S850000x1_0 d)
    (broadcastInDim S850000 ![] bcast_S_S850000 (constant (F := Ideal) S_ .f32 0x3F800000#32))

/-! ## Each stretch over an arbitrary valuation -/

section Stretches
variable (V : Valuation τ sig (Elt Ideal))

theorem st_v3 : (StableHlo.after (hostOps0 (F := Ideal)) V (Proc.devRef .tc main_v3) : IVec S850000 32)
    = srcVec (V (Proc.devRef .tc main_arg1)) := by
  after_results
  rfl
theorem st_v6 : (StableHlo.after (hostOps0 (F := Ideal)) V (Proc.devRef .tc main_v6) : IVec S850000 32)
    = dstVec (V (Proc.devRef .tc main_arg1)) := by
  after_results
  rfl
theorem st_v12 : (StableHlo.after (hostOps0 (F := Ideal)) V (Proc.devRef .tc main_v12) : S50000.Idx → BitVec 1)
    = cmpf .ogt (degT (dstVec (V (Proc.devRef .tc main_arg1))))
        (broadcastInDim S50000 ![] bcast_S_S50000 (constant (F := Ideal) S_ .f32 0x00000000#32)) := by
  after_results
  rfl
theorem st_v13 : (StableHlo.after (hostOps0 (F := Ideal)) V (Proc.devRef .tc main_v13) : S50000.Idx → EReal)
    = Host.rsqrt (F := Ideal) (degT (dstVec (V (Proc.devRef .tc main_arg1)))) := by
  after_results
  rfl
theorem st_cst2 : (StableHlo.after (hostOps0 (F := Ideal)) V (Proc.devRef .tc main_cst_2) : S_.Idx → EReal)
    = constant (F := Ideal) S_ .f32 0x00000000#32 := by
  after_results
theorem st_v14 : (StableHlo.after (hostOps0_1 (F := Ideal)) V (Proc.devRef .tc main_v14) : S50000.Idx → EReal)
    = select (V (Proc.devRef .tc main_v12) : S50000.Idx → BitVec 1) (V (Proc.devRef .tc main_v13) : S50000.Idx → EReal)
        (broadcastInDim S50000 ![] bcast_S_S50000 (id (V (Proc.devRef .tc main_cst_2) : S_.Idx → EReal))) := by
  after_results
  rfl
theorem st_v15 : (StableHlo.after (hostOps0_2 (F := Ideal)) V (Proc.devRef .tc main_v15) : S50000x1.Idx → EReal)
    = shapeCast S50000x1 (V (Proc.devRef .tc main_v14) : S50000.Idx → EReal) shapeCasts_S50000_S50000x1 := by
  after_results
  rfl

/-- The rows aggregated for the next kernel, as a stretch computes them from the previous kernel's output `h`. -/
abbrev aggT (h : FVec Ideal S50000x64 .bf16) (s d : IVec S850000 32) : FVec Ideal S50000x64 .f32 :=
  Host.scatterAdd (F := Ideal) scatter_S50000x64_S850000x1_S850000x64_1_0_0_1
    (broadcastInDim S50000x64 ![] bcast_S_S50000x64 (constant (F := Ideal) S_ .f32 0x00000000#32))
    (broadcastInDim S850000x1 ![0] bcast_S850000_S850000x1_0 d)
    (extf (F := Ideal) .f32
      (Host.gather gather_S50000x64_S850000x1_S850000x64_1_0_n_n_0_1_164 h
        (broadcastInDim S850000x1 ![0] bcast_S850000_S850000x1_0
          (select (cmpi .slt s (broadcastInDim S850000 ![] bcast_S_S850000 (constantI S_ 32 0#32)))
            (addi s (broadcastInDim S850000 ![] bcast_S_S850000 (constantI S_ 32 50000#32))) s)))
      bitsLt_bf16_f32)

theorem st_v27 : (StableHlo.after (hostOps1 (F := Ideal)) V (Proc.devRef .tc main_v27) : S50000x64.Idx → EReal)
    = aggT (V (Proc.devRef .tc main_v16)) (V (Proc.devRef .tc main_v3)) (V (Proc.devRef .tc main_v6)) := by
  after_results
theorem st_v28 : (StableHlo.after (hostOps1 (F := Ideal)) V (Proc.devRef .tc main_v28) : S1x64.Idx → EReal)
    = shapeCast S1x64 (V (Proc.devRef .tc main_arg3) : S64.Idx → EReal) shapeCasts_S64_S1x64 := by
  after_results
  rfl
theorem st_v40 : (StableHlo.after (hostOps2 (F := Ideal)) V (Proc.devRef .tc main_v40) : S50000x64.Idx → EReal)
    = aggT (V (Proc.devRef .tc main_v29)) (V (Proc.devRef .tc main_v3)) (V (Proc.devRef .tc main_v6)) := by
  after_results
theorem st_v41 : (StableHlo.after (hostOps2 (F := Ideal)) V (Proc.devRef .tc main_v41) : S1x64.Idx → EReal)
    = shapeCast S1x64 (V (Proc.devRef .tc main_arg5) : S64.Idx → EReal) shapeCasts_S64_S1x64 := by
  after_results
  rfl

end Stretches

variable (m : (ℓ : Loc nD τ sig) → Buf (Elt Ideal) ℓ) (c : Dev nD)

/-! ## Buffers a stretch does not write -/

theorem keep1 (r : Ref sig .tc) (h0 : r ∉ hostOps0_W) : W1 m c r = m ((c : Thread nD τ).loc r) :=
  StableHlo.after_of_writes_sub hostOps0 _ hostOps0_writes h0
theorem keep3 (r : Ref sig .tc) (h01 : r ∉ hostOps0_1_W) (h02 : r ∉ hostOps0_2_W) : W3 m c r = W1 m c r :=
  (StableHlo.after_of_writes_sub hostOps0_2 _ hostOps0_2_writes h02).trans (StableHlo.after_of_writes_sub hostOps0_1 _ hostOps0_1_writes h01)
theorem keep4 (r : Ref sig .tc) (n16 : r ≠ main_v16) : W4 m c r = W3 m c r := W4_of_ne m c r n16
theorem keep5 (r : Ref sig .tc) (h1 : r ∉ hostOps1_W) (n16 : r ≠ main_v16) : W5 m c r = W3 m c r :=
  (StableHlo.after_of_writes_sub hostOps1 _ hostOps1_writes h1).trans (W4_of_ne m c r n16)
theorem keep6 (r : Ref sig .tc) (n29 : r ≠ main_v29) : W6 m c r = W5 m c r := W6_of_ne m c r n29
theorem keep7 (r : Ref sig .tc) (h2 : r ∉ hostOps2_W) (n29 : r ≠ main_v29) : W7 m c r = W5 m c r :=
  (StableHlo.after_of_writes_sub hostOps2 _ hostOps2_writes h2).trans (W6_of_ne m c r n29)

/-! ## At the run's contents -/

/-- The edge array as launched. -/
abbrev eiOf : IVec S2x800000 32 := m ((c : Thread nD τ).loc main_arg1)

theorem W1_v3 : (W1 m c main_v3 : IVec S850000 32) = srcVec (eiOf m c) := st_v3 (W0 m c)
theorem W1_v6 : (W1 m c main_v6 : IVec S850000 32) = dstVec (eiOf m c) := st_v6 (W0 m c)

/-- The index vectors are the same at every later boundary. -/
theorem W4_v3 : (W4 m c main_v3 : IVec S850000 32) = srcVec (eiOf m c) :=
  ((keep4 m c main_v3 (by decide)).trans (keep3 m c main_v3 (by decide) (by decide))).trans (W1_v3 m c)
theorem W4_v6 : (W4 m c main_v6 : IVec S850000 32) = dstVec (eiOf m c) :=
  ((keep4 m c main_v6 (by decide)).trans (keep3 m c main_v6 (by decide) (by decide))).trans (W1_v6 m c)
theorem W6_v3 : (W6 m c main_v3 : IVec S850000 32) = srcVec (eiOf m c) :=
  ((keep6 m c main_v3 (by decide)).trans ((keep5 m c main_v3 (by decide) (by decide)).trans (keep3 m c main_v3 (by decide) (by decide)))).trans (W1_v3 m c)
theorem W6_v6 : (W6 m c main_v6 : IVec S850000 32) = dstVec (eiOf m c) :=
  ((keep6 m c main_v6 (by decide)).trans ((keep5 m c main_v6 (by decide) (by decide)).trans (keep3 m c main_v6 (by decide) (by decide)))).trans (W1_v6 m c)

/-- The column of inverse square-root degrees, as composed by the first three stretches. -/
theorem W3_v15 : (W3 m c main_v15 : S50000x1.Idx → EReal)
    = shapeCast S50000x1
        (select (cmpf .ogt (degT (dstVec (eiOf m c))) (broadcastInDim S50000 ![] bcast_S_S50000 (constant (F := Ideal) S_ .f32 0x00000000#32)))
          (Host.rsqrt (F := Ideal) (degT (dstVec (eiOf m c))))
          (broadcastInDim S50000 ![] bcast_S_S50000 (id (constant (F := Ideal) S_ .f32 0x00000000#32))))
        shapeCasts_S50000_S50000x1 := by
  refine (st_v15 (W2 m c)).trans ?_
  refine congrArg (fun g : S50000.Idx → EReal => shapeCast S50000x1 g shapeCasts_S50000_S50000x1) ?_
  refine (st_v14 (W1 m c)).trans ?_
  rw [show (W1 m c (Proc.devRef .tc main_v12) : S50000.Idx → BitVec 1) = _ from st_v12 (W0 m c),
    show (W1 m c (Proc.devRef .tc main_v13) : S50000.Idx → EReal) = _ from st_v13 (W0 m c),
    show (W1 m c (Proc.devRef .tc main_cst_2) : S_.Idx → EReal) = _ from st_cst2 (W0 m c)]

/-- The column the three kernels read, at `(v, 0)`: the inverse square-root degree of `v`. -/
theorem dcol3 (v : Fin 50000) :
    (W3 m c main_v15 : S50000x1.Idx → EReal) (ix2 v (0 : Fin 1)) = Cert.Gcn.dinv (Cert.Gcn.plainCol (dstVec (eiOf m c))) v := by
  rw [W3_v15]
  exact Cert.KernelIdeal.KV.dinvcol_apply (dstVec (eiOf m c)) v
theorem dcol5 (v : Fin 50000) :
    (W5 m c main_v15 : S50000x1.Idx → EReal) (ix2 v (0 : Fin 1)) = Cert.Gcn.dinv (Cert.Gcn.plainCol (dstVec (eiOf m c))) v :=
  (congrFun (keep5 m c main_v15 (by decide) (by decide) : (W5 m c main_v15 : S50000x1.Idx → EReal) = W3 m c main_v15) _).trans (dcol3 m c v)
theorem dcol7 (v : Fin 50000) :
    (W7 m c main_v15 : S50000x1.Idx → EReal) (ix2 v (0 : Fin 1)) = Cert.Gcn.dinv (Cert.Gcn.plainCol (dstVec (eiOf m c))) v :=
  (congrFun (keep7 m c main_v15 (by decide) (by decide) : (W7 m c main_v15 : S50000x1.Idx → EReal) = W5 m c main_v15) _).trans (dcol5 m c v)

/-- The kernels' outputs as arrays of extended reals. -/
abbrev X0f : S50000x64.Idx → EReal := X0 m c
abbrev X1f : S50000x64.Idx → EReal := X1 m c

theorem W5_v27 : (W5 m c main_v27 : S50000x64.Idx → EReal) = aggT (X0 m c) (srcVec (eiOf m c)) (dstVec (eiOf m c)) := by
  refine (st_v27 (W4 m c)).trans ?_
  rw [show (W4 m c (Proc.devRef .tc main_v16) : S50000x64.Idx → EReal) = X0 m c from W4_out m c,
    show (W4 m c (Proc.devRef .tc main_v3) : IVec S850000 32) = _ from W4_v3 m c,
    show (W4 m c (Proc.devRef .tc main_v6) : IVec S850000 32) = _ from W4_v6 m c]
theorem W7_v40 : (W7 m c main_v40 : S50000x64.Idx → EReal) = aggT (X1 m c) (srcVec (eiOf m c)) (dstVec (eiOf m c)) := by
  refine (st_v40 (W6 m c)).trans ?_
  rw [show (W6 m c (Proc.devRef .tc main_v29) : S50000x64.Idx → EReal) = X1 m c from W6_out m c,
    show (W6 m c (Proc.devRef .tc main_v3) : IVec S850000 32) = _ from W6_v3 m c,
    show (W6 m c (Proc.devRef .tc main_v6) : IVec S850000 32) = _ from W6_v6 m c]

/-- The rows the second kernel reads, at `(v, k)`: the first kernel's output rows gathered at the wrapped sources and
    summed over the edges landing on `v`. -/
theorem agg5 (v : Fin 50000) (k : Fin 64) :
    (W5 m c main_v27 : S50000x64.Idx → EReal) (ix2 v k)
      = ∑ e ∈ Cert.Gcn.into (Cert.Gcn.plainCol (dstVec (eiOf m c))) v,
          X0f m c (ix2 (Cert.Gcn.rowOf (Cert.Gcn.wrapCol (srcVec (eiOf m c))) e) k) :=
  (congrFun (W5_v27 m c) (ix2 v k)).trans (Cert.KernelIdeal.KV.agg_apply (X0 m c) _ _ v k)
/-- The rows the third kernel reads, likewise from the second kernel's output. -/
theorem agg7 (v : Fin 50000) (k : Fin 64) :
    (W7 m c main_v40 : S50000x64.Idx → EReal) (ix2 v k)
      = ∑ e ∈ Cert.Gcn.into (Cert.Gcn.plainCol (dstVec (eiOf m c))) v,
          X1f m c (ix2 (Cert.Gcn.rowOf (Cert.Gcn.wrapCol (srcVec (eiOf m c))) e) k) :=
  (congrFun (W7_v40 m c) (ix2 v k)).trans (Cert.KernelIdeal.KV.agg_apply (X1 m c) _ _ v k)

/-- The bias rows. -/
theorem brow5 (q : Fin 64) :
    (W5 m c main_v28 : S1x64.Idx → EReal) (ix2 (0 : Fin 1) q) = (m ((c : Thread nD τ).loc main_arg3) : S64.Idx → EReal) (ix1 q) := by
  rw [show (W5 m c main_v28 : S1x64.Idx → EReal) = _ from st_v28 (W4 m c),
    show (W4 m c (Proc.devRef .tc main_arg3) : S64.Idx → EReal) = m ((c : Thread nD τ).loc main_arg3) from
      ((keep4 m c main_arg3 (by decide)).trans (keep3 m c main_arg3 (by decide) (by decide))).trans (keep1 m c main_arg3 (by decide))]
  exact Cert.KernelIdeal.KV.row_cast_apply _ q
theorem brow7 (q : Fin 64) :
    (W7 m c main_v41 : S1x64.Idx → EReal) (ix2 (0 : Fin 1) q) = (m ((c : Thread nD τ).loc main_arg5) : S64.Idx → EReal) (ix1 q) := by
  rw [show (W7 m c main_v41 : S1x64.Idx → EReal) = _ from st_v41 (W6 m c),
    show (W6 m c (Proc.devRef .tc main_arg5) : S64.Idx → EReal) = m ((c : Thread nD τ).loc main_arg5) from
      ((keep6 m c main_arg5 (by decide)).trans ((keep5 m c main_arg5 (by decide) (by decide)).trans (keep3 m c main_arg5 (by decide) (by decide)))).trans (keep1 m c main_arg5 (by decide))]
  exact Cert.KernelIdeal.KV.row_cast_apply _ q

/-- The arguments the kernels read as launched. -/
theorem W3_arg0 : W3 m c main_arg0 = m ((c : Thread nD τ).loc main_arg0) :=
  (keep3 m c main_arg0 (by decide) (by decide)).trans (keep1 m c main_arg0 (by decide))
theorem W3_arg2 : W3 m c main_arg2 = m ((c : Thread nD τ).loc main_arg2) :=
  (keep3 m c main_arg2 (by decide) (by decide)).trans (keep1 m c main_arg2 (by decide))
theorem W5_arg4 : W5 m c main_arg4 = m ((c : Thread nD τ).loc main_arg4) :=
  (keep5 m c main_arg4 (by decide) (by decide)).trans ((keep3 m c main_arg4 (by decide) (by decide)).trans (keep1 m c main_arg4 (by decide)))

end Cert.KernelIdeal.Hand

end
-- ==== Proof.LibDense.lean ====
/-
  Dense layers on the extended reals, index by index.

  A matrix product with one contracted axis, however the contraction's index type is presented, is at entry (p, q)
  the sum over k of x(p, k) · w(k, q).  This file fixes that reading for the plain two-dimensional product
  [M, K] × [K, N] → [M, N] (left axis 1 against right axis 0), both for the matrix unit's product into a zero
  accumulator and for the host's general dot product, and adds the bias row and the activation:
    dense x w b (p, q)     = (∑ k, x(p, k) · w(k, q)) + b(q)
  No finiteness is needed anywhere: only the definitions of the operations and a re-indexing of the sum.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.Lib.Dense

open Idealize.ShloMosaic Idealize.ShloMosaic.ValueIdx
open scoped BigOperators

/-- Row `p` of `x` against column `q` of `w`. -/
def rowDot {M K N : ℕ} (x : (⟨2, ![M, K]⟩ : Shape).Idx → EReal) (w : (⟨2, ![K, N]⟩ : Shape).Idx → EReal)
    (p : Fin M) (q : Fin N) : EReal :=
  ∑ k : Fin K, x (ix2 p k) * w (ix2 k q)

/-- A contraction over one axis is the sum over that axis's coordinate. -/
theorem contr_sum {sl sr so : Shape} (D : DotDims sl sr so) (K : ℕ) (hr : D.contr.rank = 1)
    (hs : D.contr.size ⟨0, by omega⟩ = K) (f : sl.Idx → EReal) (g : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, f (D.lhsIdx j k) * g (D.rhsIdx j k) = ∑ k : Fin K, f (L k) * g (R k) := by
  rw [← Equiv.sum_comp (contrEquiv1 D K hr hs).symm]
  exact Finset.sum_congr rfl fun k _ => by rw [hL k, hR k]

section Plain

variable {M K N : ℕ} (D : DotDims ⟨2, ![M, K]⟩ ⟨2, ![K, N]⟩ ⟨2, ![M, N]⟩)
  (hlc : D.lhsContracting = [1]) (hrc : D.rhsContracting = [0])
  (hln : D.lhsNonContracting = [0]) (hrn : D.rhsNonContracting = [1])
  (hlb : D.lhsBatch = []) (hrb : D.rhsBatch = [])

include hlc in
theorem plain_rank : D.contr.rank = 1 := by rw [D.rank_contr, hlc]; rfl

include hlc in
theorem plain_size : D.contr.size ⟨0, by rw [plain_rank D hlc]; exact Nat.one_pos⟩ = K := by
  have := D.size_contr 0 (by rw [hlc]; exact Nat.one_pos)
  rw [this]
  simp [hlc]

include hln hlb in
/-- The left operand's free coordinate is the result's row. -/
theorem plain_lhs0 (j : (⟨2, ![M, N]⟩ : Shape).Idx) (k : D.contr.Idx) : (D.lhsIdx j k 0).val = (j 0).val := by
  have hb : (0 : Fin 2) ∉ D.lhsBatch := by rw [hlb]; simp
  have hn : (0 : Fin 2) ∈ D.lhsNonContracting := by rw [hln]; simp
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln])

include hrn hrb hln hlb in
/-- The right operand's free coordinate is the result's column. -/
theorem plain_rhs1 (j : (⟨2, ![M, N]⟩ : Shape).Idx) (k : D.contr.Idx) : (D.rhsIdx j k 1).val = (j 1).val := by
  have hb : (1 : Fin 2) ∉ D.rhsBatch := by rw [hrb]; simp
  have hn : (1 : Fin 2) ∈ D.rhsNonContracting := by rw [hrn]; simp
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q → (j ⟨p, hp⟩).val = (j ⟨q, hq⟩).val :=
    fun p q hp hq h => by subst h; rfl
  exact key _ _ _ _ (by simp [hlb, hln, hrn])

include hlc hrc hln hrn hlb hrb in
/-- The contraction of a plain product at entry `(p, q)` is the row of `x` against the column of `w`. -/
theorem plain_sum (f : (⟨2, ![M, K]⟩ : Shape).Idx → EReal) (g : (⟨2, ![K, N]⟩ : Shape).Idx → EReal) (p : Fin M) (q : Fin N) :
    ∑ k : D.contr.Idx, f (D.lhsIdx (ix2 p q) k) * g (D.rhsIdx (ix2 p q) k) = rowDot f g p q := by
  refine contr_sum D K (plain_rank D hlc) (plain_size D hlc) f g (ix2 p q) (fun k => ix2 p k) (fun k => ix2 k q) (fun k => ?_) (fun k => ?_)
  · funext a; apply Fin.ext
    match a with
    | ⟨0, _⟩ => exact plain_lhs0 D hln hlb (ix2 p q) _
    | ⟨1, _⟩ => exact (D.lhsIdx_val_of_single hlc (ix2 p q) _).trans (contrEquiv1_symm_val D K (plain_rank D hlc) (plain_size D hlc) k)
  · funext a; apply Fin.ext
    match a with
    | ⟨0, _⟩ => exact (D.rhsIdx_val_of_single hrc (ix2 p q) _).trans (contrEquiv1_symm_val D K (plain_rank D hlc) (plain_size D hlc) k)
    | ⟨1, _⟩ => exact plain_rhs1 D hln hrn hlb hrb (ix2 p q) _

include hlc hrc hln hrn hlb hrb in
/-- The matrix unit's product into a zero accumulator, at entry `(p, q)`. -/
theorem matmul_zero_at {φ₁ φ₂ : FTy} (x : FVec Ideal ⟨2, ![M, K]⟩ φ₁) (w : FVec Ideal ⟨2, ![K, N]⟩ φ₂) (p : Fin M) (q : Fin N) :
    matmul D none x w (constant ⟨2, ![M, N]⟩ .f32 0x00000000#32) (ix2 p q) = rowDot x w p q :=
  (Ideal.matmul_constant_zero_apply D none x w (ix2 p q)).trans (plain_sum D hlc hrc hln hrn hlb hrb x w p q)

include hlc hrc hln hrn hlb hrb in
/-- The host's general dot product, at entry `(p, q)`. -/
theorem dotGeneral_at {φ₁ φ₂ : FTy} (x : FVec Ideal ⟨2, ![M, K]⟩ φ₁) (w : FVec Ideal ⟨2, ![K, N]⟩ φ₂) (p : Fin M) (q : Fin N) :
    Host.dotGeneral D none x w (ix2 p q) = rowDot x w p q :=
  (Ideal.dotGeneral_apply D none .single x w (ix2 p q)).trans (plain_sum D hlc hrc hln hrn hlb hrb x w p q)

end Plain

/-- A dense layer as one function of whole arrays: entry `(p, q)` is `act` of row `p` of `x` against column `q` of
    `w` plus the bias row's entry `q`. -/
def dense {M K N : ℕ} (act : EReal → EReal) (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => act (rowDot x w (i 0) (i 1) + b (ix2 (0 : Fin 1) (i 1)))

theorem dense_ix2 {M K N : ℕ} (act : EReal → EReal) (x : (⟨2, ![M, K]⟩ : Shape).Idx → EReal) (w : (⟨2, ![K, N]⟩ : Shape).Idx → EReal)
    (b : (⟨2, ![1, N]⟩ : Shape).Idx → EReal) (p : Fin M) (q : Fin N) :
    dense act x w b (ix2 p q) = act (rowDot x w p q + b (ix2 (0 : Fin 1) q)) := rfl

/-- The combine step as one function of whole arrays: entry `(p, q)` is
    `tanh((a(p, q) + h(p, q) · d(p, 0)) + b(0, q))`. -/
def combine {M N : ℕ} (a h : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => Ideal.tanh ((a i + h i * d (ix2 (i 0) (0 : Fin 1))) + b (ix2 (0 : Fin 1) (i 1)))

theorem combine_ix2 {M N : ℕ} (a h : (⟨2, ![M, N]⟩ : Shape).Idx → EReal) (d : (⟨2, ![M, 1]⟩ : Shape).Idx → EReal)
    (b : (⟨2, ![1, N]⟩ : Shape).Idx → EReal) (p : Fin M) (q : Fin N) :
    combine a h d b (ix2 p q)
      = Ideal.tanh ((a (ix2 p q) + h (ix2 p q) * d (ix2 p (0 : Fin 1))) + b (ix2 (0 : Fin 1) q)) := rfl

end Cert.Lib.Dense

end
-- ==== Proof.KvPay.lean ====
/-
  The three kernel bodies' arithmetic on the extended reals, entry by entry.

  Each body works on a block of 2000 rows.  On the extended reals the narrowing and widening conversions are the
  identity, a matrix product into a zero accumulator is at (p, q) the sum over the contracted coordinate of the products,
  a one-column block spread over 64 columns reads its row, and a one-row block spread over 2000 rows reads its column:
    body 0:  (Σ c, x(p, c) · w(c, q)) · d(p, 0)
    body 1:  (Σ c, max(a(p, c) · d₁(p, 0) + b(0, c), 0) · w(c, q)) · d₂(p, 0)
    body 2:  a(p, q) · d(p, 0) + b(0, q)
-/
import proofs.«121536_j14388140441820_2_alg».proof.Proof.Gen.KernelIdeal.Skeleton
import proofs.«121536_j14388140441820_2_alg».proof.Proof.LibDense
import proofs.«121536_j14388140441820_2_alg».proof.Proof.LibKeepdims
import Idealize.ShloMosaic.Lib.ValueLayout

noncomputable section

open scoped BigOperators
open Idealize.ShloMosaic Idealize.ShloMosaic.ValueIdx
open Cert.KernelIdeal Cert.KernelIdeal.Gen

namespace Cert.KernelIdeal.KV

/-- A one-column block of 2000 rows, cast to its own shape and spread over 64 columns, reads its row. -/
theorem spread_col_apply (d : FVec Ideal S2000x1 .f32) (p : Fin 2000) (q : Fin 64) :
    broadcastTo S2000x64 (shapeCast S2000x1 d shapeCasts_S2000x1_S2000x1) broadcasts_S2000x1_S2000x64 (ix2 p q)
      = d (ix2 p (0 : Fin 1)) := by
  rw [Cert.Lib.Keepdims.broadcastTo_a1_ab_apply, shapeCast_self]

/-- A one-row block of 64 columns, cast to its own shape and spread over 2000 rows, reads its column. -/
theorem spread_row_apply (b : FVec Ideal S1x64 .f32) (p : Fin 2000) (q : Fin 64) :
    broadcastTo S2000x64 (shapeCast S1x64 b shapeCasts_S1x64_S1x64) broadcasts_S1x64_S2000x64 (ix2 p q)
      = b (ix2 (0 : Fin 1) q) := by
  rw [broadcastTo_1b_ab_apply, shapeCast_self]

/-- Body 0 at `(p, q)`: row `p` of `x` against column `q` of `w`, times the row's scale. -/
theorem pay0_apply (x : Vec Ideal S2000x128 .f32) (w : Vec Ideal S128x64 .f32) (d : Vec Ideal S2000x1 .f32)
    (p : Fin 2000) (q : Fin 64) :
    k0_pay1 (F := Ideal) x w d (ix2 p q)
      = (∑ c : Fin 128, x (ix2 p c) * w (ix2 c q)) * d (ix2 p (0 : Fin 1)) := by
  unfold k0_pay1
  show (matmul (F := Ideal) dot_S2000x128_S128x64_S2000x64_1_0_0_1_n_n none
        (truncf (F := Ideal) .bf16 (x : FVec Ideal S2000x128 .f32) bitsLt_bf16_f32)
        (truncf (F := Ideal) .bf16 (w : FVec Ideal S128x64 .f32) bitsLt_bf16_f32)
        (constant S2000x64 .f32 0x00000000#32) (ix2 p q) : EReal)
      * broadcastTo S2000x64 (shapeCast S2000x1 d shapeCasts_S2000x1_S2000x1) broadcasts_S2000x1_S2000x64 (ix2 p q) = _
  rw [Cert.Lib.Dense.matmul_zero_at _ rfl rfl rfl rfl rfl rfl, spread_col_apply]
  rfl

/-- Body 2 at `(p, q)`: the entry times the row's scale, plus the bias. -/
theorem pay2_apply (a : Vec Ideal S2000x64 .f32) (d : Vec Ideal S2000x1 .f32) (b : Vec Ideal S1x64 .f32)
    (p : Fin 2000) (q : Fin 64) :
    k2_pay1 (F := Ideal) a d b (ix2 p q) = a (ix2 p q) * d (ix2 p (0 : Fin 1)) + b (ix2 (0 : Fin 1) q) := by
  unfold k2_pay1
  show (shapeCast S2000x64 (a : FVec Ideal S2000x64 .f32) shapeCasts_S2000x64_S2000x64 (ix2 p q) : EReal)
      * broadcastTo S2000x64 (shapeCast S2000x1 d shapeCasts_S2000x1_S2000x1) broadcasts_S2000x1_S2000x64 (ix2 p q)
      + broadcastTo S2000x64 (shapeCast S1x64 b shapeCasts_S1x64_S1x64) broadcasts_S1x64_S2000x64 (ix2 p q) = _
  rw [spread_col_apply, spread_row_apply, shapeCast_self]

/-- The rectified, scaled and biased block that body 1 multiplies, at `(p, c)`. -/
theorem pay1_act_apply (a : Vec Ideal S2000x64 .f32) (d1 : Vec Ideal S2000x1 .f32) (b : Vec Ideal S1x64 .f32)
    (p : Fin 2000) (c : Fin 64) :
    (maximumf (F := Ideal)
        (addf (mulf (shapeCast S2000x64 (a : FVec Ideal S2000x64 .f32) shapeCasts_S2000x64_S2000x64)
            (broadcastTo S2000x64 (shapeCast S2000x1 d1 shapeCasts_S2000x1_S2000x1) broadcasts_S2000x1_S2000x64))
          (broadcastTo S2000x64 (shapeCast S1x64 b shapeCasts_S1x64_S1x64) broadcasts_S1x64_S2000x64))
        (broadcast S2000x64 (Scalar.ofBits (F := Ideal) .f32 0x00000000#32)) : FVec Ideal S2000x64 .f32) (ix2 p c)
      = max (a (ix2 p c) * d1 (ix2 p (0 : Fin 1)) + b (ix2 (0 : Fin 1) c)) 0 := by
  rw [maximumf_apply, addf_apply, mulf_apply, spread_col_apply, spread_row_apply, shapeCast_self, broadcast_apply]
  show max _ (Ideal.ofBits .f32 0x00000000#32) = _
  rw [Ideal.ofBits_zero_f32]

/-- Body 1 at `(p, q)`: the rectified row against column `q` of `w`, times the row's second scale. -/
theorem pay1_apply (a : Vec Ideal S2000x64 .f32) (d1 : Vec Ideal S2000x1 .f32) (b : Vec Ideal S1x64 .f32)
    (w : Vec Ideal S64x64 .f32) (d2 : Vec Ideal S2000x1 .f32) (p : Fin 2000) (q : Fin 64) :
    k1_pay1 (F := Ideal) a d1 b w d2 (ix2 p q)
      = (∑ c : Fin 64, max (a (ix2 p c) * d1 (ix2 p (0 : Fin 1)) + b (ix2 (0 : Fin 1) c)) 0 * w (ix2 c q))
          * d2 (ix2 p (0 : Fin 1)) := by
  unfold k1_pay1
  show (matmul (F := Ideal) dot_S2000x64_S64x64_S2000x64_1_0_0_1_n_n none
        (truncf (F := Ideal) .bf16 (maximumf (F := Ideal)
          (addf (mulf (shapeCast S2000x64 (a : FVec Ideal S2000x64 .f32) shapeCasts_S2000x64_S2000x64)
              (broadcastTo S2000x64 (shapeCast S2000x1 d1 shapeCasts_S2000x1_S2000x1) broadcasts_S2000x1_S2000x64))
            (broadcastTo S2000x64 (shapeCast S1x64 b shapeCasts_S1x64_S1x64) broadcasts_S1x64_S2000x64))
          (broadcast S2000x64 (Scalar.ofBits (F := Ideal) .f32 0x00000000#32))) bitsLt_bf16_f32)
        (truncf (F := Ideal) .bf16 (w : FVec Ideal S64x64 .f32) bitsLt_bf16_f32) (constant S2000x64 .f32 0x00000000#32) (ix2 p q) : EReal)
      * broadcastTo S2000x64 (shapeCast S2000x1 d2 shapeCasts_S2000x1_S2000x1) broadcasts_S2000x1_S2000x64 (ix2 p q) = _
  rw [Cert.Lib.Dense.matmul_zero_at _ rfl rfl rfl rfl rfl rfl, spread_col_apply]
  refine congrArg (· * d2 (ix2 p (0 : Fin 1))) ?_
  refine Finset.sum_congr rfl fun c _ => ?_
  refine congrArg (· * w (ix2 c q)) ?_
  exact pay1_act_apply a d1 b p c

end Cert.KernelIdeal.KV

end
-- ==== Proof.KiFinal0.lean ====
/-
  The first kernel's output array after its 25 write-backs, as one function of the contents its three input arrays have when
  the kernel is entered: entry (v, k) is row v of the features against column k of the weights, times row v's scale.

  Point t of the grid works on rows [2000·t, 2000·t + 2000): the features and the scale column are read there, the
  weights whole; what it writes back is those rows of the one whole-array function `arr0`; row v lies in the block of
  point v / 2000, so the 25 blocks fill the array.
-/
import proofs.«121536_j14388140441820_2_alg».proof.Proof.KiBody0
import proofs.«121536_j14388140441820_2_alg».proof.Proof.KvPay
import Idealize.ShloMosaic.Lib.Pipeline.Value
import Idealize.ShloMosaic.Lib.ValueIdx

noncomputable section

namespace Cert.KernelIdeal.Hand

open scoped BigOperators
open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block rectangle. -/
theorem zero_offsets0 : (![0, 0] : Fin 2 → Nat) = fun _ => 0 := funext fun a => by fin_cases a <;> rfl

/-- What the output array of the first kernel ends holding: row `v` of the features against column `k` of the weights,
    times row `v`'s scale. -/
def arr0 (x : S50000x128.Idx → EReal) (w : S128x64.Idx → EReal) (d : S50000x1.Idx → EReal) : S50000x64.Idx → EReal :=
  fun i => (∑ a : Fin 128, x (ix2 (i 0 : Fin 50000) a) * w (ix2 a (i 1 : Fin 64))) * d (ix2 (i 0 : Fin 50000) (0 : Fin 1))

/-- The block indices over the grid: the row-blocked windows are at block (t, 0), the weights at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The body's payload at an entry of the block. -/
theorem pay0_at (x0 : Vec Ideal S2000x128 .f32) (x1 : Vec Ideal S128x64 .f32) (x2 : Vec Ideal S2000x1 .f32) (y : S2000x64.Idx) :
    k0_pay1 (F := Ideal) x0 x1 x2 y
      = (∑ a : Fin 128, x0 (ix2 (y 0 : Fin 2000) a) * x1 (ix2 a (y 1 : Fin 64))) * x2 (ix2 (y 0 : Fin 2000) (0 : Fin 1)) := by
  obtain ⟨p, q, rfl⟩ : ∃ (p : Fin 2000) (q : Fin 64), y = ix2 p q := ⟨y 0, y 1, eq_ix2 y⟩
  exact KV.pay0_apply x0 x1 x2 p q

/-- The three input blocks at point `t` read their arrays: the features and the scales at the rows of the block, the
    weights whole. -/
theorem read0_0 (c : Dev nD) (t : Fin cfg0.N) (y : S2000x128.Idx) (i : S50000x128.Idx)
    (h0 : (i 0).val = t.val * 2000 + (y 0).val) (h1 : (i 1).val = (y 1).val) :
    iblk0 V c 0 t y = (V c main_arg0 : S50000x128.Idx → EReal) i := by
  obtain ⟨e0, e1, -⟩ := idx_facts0 t
  show (V c main_arg0 : S50000x128.Idx → EReal) (((cfg0.win 0).blk t).view.emb y) = _
  refine congrArg _ (funext fun a => Fin.ext ?_)
  match a with
  | ⟨0, _⟩ => show win0_0.index t (0 : Fin 2) * 2000 + 1 * (y 0).val = (i 0).val; rw [e0, h0]; omega
  | ⟨1, _⟩ => show win0_0.index t (1 : Fin 2) * 128 + 1 * (y 1).val = (i 1).val; rw [e1, h1]; omega

theorem read0_1 (c : Dev nD) (t : Fin cfg0.N) (y : S128x64.Idx) (i : S128x64.Idx)
    (h0 : (i 0).val = (y 0).val) (h1 : (i 1).val = (y 1).val) :
    iblk0 V c 1 t y = (V c main_arg2 : S128x64.Idx → EReal) i := by
  obtain ⟨-, -, e0, e1, -⟩ := idx_facts0 t
  show (V c main_arg2 : S128x64.Idx → EReal) (((cfg0.win 1).blk t).view.emb y) = _
  refine congrArg _ (funext fun a => Fin.ext ?_)
  match a with
  | ⟨0, _⟩ => show win0_1.index t (0 : Fin 2) * 128 + 1 * (y 0).val = (i 0).val; rw [e0, h0]; omega
  | ⟨1, _⟩ => show win0_1.index t (1 : Fin 2) * 64 + 1 * (y 1).val = (i 1).val; rw [e1, h1]; omega

theorem read0_2 (c : Dev nD) (t : Fin cfg0.N) (y : S2000x1.Idx) (i : S50000x1.Idx)
    (h0 : (i 0).val = t.val * 2000 + (y 0).val) (h1 : (i 1).val = (y 1).val) :
    iblk0 V c 2 t y = (V c main_v15 : S50000x1.Idx → EReal) i := by
  obtain ⟨-, -, -, -, e0, e1, -⟩ := idx_facts0 t
  show (V c main_v15 : S50000x1.Idx → EReal) (((cfg0.win 2).blk t).view.emb y) = _
  refine congrArg _ (funext fun a => Fin.ext ?_)
  match a with
  | ⟨0, _⟩ => show win0_2.index t (0 : Fin 2) * 2000 + 1 * (y 0).val = (i 0).val; rw [e0, h0]; omega
  | ⟨1, _⟩ => show win0_2.index t (1 : Fin 2) * 1 + 1 * (y 1).val = (i 1).val; rw [e1, h1]; omega

/-- What point `t` writes back is block `t` of `arr0` of the entry contents. -/
theorem flushed0_eq (c : Dev nD) (t : Fin cfg0.N) :
    (dat0 (F := Ideal) V c).flushed 3 t
      = ((cfg0.win 3).blk t).view.read (Elt Ideal) (arr0 (V c main_arg0) (V c main_arg2) (V c main_v15)) := by
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S128x64) zero_offsets0,
    View.ld_unit_zero (S := S2000x1) zero_offsets0]
  obtain ⟨-, -, -, -, -, -, e0, e1⟩ := idx_facts0 t
  funext j
  show k0_pay1 (F := Ideal) (iblk0 V c 0 t) (iblk0 V c 1 t) (iblk0 V c 2 t) ((cfg0.win 3).xinj (grid0.coords t) j)
      = arr0 (V c main_arg0) (V c main_arg2) (V c main_v15) (((cfg0.win 3).blk t).view.emb j)
  refine (pay0_at _ _ _ _).trans ?_
  unfold arr0
  have hj0 : (j 0).val < 2000 := (j 0).isLt
  have hj1 : (j 1).val < 64 := (j 1).isLt
  have r0 : ((((cfg0.win 3).blk t).view.emb j) 0).val = t.val * 2000 + (j 0).val := by
    show win0_3.index t (0 : Fin 2) * 2000 + 1 * (j 0).val = _; rw [e0]; omega
  have r1 : ((((cfg0.win 3).blk t).view.emb j) 1).val = (j 1).val := by
    show win0_3.index t (1 : Fin 2) * 64 + 1 * (j 1).val = _; rw [e1]; omega
  exact congrArg₂ (· * ·)
    (Finset.sum_congr rfl fun a _ => congrArg₂ (· * ·) (read0_0 V c t _ _ r0 rfl) (read0_1 V c t _ _ rfl r1))
    (read0_2 V c t _ _ r0 rfl)

/-- An index of the array is in point `t`'s block iff each coordinate is in the block's range on its axis. -/
theorem mem_blk0 (t : Fin cfg0.N) (i : S50000x64.Idx) :
    i ∈ ((cfg0.win 3).blk t).view.set ↔ ∀ a : Fin 2, win0_3.index t a * S2000x64.size a ≤ (i a).val ∧ (i a).val < win0_3.index t a * S2000x64.size a + S2000x64.size a := by
  show i ∈ ((View.whole main_v16).slice (win0_3.rect t)).set ↔ _
  rw [View.set_slice_whole, Rect.mem_set_unit]
  exact Iff.rfl

/-- Row `v` of the array lies in the block of point `v / 2000`: the 25 blocks fill the array. -/
theorem cover0 (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 25 := N_0
  refine ⟨⟨(i 0).val / 2000, by rw [hN]; omega⟩, flush0_3 _, ?_⟩
  rw [mem_blk0]
  obtain ⟨-, -, -, -, -, -, e0, e1⟩ := idx_facts0 ⟨(i 0).val / 2000, by rw [hN]; omega⟩
  intro a
  match a with
  | ⟨0, _⟩ =>
    show win0_3.index _ (0 : Fin 2) * 2000 ≤ (i 0).val ∧ (i 0).val < win0_3.index _ (0 : Fin 2) * 2000 + 2000
    rw [e0]; show (i 0).val / 2000 * 2000 ≤ (i 0).val ∧ (i 0).val < (i 0).val / 2000 * 2000 + 2000; omega
  | ⟨1, _⟩ =>
    show win0_3.index _ (1 : Fin 2) * 64 ≤ (i 1).val ∧ (i 1).val < win0_3.index _ (1 : Fin 2) * 64 + 64
    rw [e1]; omega

/-- The output array after the 25 write-backs is `arr0` of the entry contents. -/
theorem final0_arr (c : Dev nD) :
    (dat0 (F := Ideal) V c).arrAt 3 cfg0.N = arr0 (V c main_arg0) (V c main_arg2) (V c main_v15) :=
  (dat0 (F := Ideal) V c).arrAt_eq_of_cover 3 (arr0 (V c main_arg0) (V c main_arg2) (V c main_v15))
    (fun t _ => flushed0_eq V c t) cover0

/-- `arr0` at an entry. -/
theorem arr0_apply (x : S50000x128.Idx → EReal) (w : S128x64.Idx → EReal) (d : S50000x1.Idx → EReal) (v : Fin 50000) (k : Fin 64) :
    arr0 x w d (ix2 v k) = (∑ a : Fin 128, x (ix2 v a) * w (ix2 a k)) * d (ix2 v (0 : Fin 1)) := rfl

/-- Entry by entry: row `v` of the features against column `k` of the weights, times row `v`'s scale. -/
theorem final0 (c : Dev nD) (x : S50000x128.Idx → EReal) (w : S128x64.Idx → EReal) (d : S50000x1.Idx → EReal)
    (hx : V c main_arg0 = x) (hw : V c main_arg2 = w) (hd : V c main_v15 = d) (v : Fin 50000) (k : Fin 64) :
    ((dat0 (F := Ideal) V c).arrAt 3 cfg0.N : S50000x64.Idx → EReal) (ix2 v k)
      = (∑ a : Fin 128, x (ix2 v a) * w (ix2 a k)) * d (ix2 v (0 : Fin 1)) := by
  subst hx hw hd
  rw [final0_arr]
  rfl

end Cert.KernelIdeal.Hand

end
-- ==== Proof.KiFinal1.lean ====
/-
  The second kernel's output array after its 25 write-backs, as one function of the contents its input arrays have when the
  kernel is entered: entry (v, k) is row v of the aggregated features, scaled by row v's scale, biased and rectified, against
  column k of the weights, times row v's scale again.

  Point t of the grid works on rows [2000·t, 2000·t + 2000): the aggregated features and the scale column (handed to the
  kernel twice) are read there, the bias row and the weights whole; what it writes back is those rows of the one whole-array
  function `arr1`; row v lies in the block of point v / 2000, so the 25 blocks fill the array.
-/
import proofs.«121536_j14388140441820_2_alg».proof.Proof.KiBody1
import proofs.«121536_j14388140441820_2_alg».proof.Proof.KvPay
import Idealize.ShloMosaic.Lib.Pipeline.Value
import Idealize.ShloMosaic.Lib.ValueIdx

noncomputable section

namespace Cert.KernelIdeal.Hand

open scoped BigOperators
open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block rectangle. -/
theorem zero_offsets1 : (![0, 0] : Fin 2 → Nat) = fun _ => 0 := funext fun a => by fin_cases a <;> rfl

/-- What the output array of the second kernel ends holding: row `v` of the aggregated features, scaled by row `v`'s
    first scale, biased and rectified, against column `k` of the weights, times row `v`'s second scale. -/
def arr1 (a : S50000x64.Idx → EReal) (d1 : S50000x1.Idx → EReal) (b : S1x64.Idx → EReal) (w : S64x64.Idx → EReal)
    (d2 : S50000x1.Idx → EReal) : S50000x64.Idx → EReal :=
  fun i => (∑ s : Fin 64, max (a (ix2 (i 0 : Fin 50000) s) * d1 (ix2 (i 0 : Fin 50000) (0 : Fin 1)) + b (ix2 (0 : Fin 1) s)) 0
      * w (ix2 s (i 1 : Fin 64))) * d2 (ix2 (i 0 : Fin 50000) (0 : Fin 1))

/-- The block indices over the grid: the row-blocked windows are at block (t, 0), the bias and the weights at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The body's payload at an entry of the block. -/
theorem pay1_at (x0 : Vec Ideal S2000x64 .f32) (x1 : Vec Ideal S2000x1 .f32) (x2 : Vec Ideal S1x64 .f32)
    (x3 : Vec Ideal S64x64 .f32) (x4 : Vec Ideal S2000x1 .f32) (y : S2000x64.Idx) :
    k1_pay1 (F := Ideal) x0 x1 x2 x3 x4 y
      = (∑ s : Fin 64, max (x0 (ix2 (y 0 : Fin 2000) s) * x1 (ix2 (y 0 : Fin 2000) (0 : Fin 1)) + x2 (ix2 (0 : Fin 1) s)) 0
          * x3 (ix2 s (y 1 : Fin 64))) * x4 (ix2 (y 0 : Fin 2000) (0 : Fin 1)) := by
  obtain ⟨p, q, rfl⟩ : ∃ (p : Fin 2000) (q : Fin 64), y = ix2 p q := ⟨y 0, y 1, eq_ix2 y⟩
  exact KV.pay1_apply x0 x1 x2 x3 x4 p q

/-- The five input blocks at point `t` read their arrays: the aggregated features and the two scale columns at the rows of
    the block, the bias row and the weights whole. -/
theorem read1_0 (c : Dev nD) (t : Fin cfg1.N) (y : S2000x64.Idx) (i : S50000x64.Idx)
    (h0 : (i 0).val = t.val * 2000 + (y 0).val) (h1 : (i 1).val = (y 1).val) :
    iblk1 V c 0 t y = (V c main_v27 : S50000x64.Idx → EReal) i := by
  obtain ⟨e0, e1, -⟩ := idx_facts1 t
  show (V c main_v27 : S50000x64.Idx → EReal) (((cfg1.win 0).blk t).view.emb y) = _
  refine congrArg _ (funext fun a => Fin.ext ?_)
  match a with
  | ⟨0, _⟩ => show win1_0.index t (0 : Fin 2) * 2000 + 1 * (y 0).val = (i 0).val; rw [e0, h0]; omega
  | ⟨1, _⟩ => show win1_0.index t (1 : Fin 2) * 64 + 1 * (y 1).val = (i 1).val; rw [e1, h1]; omega

theorem read1_1 (c : Dev nD) (t : Fin cfg1.N) (y : S2000x1.Idx) (i : S50000x1.Idx)
    (h0 : (i 0).val = t.val * 2000 + (y 0).val) (h1 : (i 1).val = (y 1).val) :
    iblk1 V c 1 t y = (V c main_v15 : S50000x1.Idx → EReal) i := by
  obtain ⟨-, -, e0, e1, -⟩ := idx_facts1 t
  show (V c main_v15 : S50000x1.Idx → EReal) (((cfg1.win 1).blk t).view.emb y) = _
  refine congrArg _ (funext fun a => Fin.ext ?_)
  match a with
  | ⟨0, _⟩ => show win1_1.index t (0 : Fin 2) * 2000 + 1 * (y 0).val = (i 0).val; rw [e0, h0]; omega
  | ⟨1, _⟩ => show win1_1.index t (1 : Fin 2) * 1 + 1 * (y 1).val = (i 1).val; rw [e1, h1]; omega

theorem read1_2 (c : Dev nD) (t : Fin cfg1.N) (y : S1x64.Idx) (i : S1x64.Idx)
    (h0 : (i 0).val = (y 0).val) (h1 : (i 1).val = (y 1).val) :
    iblk1 V c 2 t y = (V c main_v28 : S1x64.Idx → EReal) i := by
  obtain ⟨-, -, -, -, e0, e1, -⟩ := idx_facts1 t
  show (V c main_v28 : S1x64.Idx → EReal) (((cfg1.win 2).blk t).view.emb y) = _
  refine congrArg _ (funext fun a => Fin.ext ?_)
  match a with
  | ⟨0, _⟩ => show win1_2.index t (0 : Fin 2) * 1 + 1 * (y 0).val = (i 0).val; rw [e0, h0]; omega
  | ⟨1, _⟩ => show win1_2.index t (1 : Fin 2) * 64 + 1 * (y 1).val = (i 1).val; rw [e1, h1]; omega

theorem read1_3 (c : Dev nD) (t : Fin cfg1.N) (y : S64x64.Idx) (i : S64x64.Idx)
    (h0 : (i 0).val = (y 0).val) (h1 : (i 1).val = (y 1).val) :
    iblk1 V c 3 t y = (V c main_arg4 : S64x64.Idx → EReal) i := by
  obtain ⟨-, -, -, -, -, -, e0, e1, -⟩ := idx_facts1 t
  show (V c main_arg4 : S64x64.Idx → EReal) (((cfg1.win 3).blk t).view.emb y) = _
  refine congrArg _ (funext fun a => Fin.ext ?_)
  match a with
  | ⟨0, _⟩ => show win1_3.index t (0 : Fin 2) * 64 + 1 * (y 0).val = (i 0).val; rw [e0, h0]; omega
  | ⟨1, _⟩ => show win1_3.index t (1 : Fin 2) * 64 + 1 * (y 1).val = (i 1).val; rw [e1, h1]; omega

theorem read1_4 (c : Dev nD) (t : Fin cfg1.N) (y : S2000x1.Idx) (i : S50000x1.Idx)
    (h0 : (i 0).val = t.val * 2000 + (y 0).val) (h1 : (i 1).val = (y 1).val) :
    iblk1 V c 4 t y = (V c main_v15 : S50000x1.Idx → EReal) i := by
  obtain ⟨-, -, -, -, -, -, -, -, e0, e1, -⟩ := idx_facts1 t
  show (V c main_v15 : S50000x1.Idx → EReal) (((cfg1.win 4).blk t).view.emb y) = _
  refine congrArg _ (funext fun a => Fin.ext ?_)
  match a with
  | ⟨0, _⟩ => show win1_4.index t (0 : Fin 2) * 2000 + 1 * (y 0).val = (i 0).val; rw [e0, h0]; omega
  | ⟨1, _⟩ => show win1_4.index t (1 : Fin 2) * 1 + 1 * (y 1).val = (i 1).val; rw [e1, h1]; omega

/-- What point `t` writes back is block `t` of `arr1` of the entry contents. -/
theorem flushed1_eq (c : Dev nD) (t : Fin cfg1.N) :
    (dat1 (F := Ideal) V c).flushed 5 t
      = ((cfg1.win 5).blk t).view.read (Elt Ideal)
          (arr1 (V c main_v27) (V c main_v15) (V c main_v28) (V c main_arg4) (V c main_v15)) := by
  show (cfg1.win 5).cut (grid1.coords t) ((dat1 V c).after 5 t) = _
  rw [after1_5]
  unfold out1_5
  rw [View.canon_unit_zero zero_offsets1]
  simp only [View.ld_unit_zero (S := S2000x64) zero_offsets1, View.ld_unit_zero (S := S2000x1) zero_offsets1,
    View.ld_unit_zero (S := S1x64) zero_offsets1, View.ld_unit_zero (S := S64x64) zero_offsets1]
  obtain ⟨-, -, -, -, -, -, -, -, -, -, e0, e1⟩ := idx_facts1 t
  funext j
  show k1_pay1 (F := Ideal) (iblk1 V c 0 t) (iblk1 V c 1 t) (iblk1 V c 2 t) (iblk1 V c 3 t) (iblk1 V c 4 t)
        ((cfg1.win 5).xinj (grid1.coords t) j)
      = arr1 (V c main_v27) (V c main_v15) (V c main_v28) (V c main_arg4) (V c main_v15) (((cfg1.win 5).blk t).view.emb j)
  refine (pay1_at _ _ _ _ _ _).trans ?_
  unfold arr1
  have hj0 : (j 0).val < 2000 := (j 0).isLt
  have hj1 : (j 1).val < 64 := (j 1).isLt
  have r0 : ((((cfg1.win 5).blk t).view.emb j) 0).val = t.val * 2000 + (j 0).val := by
    show win1_5.index t (0 : Fin 2) * 2000 + 1 * (j 0).val = _; rw [e0]; omega
  have r1 : ((((cfg1.win 5).blk t).view.emb j) 1).val = (j 1).val := by
    show win1_5.index t (1 : Fin 2) * 64 + 1 * (j 1).val = _; rw [e1]; omega
  exact congrArg₂ (· * ·)
    (Finset.sum_congr rfl fun s _ => congrArg₂ (· * ·)
      (congrArg (max · 0) (congrArg₂ (· + ·)
        (congrArg₂ (· * ·) (read1_0 V c t _ _ r0 rfl) (read1_1 V c t _ _ r0 rfl)) (read1_2 V c t _ _ rfl rfl)))
      (read1_3 V c t _ _ rfl r1))
    (read1_4 V c t _ _ r0 rfl)

/-- An index of the array is in point `t`'s block iff each coordinate is in the block's range on its axis. -/
theorem mem_blk1 (t : Fin cfg1.N) (i : S50000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v29).slice (win1_5.rect t)).set ↔ _
  rw [View.set_slice_whole, Rect.mem_set_unit]
  exact Iff.rfl

/-- Row `v` of the array lies in the block of point `v / 2000`: the 25 blocks fill the array. -/
theorem cover1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 25 := N_1
  refine ⟨⟨(i 0).val / 2000, by rw [hN]; omega⟩, flush1_5 _, ?_⟩
  rw [mem_blk1]
  obtain ⟨-, -, -, -, -, -, -, -, -, -, e0, e1⟩ := idx_facts1 ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [e0]; show (i 0).val / 2000 * 2000 ≤ (i 0).val ∧ (i 0).val < (i 0).val / 2000 * 2000 + 2000; omega
  | ⟨1, _⟩ =>
    show win1_5.index _ (1 : Fin 2) * 64 ≤ (i 1).val ∧ (i 1).val < win1_5.index _ (1 : Fin 2) * 64 + 64
    rw [e1]; omega

/-- The output array after the 25 write-backs is `arr1` of the entry contents. -/
theorem final1_arr (c : Dev nD) :
    (dat1 (F := Ideal) V c).arrAt 5 cfg1.N = arr1 (V c main_v27) (V c main_v15) (V c main_v28) (V c main_arg4) (V c main_v15) :=
  (dat1 (F := Ideal) V c).arrAt_eq_of_cover 5 (arr1 (V c main_v27) (V c main_v15) (V c main_v28) (V c main_arg4) (V c main_v15))
    (fun t _ => flushed1_eq V c t) cover1

/-- `arr1` at an entry. -/
theorem arr1_apply (a : S50000x64.Idx → EReal) (d1 : S50000x1.Idx → EReal) (b : S1x64.Idx → EReal) (w : S64x64.Idx → EReal)
    (d2 : S50000x1.Idx → EReal) (v : Fin 50000) (k : Fin 64) :
    arr1 a d1 b w d2 (ix2 v k)
      = (∑ s : Fin 64, max (a (ix2 v s) * d1 (ix2 v (0 : Fin 1)) + b (ix2 (0 : Fin 1) s)) 0 * w (ix2 s k)) * d2 (ix2 v (0 : Fin 1)) := rfl

/-- Entry by entry: row `v` scaled, biased and rectified, against column `k` of the weights, times row `v`'s scale. -/
theorem final1 (c : Dev nD) (a : S50000x64.Idx → EReal) (d : S50000x1.Idx → EReal) (b : S1x64.Idx → EReal) (w : S64x64.Idx → EReal)
    (ha : V c main_v27 = a) (hd : V c main_v15 = d) (hb : V c main_v28 = b) (hw : V c main_arg4 = w) (v : Fin 50000) (k : Fin 64) :
    ((dat1 (F := Ideal) V c).arrAt 5 cfg1.N : S50000x64.Idx → EReal) (ix2 v k)
      = (∑ s : Fin 64, max (a (ix2 v s) * d (ix2 v (0 : Fin 1)) + b (ix2 (0 : Fin 1) s)) 0 * w (ix2 s k)) * d (ix2 v (0 : Fin 1)) := by
  subst ha hd hb hw
  rw [final1_arr]
  rfl

end Cert.KernelIdeal.Hand

end
-- ==== Proof.KiFinal2.lean ====
/-
  The third kernel's output array after its 25 write-backs, as one function of the contents its three input arrays have when
  the kernel is entered: entry (v, k) is the aggregated entry (v, k) times row v's scale, plus the bias at k.

  Point t of the grid works on rows [2000·t, 2000·t + 2000): the aggregated features and the scale column are read there,
  the bias row whole; what it writes back is those rows of the one whole-array function `arr2`; row v lies in the block of
  point v / 2000, so the 25 blocks fill the array.
-/
import proofs.«121536_j14388140441820_2_alg».proof.Proof.KiBody2
import proofs.«121536_j14388140441820_2_alg».proof.Proof.KvPay
import Idealize.ShloMosaic.Lib.Pipeline.Value
import Idealize.ShloMosaic.Lib.ValueIdx

noncomputable section

namespace Cert.KernelIdeal.Hand

open scoped BigOperators
open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

/-- The zero offsets of a whole-block rectangle. -/
theorem zero_offsets2 : (![0, 0] : Fin 2 → Nat) = fun _ => 0 := funext fun a => by fin_cases a <;> rfl

/-- What the output array of the third kernel ends holding: the aggregated entry times its row's scale, plus the bias. -/
def arr2 (a : S50000x64.Idx → EReal) (d : S50000x1.Idx → EReal) (b : S1x64.Idx → EReal) : S50000x64.Idx → EReal :=
  fun i => a (ix2 (i 0 : Fin 50000) (i 1 : Fin 64)) * d (ix2 (i 0 : Fin 50000) (0 : Fin 1)) + b (ix2 (0 : Fin 1) (i 1 : Fin 64))

/-- The block indices over the grid: the row-blocked windows are at block (t, 0), the bias at (0, 0). -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's payload at an entry of the block. -/
theorem pay2_at (x0 : Vec Ideal S2000x64 .f32) (x1 : Vec Ideal S2000x1 .f32) (x2 : Vec Ideal S1x64 .f32) (y : S2000x64.Idx) :
    k2_pay1 (F := Ideal) x0 x1 x2 y
      = x0 (ix2 (y 0 : Fin 2000) (y 1 : Fin 64)) * x1 (ix2 (y 0 : Fin 2000) (0 : Fin 1)) + x2 (ix2 (0 : Fin 1) (y 1 : Fin 64)) := by
  obtain ⟨p, q, rfl⟩ : ∃ (p : Fin 2000) (q : Fin 64), y = ix2 p q := ⟨y 0, y 1, eq_ix2 y⟩
  exact KV.pay2_apply x0 x1 x2 p q

/-- The three input blocks at point `t` read their arrays at the rows of the block. -/
theorem read2_0 (c : Dev nD) (t : Fin cfg2.N) (y : S2000x64.Idx) (i : S50000x64.Idx)
    (h0 : (i 0).val = t.val * 2000 + (y 0).val) (h1 : (i 1).val = (y 1).val) :
    iblk2 V c 0 t y = (V c main_v40 : S50000x64.Idx → EReal) i := by
  obtain ⟨e0, e1, -⟩ := idx_facts2 t
  show (V c main_v40 : S50000x64.Idx → EReal) (((cfg2.win 0).blk t).view.emb y) = _
  refine congrArg _ (funext fun a => Fin.ext ?_)
  match a with
  | ⟨0, _⟩ => show win2_0.index t (0 : Fin 2) * 2000 + 1 * (y 0).val = (i 0).val; rw [e0, h0]; omega
  | ⟨1, _⟩ => show win2_0.index t (1 : Fin 2) * 64 + 1 * (y 1).val = (i 1).val; rw [e1, h1]; omega

theorem read2_1 (c : Dev nD) (t : Fin cfg2.N) (y : S2000x1.Idx) (i : S50000x1.Idx)
    (h0 : (i 0).val = t.val * 2000 + (y 0).val) (h1 : (i 1).val = (y 1).val) :
    iblk2 V c 1 t y = (V c main_v15 : S50000x1.Idx → EReal) i := by
  obtain ⟨-, -, e0, e1, -⟩ := idx_facts2 t
  show (V c main_v15 : S50000x1.Idx → EReal) (((cfg2.win 1).blk t).view.emb y) = _
  refine congrArg _ (funext fun a => Fin.ext ?_)
  match a with
  | ⟨0, _⟩ => show win2_1.index t (0 : Fin 2) * 2000 + 1 * (y 0).val = (i 0).val; rw [e0, h0]; omega
  | ⟨1, _⟩ => show win2_1.index t (1 : Fin 2) * 1 + 1 * (y 1).val = (i 1).val; rw [e1, h1]; omega

theorem read2_2 (c : Dev nD) (t : Fin cfg2.N) (y : S1x64.Idx) (i : S1x64.Idx)
    (h0 : (i 0).val = (y 0).val) (h1 : (i 1).val = (y 1).val) :
    iblk2 V c 2 t y = (V c main_v41 : S1x64.Idx → EReal) i := by
  obtain ⟨-, -, -, -, e0, e1, -⟩ := idx_facts2 t
  show (V c main_v41 : S1x64.Idx → EReal) (((cfg2.win 2).blk t).view.emb y) = _
  refine congrArg _ (funext fun a => Fin.ext ?_)
  match a with
  | ⟨0, _⟩ => show win2_2.index t (0 : Fin 2) * 1 + 1 * (y 0).val = (i 0).val; rw [e0, h0]; omega
  | ⟨1, _⟩ => show win2_2.index t (1 : Fin 2) * 64 + 1 * (y 1).val = (i 1).val; rw [e1, h1]; omega

/-- What point `t` writes back is block `t` of `arr2` of the entry contents. -/
theorem flushed2_eq (c : Dev nD) (t : Fin cfg2.N) :
    (dat2 (F := Ideal) V c).flushed 3 t
      = ((cfg2.win 3).blk t).view.read (Elt Ideal) (arr2 (V c main_v40) (V c main_v15) (V c main_v41)) := by
  show (cfg2.win 3).cut (grid2.coords t) ((dat2 V c).after 3 t) = _
  rw [after2_3]
  unfold out2_3
  rw [View.canon_unit_zero zero_offsets2]
  simp only [View.ld_unit_zero (S := S2000x64) zero_offsets2, View.ld_unit_zero (S := S2000x1) zero_offsets2,
    View.ld_unit_zero (S := S1x64) zero_offsets2]
  obtain ⟨-, -, -, -, -, -, e0, e1⟩ := idx_facts2 t
  funext j
  show k2_pay1 (F := Ideal) (iblk2 V c 0 t) (iblk2 V c 1 t) (iblk2 V c 2 t) ((cfg2.win 3).xinj (grid2.coords t) j)
      = arr2 (V c main_v40) (V c main_v15) (V c main_v41) (((cfg2.win 3).blk t).view.emb j)
  refine (pay2_at _ _ _ _).trans ?_
  unfold arr2
  have hj0 : (j 0).val < 2000 := (j 0).isLt
  have hj1 : (j 1).val < 64 := (j 1).isLt
  have r0 : ((((cfg2.win 3).blk t).view.emb j) 0).val = t.val * 2000 + (j 0).val := by
    show win2_3.index t (0 : Fin 2) * 2000 + 1 * (j 0).val = _; rw [e0]; omega
  have r1 : ((((cfg2.win 3).blk t).view.emb j) 1).val = (j 1).val := by
    show win2_3.index t (1 : Fin 2) * 64 + 1 * (j 1).val = _; rw [e1]; omega
  exact congrArg₂ (· + ·) (congrArg₂ (· * ·) (read2_0 V c t _ _ r0 r1) (read2_1 V c t _ _ r0 rfl)) (read2_2 V c t _ _ rfl r1)

/-- An index of the array is in point `t`'s block iff each coordinate is in the block's range on its axis. -/
theorem mem_blk2 (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v42).slice (win2_3.rect t)).set ↔ _
  rw [View.set_slice_whole, Rect.mem_set_unit]
  exact Iff.rfl

/-- Row `v` of the array lies in the block of point `v / 2000`: the 25 blocks fill the array. -/
theorem cover2 (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_3 _, ?_⟩
  rw [mem_blk2]
  obtain ⟨-, -, -, -, -, -, e0, e1⟩ := idx_facts2 ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [e0]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [e1]; omega

/-- The output array after the 25 write-backs is `arr2` of the entry contents. -/
theorem final2_arr (c : Dev nD) :
    (dat2 (F := Ideal) V c).arrAt 3 cfg2.N = arr2 (V c main_v40) (V c main_v15) (V c main_v41) :=
  (dat2 (F := Ideal) V c).arrAt_eq_of_cover 3 (arr2 (V c main_v40) (V c main_v15) (V c main_v41))
    (fun t _ => flushed2_eq V c t) cover2

/-- `arr2` at an entry. -/
theorem arr2_apply (a : S50000x64.Idx → EReal) (d : S50000x1.Idx → EReal) (b : S1x64.Idx → EReal) (v : Fin 50000) (k : Fin 64) :
    arr2 a d b (ix2 v k) = a (ix2 v k) * d (ix2 v (0 : Fin 1)) + b (ix2 (0 : Fin 1) k) := rfl

/-- Entry by entry: the aggregated entry times its row's scale, plus the bias. -/
theorem final2 (c : Dev nD) (a : S50000x64.Idx → EReal) (d : S50000x1.Idx → EReal) (b : S1x64.Idx → EReal)
    (ha : V c main_v40 = a) (hd : V c main_v15 = d) (hb : V c main_v41 = b) (v : Fin 50000) (k : Fin 64) :
    ((dat2 (F := Ideal) V c).arrAt 3 cfg2.N : S50000x64.Idx → EReal) (ix2 v k)
      = a (ix2 v k) * d (ix2 v (0 : Fin 1)) + b (ix2 (0 : Fin 1) k) := by
  subst ha hd hb
  rw [final2_arr]
  rfl

end Cert.KernelIdeal.Hand

end
-- ==== Proof.KiValue.lean ====
/-
  What the kernel program returns, entry by entry: two graph-convolution layers in the kernel's grouping (`Cert.Gcn.outK`).

  The first kernel's output row `r` is the product row `(x·W1)[r]` scaled by `dinv[r]`; the rows the second kernel reads
  are those rows gathered at the wrapped sources and summed over the edges landing on each node; the second kernel
  scales by `dinv`, adds the bias, rectifies, multiplies by `W2` and scales by `dinv` again; the third kernel scales
  the second aggregation by `dinv` and adds the second bias.
-/
import proofs.«121536_j14388140441820_2_alg».proof.Proof.KiStages
import proofs.«121536_j14388140441820_2_alg».proof.Proof.KiFinal0
import proofs.«121536_j14388140441820_2_alg».proof.Proof.KiFinal1
import proofs.«121536_j14388140441820_2_alg».proof.Proof.KiFinal2
import proofs.«121536_j14388140441820_2_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.Gcn

variable (m : (ℓ : Loc nD τ sig) → Buf (Elt Ideal) ℓ) (c : Dev nD)

/-- The wrapped sources and the destinations as one-column arrays. -/
abbrev swOf : ICol := wrapCol (srcVec (eiOf m c))
abbrev dcOf : ICol := plainCol (dstVec (eiOf m c))
/-- The float arguments, as functions of literal coordinates. -/
abbrev xOf : Fin 50000 → Fin 128 → EReal := fun a s => (m ((c : Thread nD τ).loc main_arg0) : S50000x128.Idx → EReal) (ix2 a s)
abbrev w1Of : Fin 128 → Fin 64 → EReal := fun s q => (m ((c : Thread nD τ).loc main_arg2) : S128x64.Idx → EReal) (ix2 s q)
abbrev b1Of : Fin 64 → EReal := fun q => (m ((c : Thread nD τ).loc main_arg3) : S64.Idx → EReal) (ix1 q)
abbrev w2Of : Fin 64 → Fin 64 → EReal := fun s q => (m ((c : Thread nD τ).loc main_arg4) : S64x64.Idx → EReal) (ix2 s q)
abbrev b2Of : Fin 64 → EReal := fun q => (m ((c : Thread nD τ).loc main_arg5) : S64.Idx → EReal) (ix1 q)

/-- The aggregated rows the second and third kernels read, as arrays of extended reals. -/
abbrev a5f : S50000x64.Idx → EReal := W5 m c main_v27
abbrev a7f : S50000x64.Idx → EReal := W7 m c main_v40

/-- The first kernel's output: the product row scaled by the row's inverse square-root degree. -/
theorem x0_apply (r : Fin 50000) (a : Fin 64) :
    X0f m c (ix2 r a) = mm (xOf m c) (w1Of m c) r a * dinv (dcOf m c) r := by
  unfold X0f X0
  refine (final0 (V3 m) c (m ((c : Thread nD τ).loc main_arg0)) (m ((c : Thread nD τ).loc main_arg2)) (W3 m c main_v15)
    (W3_arg0 m c) (W3_arg2 m c) rfl r a).trans ?_
  rw [dcol3]
  rfl

/-- The rows the second kernel reads. -/
theorem agg5_eq (r : Fin 50000) (a : Fin 64) :
    a5f m c (ix2 r a)
      = ∑ e ∈ into (dcOf m c) r, mm (xOf m c) (w1Of m c) (rowOf (swOf m c) e) a * dinv (dcOf m c) (rowOf (swOf m c) e) :=
by
  have h : a5f m c (ix2 r a) = ∑ e ∈ into (dcOf m c) r, X0f m c (ix2 (rowOf (swOf m c) e) a) := agg5 m c r a
  rw [h]
  exact Finset.sum_congr rfl fun e _ => x0_apply m c _ a

/-- The second kernel's output: the rectified first layer times the second weights, scaled by the row's inverse
    square-root degree. -/
theorem x1_apply (r : Fin 50000) (k : Fin 64) :
    X1f m c (ix2 r k)
      = mm (fun r a => max (layerK (swOf m c) (dcOf m c) (mm (xOf m c) (w1Of m c)) (b1Of m c) r a) 0) (w2Of m c) r k
          * dinv (dcOf m c) r := by
  unfold X1f X1
  refine (final1 (V5 m) c (W5 m c main_v27) (W5 m c main_v15) (W5 m c main_v28) (m ((c : Thread nD τ).loc main_arg4))
    rfl rfl rfl (W5_arg4 m c) r k).trans ?_
  rw [dcol5 m c r]
  refine congrArg (fun t : EReal => t * dinv (dcOf m c) r) ?_
  refine Finset.sum_congr rfl fun s _ => ?_
  rw [show (W5 m c main_v27 : S50000x64.Idx → EReal) (ix2 r s) = _ from agg5_eq m c r s, brow5 m c s]
  rfl

/-- The rows the third kernel reads. -/
theorem agg7_eq (v : Fin 50000) (k : Fin 64) :
    a7f m c (ix2 v k)
      = ∑ e ∈ into (dcOf m c) v,
          mm (fun r a => max (layerK (swOf m c) (dcOf m c) (mm (xOf m c) (w1Of m c)) (b1Of m c) r a) 0) (w2Of m c) (rowOf (swOf m c) e) k
            * dinv (dcOf m c) (rowOf (swOf m c) e) :=
by
  have h : a7f m c (ix2 v k) = ∑ e ∈ into (dcOf m c) v, X1f m c (ix2 (rowOf (swOf m c) e) k) := agg7 m c v k
  rw [h]
  exact Finset.sum_congr rfl fun e _ => x1_apply m c _ k

/-- THE KERNEL PROGRAM'S RESULT, entry by entry. -/
theorem kernel_value (v : Fin 50000) (k : Fin 64) :
    (W8 m c main_v42 : S50000x64.Idx → EReal) (ix2 v k)
      = outK (swOf m c) (dcOf m c) (xOf m c) (w1Of m c) (b1Of m c) (w2Of m c) (b2Of m c) v k := by
  rw [show (W8 m c main_v42 : S50000x64.Idx → EReal) = X2 m c from W8_out m c]
  unfold X2
  refine (final2 (V7 m) c (W7 m c main_v40) (W7 m c main_v15) (W7 m c main_v41) rfl rfl rfl v k).trans ?_
  rw [show (W7 m c main_v40 : S50000x64.Idx → EReal) (ix2 v k) = _ from agg7_eq m c v k, dcol7 m c v, brow7 m c k]
  rfl

end Cert.KernelIdeal.Hand

end
-- ==== Proof.RefValueA.lean ====
/-
  The index columns of the reference.

  Each gather and scatter of the reference takes a one-column array of start indices built from the source vector or
  the destination vector of the edge list: the destination vector as it is (the scatters), or after the negative-index
  wrap `x < 0 ? x + 50000 : x` (the gathers). Entry by entry these are `Cert.Gcn.plainCol` and `Cert.Gcn.wrapCol` of
  the two vectors, which stay opaque.
-/
import proofs.«121536_j14388140441820_2_alg».proof.Proof.RefRead
import proofs.«121536_j14388140441820_2_alg».proof.Proof.Spec
import proofs.«121536_j14388140441820_2_alg».proof.Proof.LibIndexNorm

noncomputable section

open scoped BigOperators
open Idealize.ShloMosaic Idealize.ShloMosaic.ValueIdx
open Cert.ReferenceIdeal Cert.ReferenceIdeal.Gen Cert.ReferenceIdeal.ReadP Cert.Gcn

namespace Cert.ReferenceIdeal.RefValue

open Cert.Lib.IndexNorm

/-- A vector of indices as a one-column array is its plain column. -/
theorem bcast_plainCol (s : IVec (⟨1, ![850000]⟩ : Shape) 32)
    (hb : (⟨1, ![850000]⟩ : Shape).BroadcastsInDim ⟨2, ![850000, 1]⟩ ![0]) :
    broadcastInDim ⟨2, ![850000, 1]⟩ ![0] hb s = plainCol s := by
  funext j
  obtain ⟨e, c, rfl⟩ : ∃ (e : Fin 850000) (c : Fin 1), j = ix2 e c := ⟨j 0, j 1, eq_ix2 j⟩
  obtain rfl : c = 0 := Subsingleton.elim _ _
  exact bcast_col_apply s hb e

/-- The wrapped vector `select(s < z, s + n, s)` with `z` the zero vector and `n` the vector of 50000s, as a one-column
    array, is the wrapped column. -/
theorem bcast_wrapCol (s z n : IVec (⟨1, ![850000]⟩ : Shape) 32) (hz : ∀ i, z i = 0#32) (hn : ∀ i, n i = 50000#32)
    (hb : (⟨1, ![850000]⟩ : Shape).BroadcastsInDim ⟨2, ![850000, 1]⟩ ![0]) :
    broadcastInDim ⟨2, ![850000, 1]⟩ ![0] hb (select (cmpi .slt s z) (addi s n) s) = wrapCol s := by
  funext j
  obtain ⟨e, c, rfl⟩ : ∃ (e : Fin 850000) (c : Fin 1), j = ix2 e c := ⟨j 0, j 1, eq_ix2 j⟩
  obtain rfl : c = 0 := Subsingleton.elim _ _
  rw [bcast_col_apply _ hb e]
  show Scalar.select (IntOp.cmpi .slt (s (ix1 e)) (z (ix1 e))) (IntOp.addi (s (ix1 e)) (n (ix1 e))) (s (ix1 e)) = _
  rw [hz, hn]
  rfl

/-! ## The destination vector as it is: the scatters' columns -/

theorem col_v10 (x1 : (⟨S2x800000, .i32⟩ : BufTy).Contents (Elt Ideal)) :
    val_main_v10 (F := Ideal) x1 = plainCol (val_main_v6 (F := Ideal) x1) := by
  unfold val_main_v10
  exact bcast_plainCol _ _

theorem col_v42 (x1 : (⟨S2x800000, .i32⟩ : BufTy).Contents (Elt Ideal)) :
    val_main_v42 (F := Ideal) x1 = plainCol (val_main_v6 (F := Ideal) x1) := by
  unfold val_main_v42
  exact bcast_plainCol _ _

theorem col_v51 (x1 : (⟨S2x800000, .i32⟩ : BufTy).Contents (Elt Ideal)) :
    val_main_v51 (F := Ideal) x1 = plainCol (val_main_v6 (F := Ideal) x1) := by
  unfold val_main_v51
  exact bcast_plainCol _ _

theorem col_v83 (x1 : (⟨S2x800000, .i32⟩ : BufTy).Contents (Elt Ideal)) :
    val_main_v83 (F := Ideal) x1 = plainCol (val_main_v6 (F := Ideal) x1) := by
  unfold val_main_v83
  exact bcast_plainCol _ _

/-! ## The wrapped source vector: the gathers of the sources -/

theorem col_v21 (x1 : (⟨S2x800000, .i32⟩ : BufTy).Contents (Elt Ideal)) :
    val_main_v21 (F := Ideal) x1 = wrapCol (val_main_v3 (F := Ideal) x1) := by
  unfold val_main_v21 val_main_v20 val_main_v17 val_main_v19
  exact bcast_wrapCol _ _ _ (fun i => (val_main_v16_apply (F := Ideal) i).trans (val_main_c_apply (F := Ideal) _))
    (fun i => (val_main_v18_apply (F := Ideal) i).trans (val_main_c_3_apply (F := Ideal) _)) _

theorem col_v36 (x1 : (⟨S2x800000, .i32⟩ : BufTy).Contents (Elt Ideal)) :
    val_main_v36 (F := Ideal) x1 = wrapCol (val_main_v3 (F := Ideal) x1) := by
  unfold val_main_v36 val_main_v35 val_main_v32 val_main_v34
  exact bcast_wrapCol _ _ _ (fun i => (val_main_v31_apply (F := Ideal) i).trans (val_main_c_6_apply (F := Ideal) _))
    (fun i => (val_main_v33_apply (F := Ideal) i).trans (val_main_c_7_apply (F := Ideal) _)) _

theorem col_v62 (x1 : (⟨S2x800000, .i32⟩ : BufTy).Contents (Elt Ideal)) :
    val_main_v62 (F := Ideal) x1 = wrapCol (val_main_v3 (F := Ideal) x1) := by
  unfold val_main_v62 val_main_v61 val_main_v58 val_main_v60
  exact bcast_wrapCol _ _ _ (fun i => (val_main_v57_apply (F := Ideal) i).trans (val_main_c_13_apply (F := Ideal) _))
    (fun i => (val_main_v59_apply (F := Ideal) i).trans (val_main_c_14_apply (F := Ideal) _)) _

theorem col_v77 (x1 : (⟨S2x800000, .i32⟩ : BufTy).Contents (Elt Ideal)) :
    val_main_v77 (F := Ideal) x1 = wrapCol (val_main_v3 (F := Ideal) x1) := by
  unfold val_main_v77 val_main_v76 val_main_v73 val_main_v75
  exact bcast_wrapCol _ _ _ (fun i => (val_main_v72_apply (F := Ideal) i).trans (val_main_c_17_apply (F := Ideal) _))
    (fun i => (val_main_v74_apply (F := Ideal) i).trans (val_main_c_18_apply (F := Ideal) _)) _

/-! ## The wrapped destination vector: the gathers of the destinations -/

theorem col_v28 (x1 : (⟨S2x800000, .i32⟩ : BufTy).Contents (Elt Ideal)) :
    val_main_v28 (F := Ideal) x1 = wrapCol (val_main_v6 (F := Ideal) x1) := by
  unfold val_main_v28 val_main_v27 val_main_v24 val_main_v26
  exact bcast_wrapCol _ _ _ (fun i => (val_main_v23_apply (F := Ideal) i).trans (val_main_c_4_apply (F := Ideal) _))
    (fun i => (val_main_v25_apply (F := Ideal) i).trans (val_main_c_5_apply (F := Ideal) _)) _

theorem col_v69 (x1 : (⟨S2x800000, .i32⟩ : BufTy).Contents (Elt Ideal)) :
    val_main_v69 (F := Ideal) x1 = wrapCol (val_main_v6 (F := Ideal) x1) := by
  unfold val_main_v69 val_main_v68 val_main_v65 val_main_v67
  exact bcast_wrapCol _ _ _ (fun i => (val_main_v64_apply (F := Ideal) i).trans (val_main_c_15_apply (F := Ideal) _))
    (fun i => (val_main_v66_apply (F := Ideal) i).trans (val_main_c_16_apply (F := Ideal) _)) _

end Cert.ReferenceIdeal.RefValue

end
-- ==== Proof.RefValueB.lean ====
/-
  The degrees and the inverse square-root degrees of the reference.

  `zeros(50000).at[dst].add(1)` read at `v` is `Cert.Gcn.deg`: a one for each edge whose destination index, read
  signed, is `v`. Then `select(deg > 0, rsqrt deg, 0)` is `Cert.Gcn.dinv`.
-/
import proofs.«121536_j14388140441820_2_alg».proof.Proof.RefRead
import proofs.«121536_j14388140441820_2_alg».proof.Proof.Spec
import proofs.«121536_j14388140441820_2_alg».proof.Proof.LibVecScatterAdd
import proofs.«121536_j14388140441820_2_alg».proof.Proof.RefValueA
import Idealize.ShloMosaic.Lib.IdealHost

noncomputable section

open scoped BigOperators
open Idealize.ShloMosaic Idealize.ShloMosaic.ValueIdx
open Cert.ReferenceIdeal Cert.ReferenceIdeal.Gen Cert.ReferenceIdeal.ReadP Cert.Gcn

namespace Cert.ReferenceIdeal.RefValue

/-- On the extended reals, `select(d > 0, rsqrt d, 0)` is `rsqrt d` where `d` is positive and `0` elsewhere. -/
theorem select_pos_rsqrt (d : EReal) :
    Scalar.select (FloatOps.cmpf (F := Ideal) (φ := .f32) .ogt d (FloatOps.ofBits .f32 0x00000000#32))
        (FloatOps.hostUnary (F := Ideal) (φ := .f32) .rsqrt d) (FloatOps.ofBits (F := Ideal) .f32 0x00000000#32)
      = if 0 < d then Ideal.rsqrt d else 0 := by
  show Scalar.select (BitVec.ofBool (decide (Ideal.ofBits .f32 0x00000000#32 < d))) (Ideal.rsqrt d)
      (Ideal.ofBits .f32 0x00000000#32) = _
  rw [Ideal.ofBits_zero_f32]
  by_cases h : 0 < d
  · rw [if_pos h, decide_eq_true h]
    exact select_one _ _
  · rw [if_neg h, decide_eq_false h]
    exact select_zero _ _

/-- The scatter-add of ones at the destinations counts, at `v`, the edges landing on `v`. -/
theorem deg_v11 (x1 : (⟨S2x800000, .i32⟩ : BufTy).Contents (Elt Ideal)) (v : Fin 50000) :
    val_main_v11 (F := Ideal) x1 (ix1 v) = deg (plainCol (val_main_v6 (F := Ideal) x1)) v := by
  have hzero : val_main_v9 (F := Ideal) = fun _ => (0 : EReal) := funext fun i =>
    ((val_main_v9_apply (F := Ideal) i).trans (val_main_cst_0_apply (F := Ideal) _)).trans Ideal.ofBits_zero_f32
  have hone : val_main_v8 (F := Ideal) = fun _ => (1 : EReal) := funext fun i =>
    ((val_main_v8_apply (F := Ideal) i).trans (val_main_cst_apply (F := Ideal) _)).trans Ideal.ofBits_one_f32
  unfold val_main_v11 deg
  rw [col_v10, hzero, hone]
  exact Cert.Lib.VecScatter.host_scatterAdd_count (φ := .f32) scatter_S50000_S850000x1_S850000_n_0_0_1_wf
    (plainCol (val_main_v6 (F := Ideal) x1)) v

/-- `select(deg > 0, rsqrt deg, 0)` at `v` is the inverse square-root degree of `v`. -/
theorem dinv_v15 (x1 : (⟨S2x800000, .i32⟩ : BufTy).Contents (Elt Ideal)) (v : Fin 50000) :
    val_main_v15 (F := Ideal) x1 (ix1 v) = dinv (plainCol (val_main_v6 (F := Ideal) x1)) v := by
  rw [val_main_v15_apply, val_main_v13_apply, val_main_v14_apply, deg_v11, val_main_v12_apply, val_main_cst_1_apply,
    val_main_call0_v1_apply, val_main_call0_v0_apply, val_main_cst_2_apply]
  exact select_pos_rsqrt _

/-- The scatter-add of ones at the destinations counts, at `v`, the edges landing on `v`. -/
theorem deg_v52 (x1 : (⟨S2x800000, .i32⟩ : BufTy).Contents (Elt Ideal)) (v : Fin 50000) :
    val_main_v52 (F := Ideal) x1 (ix1 v) = deg (plainCol (val_main_v6 (F := Ideal) x1)) v := by
  have hzero : val_main_v50 (F := Ideal) = fun _ => (0 : EReal) := funext fun i =>
    ((val_main_v50_apply (F := Ideal) i).trans (val_main_cst_10_apply (F := Ideal) _)).trans Ideal.ofBits_zero_f32
  have hone : val_main_v49 (F := Ideal) = fun _ => (1 : EReal) := funext fun i =>
    ((val_main_v49_apply (F := Ideal) i).trans (val_main_cst_9_apply (F := Ideal) _)).trans Ideal.ofBits_one_f32
  unfold val_main_v52 deg
  rw [col_v51, hzero, hone]
  exact Cert.Lib.VecScatter.host_scatterAdd_count (φ := .f32) scatter_S50000_S850000x1_S850000_n_0_0_1_wf
    (plainCol (val_main_v6 (F := Ideal) x1)) v

/-- `select(deg > 0, rsqrt deg, 0)` at `v` is the inverse square-root degree of `v`. -/
theorem dinv_v56 (x1 : (⟨S2x800000, .i32⟩ : BufTy).Contents (Elt Ideal)) (v : Fin 50000) :
    val_main_v56 (F := Ideal) x1 (ix1 v) = dinv (plainCol (val_main_v6 (F := Ideal) x1)) v := by
  rw [val_main_v56_apply, val_main_v54_apply, val_main_v55_apply, deg_v52, val_main_v53_apply, val_main_cst_11_apply,
    val_main_call2_v1_apply, val_main_call2_v0_apply, val_main_cst_12_apply]
  exact select_pos_rsqrt _

end Cert.ReferenceIdeal.RefValue

end
-- ==== Proof.RefValueC.lean ====
/-
  One graph-convolution layer as the reference spells it, read at an index.

  With features `h : [50000, 64]`, a vector `dv : [50000]`, three one-column index arrays (the wrapped sources, the
  wrapped destinations, the plain destinations) and a bias `b : [64]`, the reference computes

      scatter-add(zeros, dst, gather(h, src) * spread(gather(dv, src) * gather(dv, dst'))) + spread(b).

  Read at `(v, k)` this is the sum over the edges landing on `v` of the gathered row's entry times the edge weight, plus
  `b k`: the layer `Cert.Gcn.layerR` once `dv` is the inverse square-root degree.
-/
import proofs.«121536_j14388140441820_2_alg».proof.Proof.Spec
import proofs.«121536_j14388140441820_2_alg».proof.Proof.LibIndexNorm
import proofs.«121536_j14388140441820_2_alg».proof.Proof.LibRowGather
import proofs.«121536_j14388140441820_2_alg».proof.Proof.LibScatterLinear

noncomputable section

open scoped BigOperators
open Idealize.ShloMosaic Idealize.ShloMosaic.ValueIdx
open Cert.Lib.RowGather Cert.Lib.RowScatterAdd Cert.Lib.ScatterLinear Cert.Lib.IndexNorm

namespace Cert.ReferenceIdeal.RefValue

/-- THE LAYER READ AT `(v, k)`. -/
theorem layer_apply
    (wfS : ScatterDims.WF ⟨2, ![50000, 64]⟩ ⟨2, ![850000, 1]⟩ ⟨2, ![850000, 64]⟩ [1] [0] [0] 1)
    (wfG : GatherDims.WF ⟨2, ![50000, 64]⟩ ⟨2, ![850000, 1]⟩ ⟨2, ![850000, 64]⟩ [1] [0] [] [0] [] 1 ![1, 64])
    (wfV : GatherDims.WF ⟨1, ![50000]⟩ ⟨2, ![850000, 1]⟩ ⟨1, ![850000]⟩ [] [0] [] [0] [] 1 ![1])
    (hb1 : (⟨1, ![850000]⟩ : Shape).BroadcastsInDim ⟨2, ![850000, 1]⟩ ![0])
    (hb2 : (⟨2, ![850000, 1]⟩ : Shape).BroadcastsInDim ⟨2, ![850000, 64]⟩ ![0, 1])
    (hb3 : (⟨1, ![64]⟩ : Shape).BroadcastsInDim ⟨2, ![1, 64]⟩ ![1])
    (hb4 : (⟨2, ![1, 64]⟩ : Shape).BroadcastsInDim ⟨2, ![50000, 64]⟩ ![0, 1])
    (h z : FVec Ideal ⟨2, ![50000, 64]⟩ .f32) (hz : ∀ i, z i = 0)
    (srcw dstw dstc : Cert.Gcn.ICol)
    (dv : FVec Ideal ⟨1, ![50000]⟩ .f32) (hdv : ∀ a : Fin 50000, dv (ix1 a) = Cert.Gcn.dinv dstc a)
    (b : FVec Ideal ⟨1, ![64]⟩ .f32) (v : Fin 50000) (k : Fin 64) :
    addf
      (Host.scatterAdd (F := Ideal) (rowScatterDims 50000 64 850000 wfS) z dstc
        (mulf (Host.gather (rowGatherDims 50000 64 850000 wfG) h srcw)
          (broadcastInDim ⟨2, ![850000, 64]⟩ ![0, 1] hb2
            (broadcastInDim ⟨2, ![850000, 1]⟩ ![0] hb1
              (mulf (Host.gather (vecGatherDims 50000 850000 wfV) dv srcw)
                (Host.gather (vecGatherDims 50000 850000 wfV) dv dstw))))))
      (broadcastInDim ⟨2, ![50000, 64]⟩ ![0, 1] hb4 (broadcastInDim ⟨2, ![1, 64]⟩ ![1] hb3 b)) (ix2 v k)
    = Cert.Gcn.layerR srcw dstw dstc (fun a c => h (ix2 a c)) (fun q => b (ix1 q)) v k := by
  obtain rfl : z = fun _ => (0 : EReal) := funext hz
  rw [addf_apply, bcast_row_rows_apply b hb3 hb4 v k, scatterAdd_ideal, rowScatterAdd_zero_apply wfS dstc _ v k]
  refine congrArg₂ (· + ·) (Finset.sum_congr rfl fun e _ => ?_) rfl
  rw [mulf_apply, rowGather_apply (by decide) wfG h srcw e k, bcast_col_cols_apply _ hb1 hb2 e k, mulf_apply,
    vecGather_apply (by decide) wfV dv srcw e, vecGather_apply (by decide) wfV dv dstw e, hdv, hdv]
  rfl

end Cert.ReferenceIdeal.RefValue

end
-- ==== Proof.RefValue.lean ====
/-
  The reference's value, index by index: two graph-convolution layers with a rectifier between them.

  Layer one reads the features `x · W1`, layer two the features `relu(layer one) · W2`; both use the same three index
  columns and the same inverse square-root degrees. Assembled, the reference's result at `(v, k)` is `Cert.Gcn.outR`.
-/
import proofs.«121536_j14388140441820_2_alg».proof.Proof.RefRead
import proofs.«121536_j14388140441820_2_alg».proof.Proof.Spec
import proofs.«121536_j14388140441820_2_alg».proof.Proof.RefValueA
import proofs.«121536_j14388140441820_2_alg».proof.Proof.RefValueB
import proofs.«121536_j14388140441820_2_alg».proof.Proof.RefValueC

noncomputable section

open scoped BigOperators
open Idealize.ShloMosaic Idealize.ShloMosaic.ValueIdx
open Cert.ReferenceIdeal Cert.ReferenceIdeal.Gen Cert.ReferenceIdeal.ReadP Cert.Gcn

namespace Cert.ReferenceIdeal.RefValue

open Cert.Lib.RowGather Cert.Lib.RowScatterAdd

/-- The zero matrix a layer's scatter-add accumulates into (layer one). -/
theorem zero_v41 (i : S50000x64.Idx) : val_main_v41 (F := Ideal) i = 0 :=
  ((val_main_v41_apply (F := Ideal) i).trans (val_main_cst_8_apply (F := Ideal) _)).trans Ideal.ofBits_zero_f32

/-- The zero matrix a layer's scatter-add accumulates into (layer two). -/
theorem zero_v82 (i : S50000x64.Idx) : val_main_v82 (F := Ideal) i = 0 :=
  ((val_main_v82_apply (F := Ideal) i).trans (val_main_cst_19_apply (F := Ideal) _)).trans Ideal.ofBits_zero_f32

/-- The first matrix product, entry by entry. -/
theorem feat_v7 (x0 : (⟨S50000x128, .f32⟩ : BufTy).Contents (Elt Ideal)) (x2 : (⟨S128x64, .f32⟩ : BufTy).Contents (Elt Ideal)) :
    (fun (a : Fin 50000) (c : Fin 64) => val_main_v7 (F := Ideal) x0 x2 (ix2 a c)) = mm (fun a c => x0 (ix2 a c)) (fun c q => x2 (ix2 c q)) := by
  funext a c
  refine (val_main_v7_apply x0 x2 (ix2 a c)).trans (Finset.sum_congr rfl fun k _ => ?_)
  have hl : lidx_main_v7 (ix2 a c) k = ix2 a k := funext fun d => Fin.ext (by
    match d with
    | ⟨0, _⟩ => rfl
    | ⟨1, _⟩ => rfl)
  have hr : ridx_main_v7 (ix2 a c) k = ix2 k c := funext fun d => Fin.ext (by
    match d with
    | ⟨0, _⟩ => rfl
    | ⟨1, _⟩ => rfl)
  rw [hl, hr]

/-- LAYER ONE: the reference's first layer before the rectifier, at `(v, k)`. -/
theorem layer_v46 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (v : Fin 50000) (k : Fin 64) :
    val_main_v46 (F := Ideal) x0 x1 x2 x3 (ix2 v k) = layerR (wrapCol (val_main_v3 (F := Ideal) x1)) (wrapCol (val_main_v6 (F := Ideal) x1)) (plainCol (val_main_v6 (F := Ideal) x1)) (mm (fun a c => x0 (ix2 a c)) (fun c q => x2 (ix2 c q))) (fun q => x3 (ix1 q)) v k := by
  unfold val_main_v46 val_main_v43 val_main_v40 val_main_v37 val_main_v39 val_main_v38 val_main_v30 val_main_v22
    val_main_v29 val_main_v45 val_main_v44
  rw [col_v42, col_v36, col_v21, col_v28]
  exact (layer_apply scatter_S50000x64_S850000x1_S850000x64_1_0_0_1_wf
    gather_S50000x64_S850000x1_S850000x64_1_0_n_n_0_1_164_wf gather_S50000_S850000x1_S850000_n_0_n_n_0_1_1_wf
    bcast_S850000_S850000x1_0 bcast_S850000x1_S850000x64_0_1 bcast_S64_S1x64_1 bcast_S1x64_S50000x64_0_1
    (val_main_v7 (F := Ideal) x0 x2) (val_main_v41 (F := Ideal)) zero_v41 (wrapCol (val_main_v3 (F := Ideal) x1)) (wrapCol (val_main_v6 (F := Ideal) x1)) (plainCol (val_main_v6 (F := Ideal) x1))
    (val_main_v15 (F := Ideal) x1) (dinv_v15 x1) x3 v k).trans
    (congrArg (fun hh => layerR (wrapCol (val_main_v3 (F := Ideal) x1)) (wrapCol (val_main_v6 (F := Ideal) x1)) (plainCol (val_main_v6 (F := Ideal) x1)) hh (fun q => x3 (ix1 q)) v k) (feat_v7 x0 x2))

/-- The second matrix product, of the rectified first layer, entry by entry. -/
theorem feat_v48 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) :
    (fun (a : Fin 50000) (c : Fin 64) => val_main_v48 (F := Ideal) x0 x1 x2 x3 x4 (ix2 a c)) = (mm (fun a c => max (layerR (wrapCol (val_main_v3 (F := Ideal) x1)) (wrapCol (val_main_v6 (F := Ideal) x1)) (plainCol (val_main_v6 (F := Ideal) x1)) (mm (fun a c => x0 (ix2 a c)) (fun c q => x2 (ix2 c q))) (fun q => x3 (ix1 q)) a c) 0) (fun c q => x4 (ix2 c q))) := by
  funext a c
  refine (val_main_v48_apply x0 x1 x2 x3 x4 (ix2 a c)).trans (Finset.sum_congr rfl fun k _ => ?_)
  have hl : lidx_main_v48 (ix2 a c) k = ix2 a k := funext fun d => Fin.ext (by
    match d with
    | ⟨0, _⟩ => rfl
    | ⟨1, _⟩ => rfl)
  have hr : ridx_main_v48 (ix2 a c) k = ix2 k c := funext fun d => Fin.ext (by
    match d with
    | ⟨0, _⟩ => rfl
    | ⟨1, _⟩ => rfl)
  rw [hl, hr, val_main_v47_apply, layer_v46, val_main_call1_v0_apply, val_main_call1_cst_apply]
  show max _ (Ideal.ofBits .f32 0x00000000#32) * _ = _
  rw [Ideal.ofBits_zero_f32]

/-- LAYER TWO: the reference's result at `(v, k)` over the second matrix product. -/
theorem layer_v87 (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (v : Fin 50000) (k : Fin 64) :
    val_main_v87 (F := Ideal) x0 x1 x2 x3 x4 x5 (ix2 v k) = layerR (wrapCol (val_main_v3 (F := Ideal) x1)) (wrapCol (val_main_v6 (F := Ideal) x1)) (plainCol (val_main_v6 (F := Ideal) x1)) (mm (fun a c => max (layerR (wrapCol (val_main_v3 (F := Ideal) x1)) (wrapCol (val_main_v6 (F := Ideal) x1)) (plainCol (val_main_v6 (F := Ideal) x1)) (mm (fun a c => x0 (ix2 a c)) (fun c q => x2 (ix2 c q))) (fun q => x3 (ix1 q)) a c) 0) (fun c q => x4 (ix2 c q))) (fun q => x5 (ix1 q)) v k := by
  unfold val_main_v87 val_main_v84 val_main_v81 val_main_v78 val_main_v80 val_main_v79 val_main_v71 val_main_v63
    val_main_v70 val_main_v86 val_main_v85
  rw [col_v83, col_v77, col_v62, col_v69]
  exact (layer_apply scatter_S50000x64_S850000x1_S850000x64_1_0_0_1_wf
    gather_S50000x64_S850000x1_S850000x64_1_0_n_n_0_1_164_wf gather_S50000_S850000x1_S850000_n_0_n_n_0_1_1_wf
    bcast_S850000_S850000x1_0 bcast_S850000x1_S850000x64_0_1 bcast_S64_S1x64_1 bcast_S1x64_S50000x64_0_1
    (val_main_v48 (F := Ideal) x0 x1 x2 x3 x4) (val_main_v82 (F := Ideal)) zero_v82 (wrapCol (val_main_v3 (F := Ideal) x1)) (wrapCol (val_main_v6 (F := Ideal) x1)) (plainCol (val_main_v6 (F := Ideal) x1))
    (val_main_v56 (F := Ideal) x1) (dinv_v56 x1) x5 v k).trans
    (congrArg (fun hh => layerR (wrapCol (val_main_v3 (F := Ideal) x1)) (wrapCol (val_main_v6 (F := Ideal) x1)) (plainCol (val_main_v6 (F := Ideal) x1)) hh (fun q => x5 (ix1 q)) v k) (feat_v48 x0 x1 x2 x3 x4))

/-- THE REFERENCE'S VALUE at `(v, k)`: the two layers of `Cert.Gcn.outR` over the wrapped source column, the wrapped
    destination column and the plain destination column of the edge list. -/
theorem ref_value (x0 : (⟨S50000x128, .f32⟩ : BufTy).Contents (Elt Ideal)) (x1 : (⟨S2x800000, .i32⟩ : BufTy).Contents (Elt Ideal)) (x2 : (⟨S128x64, .f32⟩ : BufTy).Contents (Elt Ideal)) (x3 : (⟨S64, .f32⟩ : BufTy).Contents (Elt Ideal)) (x4 : (⟨S64x64, .f32⟩ : BufTy).Contents (Elt Ideal)) (x5 : (⟨S64, .f32⟩ : BufTy).Contents (Elt Ideal)) (v : Fin 50000) (k : Fin 64) :
    Cert.ReferenceIdeal.ReadP.val_main_v87 (F := Ideal) x0 x1 x2 x3 x4 x5 (ix2 v k)
      = Cert.Gcn.outR (Cert.Gcn.wrapCol (Cert.ReferenceIdeal.ReadP.val_main_v3 (F := Ideal) x1))
          (Cert.Gcn.wrapCol (Cert.ReferenceIdeal.ReadP.val_main_v6 (F := Ideal) x1))
          (Cert.Gcn.plainCol (Cert.ReferenceIdeal.ReadP.val_main_v6 (F := Ideal) x1))
          (fun a c => x0 (ix2 a c)) (fun c q => x2 (ix2 c q)) (fun q => x3 (ix1 q)) (fun c q => x4 (ix2 c q))
          (fun q => x5 (ix1 q)) v k :=
  layer_v87 x0 x1 x2 x3 x4 x5 v k

end Cert.ReferenceIdeal.RefValue

end
-- ==== Proof.SpecLaws.lean ====
/-
  The laws that join the two groupings of a graph-convolution layer (see Spec.lean).
-/
import proofs.«121536_j14388140441820_2_alg».proof.Proof.Spec
import proofs.«121536_j14388140441820_2_alg».proof.Proof.LibIndexNorm
import proofs.«121536_j14388140441820_2_alg».proof.Proof.LibRowScatterAdd

noncomputable section

open scoped BigOperators
open Idealize.ShloMosaic Idealize.ShloMosaic.ValueIdx

namespace Cert.Gcn

/-- A finite sum of ones and zeros is a non-negative real. -/
theorem sum_ite_one_nonneg_real {ι : Type} (s : Finset ι) (P : ι → Prop) [DecidablePred P] :
    ∃ r : ℝ, 0 ≤ r ∧ (∑ e ∈ s, if P e then (1 : EReal) else 0) = (r : EReal) := by
  classical
  induction s using Finset.induction_on with
  | empty => exact ⟨0, le_refl _, by simp⟩
  | insert a s ha ih =>
    obtain ⟨r, hr, hs⟩ := ih
    rw [Finset.sum_insert ha, hs]
    by_cases hp : P a
    · refine ⟨1 + r, by linarith, ?_⟩
      rw [if_pos hp, EReal.coe_add, EReal.coe_one]
    · refine ⟨r, hr, ?_⟩
      rw [if_neg hp, zero_add]

/-- The degree is a non-negative real. -/
theorem deg_nonneg_real (dstc : ICol) (v : Fin 50000) : ∃ r : ℝ, 0 ≤ r ∧ deg dstc v = (r : EReal) :=
  sum_ite_one_nonneg_real (Finset.univ : Finset (Fin 850000))
    (fun e : Fin 850000 => (dstc (ix2 e (0 : Fin 1))).toInt = ((v.val : Nat) : Int))

/-- The inverse square-root degree is always a non-negative real. -/
theorem dinv_nonneg_real (dstc : ICol) (v : Fin 50000) : ∃ r : ℝ, 0 ≤ r ∧ dinv dstc v = (r : EReal) := by
  obtain ⟨r, hr, hd⟩ := deg_nonneg_real dstc v
  unfold dinv
  rw [hd]
  by_cases hpos : (0 : EReal) < (r : EReal)
  · have hr0 : 0 < r := EReal.coe_pos.mp hpos
    refine ⟨(Real.sqrt r)⁻¹, inv_nonneg.mpr (Real.sqrt_nonneg r), ?_⟩
    rw [if_pos hpos, Ideal.rsqrt_coe, if_neg (not_lt.mpr hr), if_neg hr0.ne']
  · rw [if_neg hpos]
    exact ⟨0, le_refl _, EReal.coe_zero.symm⟩

/-- On an edge landing on `v` the wrapped destination index, clamped, is `v`. -/
theorem rowOf_wrapCol_of_into (d : IVec (⟨1, ![850000]⟩ : Shape) 32) (v : Fin 50000) (e : Fin 850000)
    (he : e ∈ into (plainCol d) v) : rowOf (wrapCol d) e = v := by
  have hx : (d (ix1 e)).toInt = ((v.val : Nat) : Int) := by
    have h := he
    unfold into at h
    exact (Finset.mem_filter.mp h).2
  have hnn : 0 ≤ (d (ix1 e)).toInt := by
    rw [hx]
    exact Int.natCast_nonneg _
  have hw : wrapCol d (ix2 e (0 : Fin 1)) = d (ix1 e) :=
    Cert.Lib.IndexNorm.wrap_of_nonneg (d (ix1 e)) 50000#32 hnn
  refine Fin.ext ?_
  show min (wrapCol d (ix2 e (0 : Fin 1))).toInt.toNat (50000 - 1) = v.val
  rw [hw, hx, Int.toNat_natCast]
  have := v.isLt
  omega

/-- One layer: the two groupings agree. -/
theorem layer_eq (s d : IVec (⟨1, ![850000]⟩ : Shape) 32) (h : Fin 50000 → Fin 64 → EReal) (b : Fin 64 → EReal) :
    layerK (wrapCol s) (plainCol d) h b = layerR (wrapCol s) (wrapCol d) (plainCol d) h b := by
  funext v k
  obtain ⟨c, hc, hcv⟩ := dinv_nonneg_real (plainCol d) v
  have hsum : (∑ e ∈ into (plainCol d) v,
        h (rowOf (wrapCol s) e) k * dinv (plainCol d) (rowOf (wrapCol s) e)) * (c : EReal)
      = ∑ e ∈ into (plainCol d) v,
        h (rowOf (wrapCol s) e) k * dinv (plainCol d) (rowOf (wrapCol s) e) * (c : EReal) :=
    (Cert.Lib.RowScatterAdd.sum_mul_coe_of_nonneg (into (plainCol d) v)
      (fun e => h (rowOf (wrapCol s) e) k * dinv (plainCol d) (rowOf (wrapCol s) e)) c hc).symm
  unfold layerK layerR
  rw [hcv, hsum]
  refine congrArg (fun t : EReal => t + b k) ?_
  refine Finset.sum_congr rfl fun e he => ?_
  rw [rowOf_wrapCol_of_into d v e he, hcv, mul_assoc]

/-- Two layers: the two groupings agree. -/
theorem out_eq (s d : IVec (⟨1, ![850000]⟩ : Shape) 32) (x : Fin 50000 → Fin 128 → EReal) (w1 : Fin 128 → Fin 64 → EReal)
    (b1 : Fin 64 → EReal) (w2 : Fin 64 → Fin 64 → EReal) (b2 : Fin 64 → EReal) :
    outK (wrapCol s) (plainCol d) x w1 b1 w2 b2 = outR (wrapCol s) (wrapCol d) (plainCol d) x w1 b1 w2 b2 := by
  unfold outK outR
  rw [layer_eq, layer_eq]

end Cert.Gcn

end
-- ==== Proof.lean ====
/-
  Two stacked graph-convolution layers, `x' = D^(-1/2) (A + I) D^(-1/2) (x W) + b` with a rectifier between them, on a graph
  of 50000 nodes and 850000 edges (the 800000 given ones and the 50000 self-loops): a kernel program of three kernels
  with host gathers and scatter-adds between them, against a plain reference.

  The reference weights every gathered row by `dinv[src e] · dinv[dst e]` before the scatter-add; the kernel program
  scales the rows by `dinv` before the gather and scales the aggregated row by `dinv[v]` afterwards.  On an edge that lands
  on node `v` the destination is `v`, and `dinv[v]` is a non-negative real, by which multiplication distributes over any
  finite sum of extended reals; so the two agree entry by entry for ALL inputs (the precondition is never opened).
  Changes of float format are the identity on the extended reals, and a matrix product into a zero accumulator is the
  plain sum on both sides.

  The frames: each kernel program runs as eight segments (three stretches of host operations, a kernel, a stretch, a
  kernel, a stretch, a kernel), the kernels' arrays taken out of the buffers and put back; the second kernel is handed
  the column of inverse square-root degrees through two windows, which hold a half share each.  The reference is a
  straight line of host operations.
-/
import proofs.«121536_j14388140441820_2_alg».proof.Defs
import proofs.«121536_j14388140441820_2_alg».proof.Proof.Gen.Kernel
import proofs.«121536_j14388140441820_2_alg».proof.Proof.Gen.KernelIdeal
import proofs.«121536_j14388140441820_2_alg».proof.Proof.Gen.ReferenceIdeal
import proofs.«121536_j14388140441820_2_alg».proof.Proof.Gen.Pre_finite_inputs
import proofs.«121536_j14388140441820_2_alg».proof.Proof.KFrame
import proofs.«121536_j14388140441820_2_alg».proof.Proof.KiFrame
import proofs.«121536_j14388140441820_2_alg».proof.Proof.KiValue
import proofs.«121536_j14388140441820_2_alg».proof.Proof.RefValue
import proofs.«121536_j14388140441820_2_alg».proof.Proof.SpecLaws
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames -/

theorem frame_p : Cert.frame_Kernel := fun m ρ _ => Cert.Kernel.Hand.frame m ρ
theorem frame_pi : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-! ## The two programs build the same index vectors -/

theorem src_eq (x1 : IVec Cert.ReferenceIdeal.S2x800000 32) :
    Cert.ReferenceIdeal.ReadP.val_main_v3 (F := Ideal) x1 = Cert.KernelIdeal.Hand.srcVec x1 := rfl
theorem dst_eq (x1 : IVec Cert.ReferenceIdeal.S2x800000 32) :
    Cert.ReferenceIdeal.ReadP.val_main_v6 (F := Ideal) x1 = Cert.KernelIdeal.Hand.dstVec x1 := rfl

/-! ## The results agree -/

open Cert.KernelIdeal.Hand in
/-- At the ideal instance the kernel program's result array ends at the two layers in the kernel's grouping and the
    reference's at the two layers in its own, of arguments that agree: one function (`Cert.Gcn.out_eq`). -/
theorem algebraic : Cert.algebraic_KernelIdeal_ReferenceIdeal := by
  intro m ρ m' ρ' _ hagree
  refine ⟨fun c => W8 m c Cert.KernelIdeal.main_v42, ?_, ?_⟩
  · exact (θ_run Cert.KernelIdeal.defs _ _).mono (fun r h c =>
      ⟨h c _ (mem_uc Cert.KernelIdeal.main_v42 (by decide)),
       (h c _ (mem_uc Cert.KernelIdeal.main_arg0 (by decide))).trans (W8_keep m c Cert.KernelIdeal.main_arg0 (by decide) (by decide) (by decide) (by decide) (by decide) (by decide) (by decide) (by decide)),
       (h c _ (mem_uc Cert.KernelIdeal.main_arg1 (by decide))).trans (W8_keep m c Cert.KernelIdeal.main_arg1 (by decide) (by decide) (by decide) (by decide) (by decide) (by decide) (by decide) (by decide)),
       (h c _ (mem_uc Cert.KernelIdeal.main_arg2 (by decide))).trans (W8_keep m c Cert.KernelIdeal.main_arg2 (by decide) (by decide) (by decide) (by decide) (by decide) (by decide) (by decide) (by decide)),
       (h c _ (mem_uc Cert.KernelIdeal.main_arg3 (by decide))).trans (W8_keep m c Cert.KernelIdeal.main_arg3 (by decide) (by decide) (by decide) (by decide) (by decide) (by decide) (by decide) (by decide)),
       (h c _ (mem_uc Cert.KernelIdeal.main_arg4 (by decide))).trans (W8_keep m c Cert.KernelIdeal.main_arg4 (by decide) (by decide) (by decide) (by decide) (by decide) (by decide) (by decide) (by decide)),
       (h c _ (mem_uc Cert.KernelIdeal.main_arg5 (by decide))).trans (W8_keep m c Cert.KernelIdeal.main_arg5 (by decide) (by decide) (by decide) (by decide) (by decide) (by decide) (by decide) (by decide))⟩)
      (run_all m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v87_eq, (hagree c).1, (hagree c).2.1, (hagree c).2.2.1, (hagree c).2.2.2.1,
      (hagree c).2.2.2.2.1, (hagree c).2.2.2.2.2]
    funext i
    obtain ⟨v, k, rfl⟩ : ∃ (v : Fin 50000) (k : Fin 64), i = ix2 v k := ⟨i 0, i 1, eq_ix2 i⟩
    rw [Cert.ReferenceIdeal.RefValue.ref_value, src_eq, dst_eq]
    refine Eq.trans ?_ (kernel_value m c v k).symm
    exact (congrFun (congrFun (Cert.Gcn.out_eq _ _ _ _ _ _ _) v) k).symm

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_p, Cert.Proof.frame_pi, Cert.Proof.frame_ri, Cert.Proof.preserves, Cert.Proof.algebraic⟩

end
